-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S3x256x256 : Shape := ⟨3, ![3, 256, 256]⟩
abbrev S3x256 : Shape := ⟨2, ![3, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_

variable [Facts]

def fn_part3 {F : FTy → Type} [FloatOps F] (main_arg13 : FVec F S3x256 .f32) (main_arg14 : FVec F S3x256 .f32) (main_v48 : IVec S_ 1) (main_v49 : FVec F S3x256 .f32) (main_v50 : FVec F S3x256 .f32) : IVec S_ 1 :=
  let main_v51 : IVec S3x256 1 := cmpf .olt main_v49 main_v50
  let main_c_19 : IVec S_ 1 := constantI S_ 1 1#1
  let main_v52 : IVec S_ 1 := (fun x v => Host.reduce IntOp.andi x v reducesTo_S3x256_S_d0_1 h_S_) main_v51 main_c_19
  let main_v53 : IVec S_ 1 := andi main_v48 main_v52
  let main_v54 : FVec F S3x256 .f32 := Host.absf main_arg13
  let main_cst_20 : FVec F S_ .f32 := constant S_ .f32 0x7F800000#32
  let main_v55 : FVec F S3x256 .f32 := broadcastInDim S3x256 ![] bcast_S_S3x256 main_cst_20
  let main_v56 : IVec S3x256 1 := cmpf .olt main_v54 main_v55
  let main_c_21 : IVec S_ 1 := constantI S_ 1 1#1
  let main_v57 : IVec S_ 1 := (fun x v => Host.reduce IntOp.andi x v reducesTo_S3x256_S_d0_1 h_S_) main_v56 main_c_21
  let main_v58 : IVec S_ 1 := andi main_v53 main_v57
  let main_v59 : FVec F S3x256 .f32 := Host.absf main_arg14
  let main_cst_22 : FVec F S_ .f32 := constant S_ .f32 0x7F800000#32
  let main_v60 : FVec F S3x256 .f32 := broadcastInDim S3x256 ![] bcast_S_S3x256 main_cst_22
  let main_v61 : IVec S3x256 1 := cmpf .olt main_v59 main_v60
  let main_c_23 : IVec S_ 1 := constantI S_ 1 1#1
  let main_v62 : IVec S_ 1 := (fun x v => Host.reduce IntOp.andi x v reducesTo_S3x256_S_d0_1 h_S_) main_v61 main_c_23
  let main_v63 : IVec S_ 1 := andi main_v58 main_v62
  main_v63

def fn_part2 {F : FTy → Type} [FloatOps F] (main_arg9 : FVec F S3x256x256 .f32) (main_arg10 : FVec F S3x256 .f32) (main_arg11 : FVec F S3x256x256 .f32) (main_arg12 : FVec F S3x256 .f32) (main_arg13 : FVec F S3x256 .f32) (main_arg14 : FVec F S3x256 .f32) (main_v33 : IVec S_ 1) : IVec S_ 1 :=
  let main_v34 : FVec F S3x256x256 .f32 := Host.absf main_arg9
  let main_cst_12 : FVec F S_ .f32 := constant S_ .f32 0x7F800000#32
  let main_v35 : FVec F S3x256x256 .f32 := broadcastInDim S3x256x256 ![] bcast_S_S3x256x256 main_cst_12
  let main_v36 : IVec S3x256x256 1 := cmpf .olt main_v34 main_v35
  let main_c_13 : IVec S_ 1 := constantI S_ 1 1#1
  let main_v37 : IVec S_ 1 := (fun x v => Host.reduce IntOp.andi x v reducesTo_S3x256x256_S_d0_1_2 h_S_) main_v36 main_c_13
  let main_v38 : IVec S_ 1 := andi main_v33 main_v37
  let main_v39 : FVec F S3x256 .f32 := Host.absf main_arg10
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  let main_v44 : FVec F S3x256x256 .f32 := Host.absf main_arg11
  let main_cst_16 : FVec F S_ .f32 := constant S_ .f32 0x7F800000#32
  let main_v45 : FVec F S3x256x256 .f32 := broadcastInDim S3x256x256 ![] bcast_S_S3x256x256 main_cst_16
  let main_v46 : IVec S3x256x256 1 := cmpf .olt main_v44 main_v45
  let main_c_17 : IVec S_ 1 := constantI S_ 1 1#1
  let main_v47 : IVec S_ 1 := (fun x v => Host.reduce IntOp.andi x v reducesTo_S3x256x256_S_d0_1_2 h_S_) main_v46 main_c_17
  let main_v48 : IVec S_ 1 := andi main_v43 main_v47
  let main_v49 : FVec F S3x256 .f32 := Host.absf main_arg12
  let main_cst_18 : FVec F S_ .f32 := constant S_ .f32 0x7F800000#32
  let main_v50 : FVec F S3x256 .f32 := broadcastInDim S3x256 ![] bcast_S_S3x256 main_cst_18
  fn_part3 (F := F) main_arg13 main_arg14 main_v48 main_v49 main_v50

def fn_part1 {F : FTy → Type} [FloatOps F] (main_arg6 : FVec F S256 .f32) (main_arg7 : FVec F S256 .f32) (main_arg8 : FVec F S256 .f32) (main_arg9 : FVec F S3x256x256 .f32) (main_arg10 : FVec F S3x256 .f32) (main_arg11 : FVec F S3x256x256 .f32) (main_arg12 : FVec F S3x256 .f32) (main_arg13 : FVec F S3x256 .f32) (main_arg14 : FVec F S3x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x256 .f32) (main_arg6 : FVec F S256 .f32) (main_arg7 : FVec F S256 .f32) (main_arg8 : FVec F S256 .f32) (main_arg9 : FVec F S3x256x256 .f32) (main_arg10 : FVec F S3x256 .f32) (main_arg11 : FVec F S3x256x256 .f32) (main_arg12 : FVec F S3x256 .f32) (main_arg13 : FVec F S3x256 .f32) (main_arg14 : FVec F S3x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S3x256x256 : Shape := ⟨3, ![3, 256, 256]⟩
abbrev S3x256 : Shape := ⟨2, ![3, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S2000x128 : Shape := ⟨2, ![2000, 128]⟩
abbrev S2000x256 : Shape := ⟨2, ![2000, 256]⟩
abbrev S1x256 : Shape := ⟨2, ![1, 256]⟩
abbrev S1x256x256 : Shape := ⟨3, ![1, 256, 256]⟩
abbrev S800000x256 : Shape := ⟨2, ![800000, 256]⟩
abbrev S64 : Shape := ⟨1, ![64]⟩
abbrev S50000x1 : Shape := ⟨2, ![50000, 1]⟩
abbrev S64x256 : Shape := ⟨2, ![64, 256]⟩
abbrev S64x1 : Shape := ⟨2, ![64, 1]⟩

abbrev nBuf : Space → Nat
  | .hbm => 243
  | .vmem => 72
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256, .f32⟩
  | 8 => ⟨S256, .f32⟩
  | 9 => ⟨S3x256x256, .f32⟩
  | 10 => ⟨S3x256, .f32⟩
  | 11 => ⟨S3x256x256, .f32⟩
  | 12 => ⟨S3x256, .f32⟩
  | 13 => ⟨S3x256, .f32⟩
  | 14 => ⟨S3x256, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S50000x256, .f32⟩
  | 33 => ⟨S_, .f32⟩
  | 34 => ⟨S256, .f32⟩
  | 35 => ⟨S_, .f32⟩
  | 36 => ⟨S256, .f32⟩
  | 37 => ⟨S256, .f32⟩
  | 38 => ⟨S_, .i32⟩
  | 39 => ⟨S_, .f32⟩
  | 40 => ⟨S256, .f32⟩
  | 41 => ⟨S1x256, .f32⟩
  | 42 => ⟨S_, .f32⟩
  | 43 => ⟨S1x256, .f32⟩
  | 44 => ⟨S1x256, .f32⟩
  | 45 => ⟨S50000x256, .f32⟩
  | 46 => ⟨S50000x256, .f32⟩
  | 47 => ⟨S50000x256, .f32⟩
  | 48 => ⟨S_, .f32⟩
  | 49 => ⟨S_, .f32⟩
  | 50 => ⟨S_, .f32⟩
  | 51 => ⟨S_, .f32⟩
  | 52 => ⟨S256, .f32⟩
  | 53 => ⟨S256, .f32⟩
  | 54 => ⟨S256, .f32⟩
  | 55 => ⟨S_, .f32⟩
  | 56 => ⟨S_, .i1⟩
  | 57 => ⟨S_, .f32⟩
  | 58 => ⟨S_, .f32⟩
  | 59 => ⟨S256, .f32⟩
  | 60 => ⟨S256, .f32⟩
  | 61 => ⟨S50000x256, .f32⟩
  | 62 => ⟨S1x256x256, .f32⟩
  | 63 => ⟨S256x256, .f32⟩
  | 64 => ⟨S1x256, .f32⟩
  | 65 => ⟨S256, .f32⟩
  | 66 => ⟨S1x256x256, .f32⟩
  | 67 => ⟨S256x256, .f32⟩
  | 68 => ⟨S1x256, .f32⟩
  | 69 => ⟨S256, .f32⟩
  | 70 => ⟨S1x256, .f32⟩
  | 71 => ⟨S256, .f32⟩
  | 72 => ⟨S1x256, .f32⟩
  | 73 => ⟨S256, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x256, .f32⟩
  | 83 => ⟨S_, .f32⟩
  | 84 => ⟨S50000x256, .f32⟩
  | 85 => ⟨S800000x1, .i32⟩
  | 86 => ⟨S50000x256, .f32⟩
  | 87 => ⟨S50000x256, .f32⟩
  | 88 => ⟨S_, .f32⟩
  | 89 => ⟨S256, .f32⟩
  | 90 => ⟨S_, .f32⟩
  | 91 => ⟨S256, .f32⟩
  | 92 => ⟨S256, .f32⟩
  | 93 => ⟨S_, .i32⟩
  | 94 => ⟨S_, .f32⟩
  | 95 => ⟨S256, .f32⟩
  | 96 => ⟨S1x256, .f32⟩
  | 97 => ⟨S_, .f32⟩
  | 98 => ⟨S1x256, .f32⟩
  | 99 => ⟨S1x256, .f32⟩
  | 100 => ⟨S50000x256, .f32⟩
  | 101 => ⟨S50000x256, .f32⟩
  | 102 => ⟨S50000x256, .f32⟩
  | 103 => ⟨S_, .f32⟩
  | 104 => ⟨S_, .f32⟩
  | 105 => ⟨S_, .f32⟩
  | 106 => ⟨S_, .f32⟩
  | 107 => ⟨S256, .f32⟩
  | 108 => ⟨S256, .f32⟩
  | 109 => ⟨S256, .f32⟩
  | 110 => ⟨S_, .f32⟩
  | 111 => ⟨S_, .i1⟩
  | 112 => ⟨S_, .f32⟩
  | 113 => ⟨S_, .f32⟩
  | 114 => ⟨S256, .f32⟩
  | 115 => ⟨S256, .f32⟩
  | 116 => ⟨S50000x256, .f32⟩
  | 117 => ⟨S1x256x256, .f32⟩
  | 118 => ⟨S256x256, .f32⟩
  | 119 => ⟨S1x256, .f32⟩
  | 120 => ⟨S256, .f32⟩
  | 121 => ⟨S1x256x256, .f32⟩
  | 122 => ⟨S256x256, .f32⟩
  | 123 => ⟨S1x256, .f32⟩
  | 124 => ⟨S256, .f32⟩
  | 125 => ⟨S1x256, .f32⟩
  | 126 => ⟨S256, .f32⟩
  | 127 => ⟨S1x256, .f32⟩
  | _ => ⟨S50000x128, .f32⟩

abbrev hbmTy0_1 (i : Nat) : BufTy := match i % 128 with
  | 0 => ⟨S256, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x256, .f32⟩
  | 10 => ⟨S_, .f32⟩
  | 11 => ⟨S50000x256, .f32⟩
  | 12 => ⟨S800000x1, .i32⟩
  | 13 => ⟨S50000x256, .f32⟩
  | 14 => ⟨S50000x256, .f32⟩
  | 15 => ⟨S_, .f32⟩
  | 16 => ⟨S256, .f32⟩
  | 17 => ⟨S_, .f32⟩
  | 18 => ⟨S256, .f32⟩
  | 19 => ⟨S256, .f32⟩
  | 20 => ⟨S_, .i32⟩
  | 21 => ⟨S_, .f32⟩
  | 22 => ⟨S256, .f32⟩
  | 23 => ⟨S1x256, .f32⟩
  | 24 => ⟨S_, .f32⟩
  | 25 => ⟨S1x256, .f32⟩
  | 26 => ⟨S1x256, .f32⟩
  | 27 => ⟨S50000x256, .f32⟩
  | 28 => ⟨S50000x256, .f32⟩
  | 29 => ⟨S50000x256, .f32⟩
  | 30 => ⟨S_, .f32⟩
  | 31 => ⟨S_, .f32⟩
  | 32 => ⟨S_, .f32⟩
  | 33 => ⟨S_, .f32⟩
  | 34 => ⟨S256, .f32⟩
  | 35 => ⟨S256, .f32⟩
  | 36 => ⟨S256, .f32⟩
  | 37 => ⟨S_, .f32⟩
  | 38 => ⟨S_, .i1⟩
  | 39 => ⟨S_, .f32⟩
  | 40 => ⟨S_, .f32⟩
  | 41 => ⟨S256, .f32⟩
  | 42 => ⟨S256, .f32⟩
  | 43 => ⟨S50000x256, .f32⟩
  | 44 => ⟨S1x256x256, .f32⟩
  | 45 => ⟨S256x256, .f32⟩
  | 46 => ⟨S1x256, .f32⟩
  | 47 => ⟨S256, .f32⟩
  | 48 => ⟨S1x256x256, .f32⟩
  | 49 => ⟨S256x256, .f32⟩
  | 50 => ⟨S1x256, .f32⟩
  | 51 => ⟨S256, .f32⟩
  | 52 => ⟨S1x256, .f32⟩
  | 53 => ⟨S256, .f32⟩
  | 54 => ⟨S1x256, .f32⟩
  | 55 => ⟨S256, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x256, .f32⟩
  | 65 => ⟨S_, .f32⟩
  | 66 => ⟨S50000x256, .f32⟩
  | 67 => ⟨S800000x1, .i32⟩
  | 68 => ⟨S50000x256, .f32⟩
  | 69 => ⟨S50000x256, .f32⟩
  | 70 => ⟨S_, .f32⟩
  | 71 => ⟨S256, .f32⟩
  | 72 => ⟨S_, .f32⟩
  | 73 => ⟨S256, .f32⟩
  | 74 => ⟨S256, .f32⟩
  | 75 => ⟨S_, .i32⟩
  | 76 => ⟨S_, .f32⟩
  | 77 => ⟨S256, .f32⟩
  | 78 => ⟨S1x256, .f32⟩
  | 79 => ⟨S_, .f32⟩
  | 80 => ⟨S1x256, .f32⟩
  | 81 => ⟨S1x256, .f32⟩
  | 82 => ⟨S50000x256, .f32⟩
  | 83 => ⟨S50000x256, .f32⟩
  | 84 => ⟨S50000x256, .f32⟩
  | 85 => ⟨S_, .f32⟩
  | 86 => ⟨S_, .f32⟩
  | 87 => ⟨S_, .f32⟩
  | 88 => ⟨S_, .f32⟩
  | 89 => ⟨S256, .f32⟩
  | 90 => ⟨S256, .f32⟩
  | 91 => ⟨S256, .f32⟩
  | 92 => ⟨S_, .f32⟩
  | 93 => ⟨S_, .i1⟩
  | 94 => ⟨S_, .f32⟩
  | 95 => ⟨S_, .f32⟩
  | 96 => ⟨S256, .f32⟩
  | 97 => ⟨S256, .f32⟩
  | 98 => ⟨S50000x256, .f32⟩
  | 99 => ⟨S_, .f32⟩
  | 100 => ⟨S50000, .f32⟩
  | 101 => ⟨S_, .f32⟩
  | 102 => ⟨S64, .f32⟩
  | 103 => ⟨S50000x1, .i32⟩
  | 104 => ⟨S64, .f32⟩
  | 105 => ⟨S_, .f32⟩
  | 106 => ⟨S64x256, .f32⟩
  | 107 => ⟨S50000x1, .i32⟩
  | 108 => ⟨S64x256, .f32⟩
  | 109 => ⟨S_, .f32⟩
  | 110 => ⟨S64, .f32⟩
  | 111 => ⟨S64, .f32⟩
  | 112 => ⟨S64x1, .f32⟩
  | 113 => ⟨S64x256, .f32⟩
  | 114 => ⟨S64x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256, .f32⟩
  | .local _ .vmem, ⟨13, _⟩ => ⟨S256, .f32⟩
  | .local _ .vmem, ⟨14, _⟩ => ⟨S256, .f32⟩
  | .local _ .vmem, ⟨15, _⟩ => ⟨S256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S256, .f32⟩
  | .local _ .vmem, ⟨24, _⟩ => ⟨S256x256, .f32⟩
  | .local _ .vmem, ⟨25, _⟩ => ⟨S256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S256, .f32⟩
  | .local _ .vmem, ⟨31, _⟩ => ⟨S256, .f32⟩
  | .local _ .vmem, ⟨32, _⟩ => ⟨S256, .f32⟩
  | .local _ .vmem, ⟨33, _⟩ => ⟨S256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S256x256, .f32⟩
  | .local _ .vmem, ⟨41, _⟩ => ⟨S256, .f32⟩
  | .local _ .vmem, ⟨42, _⟩ => ⟨S256x256, .f32⟩
  | .local _ .vmem, ⟨43, _⟩ => ⟨S256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S256, .f32⟩
  | .local _ .vmem, ⟨49, _⟩ => ⟨S256, .f32⟩
  | .local _ .vmem, ⟨50, _⟩ => ⟨S256, .f32⟩
  | .local _ .vmem, ⟨51, _⟩ => ⟨S256, .f32⟩
  | .local _ .vmem, ⟨52, _⟩ => ⟨S2000x256, .f32⟩
  | .local _ .vmem, ⟨53, _⟩ => ⟨S2000x256, .f32⟩
  | .local _ .vmem, ⟨54, _⟩ => ⟨S2000x256, .f32⟩
  | .local _ .vmem, ⟨55, _⟩ => ⟨S2000x256, .f32⟩
  | .local _ .vmem, ⟨56, _⟩ => ⟨S2000x256, .f32⟩
  | .local _ .vmem, ⟨57, _⟩ => ⟨S2000x256, .f32⟩
  | .local _ .vmem, ⟨58, _⟩ => ⟨S256x256, .f32⟩
  | .local _ .vmem, ⟨59, _⟩ => ⟨S256, .f32⟩
  | .local _ .vmem, ⟨60, _⟩ => ⟨S256x256, .f32⟩
  | .local _ .vmem, ⟨61, _⟩ => ⟨S256, .f32⟩
  | .local _ .vmem, ⟨62, _⟩ => ⟨S2000x256, .f32⟩
  | .local _ .vmem, ⟨63, _⟩ => ⟨S2000x256, .f32⟩
  | .local _ .vmem, ⟨64, _⟩ => ⟨S2000x256, .f32⟩
  | .local _ .vmem, ⟨65, _⟩ => ⟨S2000x256, .f32⟩
  | .local _ .vmem, ⟨66, _⟩ => ⟨S256, .f32⟩
  | .local _ .vmem, ⟨67, _⟩ => ⟨S256, .f32⟩
  | .local _ .vmem, ⟨68, _⟩ => ⟨S256, .f32⟩
  | .local _ .vmem, ⟨69, _⟩ => ⟨S256, .f32⟩
  | .local _ .vmem, ⟨70, _⟩ => ⟨S2000x256, .f32⟩
  | .local _ .vmem, ⟨71, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_cst_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_cst_1 : Ref sig .tc := ⟨.hbm, 49, rfl⟩
abbrev main_call0_v8 : Ref sig .tc := ⟨.hbm, 50, rfl⟩
abbrev main_call0_cst_2 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_cst_3 : Ref sig .tc := ⟨.hbm, 55, rfl⟩
abbrev main_call0_v12 : Ref sig .tc := ⟨.hbm, 56, rfl⟩
abbrev main_call0_cst_4 : Ref sig .tc := ⟨.hbm, 57, rfl⟩
abbrev main_call0_call0_v0 : Ref sig .tc := ⟨.hbm, 58, rfl⟩
abbrev main_call0_call0_v1 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_c_4 : Ref sig .tc := ⟨.hbm, 74, rfl⟩
abbrev main_v32 : Ref sig .tc := ⟨.hbm, 75, rfl⟩
abbrev main_v33 : Ref sig .tc := ⟨.hbm, 76, rfl⟩
abbrev main_c_5 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_6 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_cst_7 : Ref sig .tc := ⟨.hbm, 88, rfl⟩
abbrev main_v43 : Ref sig .tc := ⟨.hbm, 89, rfl⟩
abbrev main_cst_8 : Ref sig .tc := ⟨.hbm, 90, rfl⟩
abbrev main_v44 : Ref sig .tc := ⟨.hbm, 91, rfl⟩
abbrev main_v45 : Ref sig .tc := ⟨.hbm, 92, rfl⟩
abbrev main_c_9 : Ref sig .tc := ⟨.hbm, 93, rfl⟩
abbrev main_call1_cst : Ref sig .tc := ⟨.hbm, 94, rfl⟩
abbrev main_call1_v0 : Ref sig .tc := ⟨.hbm, 95, rfl⟩
abbrev main_call1_v1 : Ref sig .tc := ⟨.hbm, 96, rfl⟩
abbrev main_call1_cst_0 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_call1_v5 : Ref sig .tc := ⟨.hbm, 101, rfl⟩
abbrev main_call1_v6 : Ref sig .tc := ⟨.hbm, 102, rfl⟩
abbrev main_call1_v7 : Ref sig .tc := ⟨.hbm, 103, rfl⟩
abbrev main_call1_cst_1 : Ref sig .tc := ⟨.hbm, 104, rfl⟩
abbrev main_call1_v8 : Ref sig .tc := ⟨.hbm, 105, rfl⟩
abbrev main_call1_cst_2 : Ref sig .tc := ⟨.hbm, 106, rfl⟩
abbrev main_call1_v9 : Ref sig .tc := ⟨.hbm, 107, rfl⟩
abbrev main_call1_v10 : Ref sig .tc := ⟨.hbm, 108, rfl⟩
abbrev main_call1_v11 : Ref sig .tc := ⟨.hbm, 109, rfl⟩
abbrev main_call1_cst_3 : Ref sig .tc := ⟨.hbm, 110, rfl⟩
abbrev main_call1_v12 : Ref sig .tc := ⟨.hbm, 111, rfl⟩
abbrev main_call1_cst_4 : Ref sig .tc := ⟨.hbm, 112, rfl⟩
abbrev main_call1_call0_v0 : Ref sig .tc := ⟨.hbm, 113, rfl⟩
abbrev main_call1_call0_v1 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_c_10 : Ref sig .tc := ⟨.hbm, 129, rfl⟩
abbrev main_v60 : Ref sig .tc := ⟨.hbm, 130, rfl⟩
abbrev main_v61 : Ref sig .tc := ⟨.hbm, 131, rfl⟩
abbrev main_c_11 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_cst_12 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_cst_13 : Ref sig .tc := ⟨.hbm, 143, rfl⟩
abbrev main_v71 : Ref sig .tc := ⟨.hbm, 144, rfl⟩
abbrev main_cst_14 : Ref sig .tc := ⟨.hbm, 145, rfl⟩
abbrev main_v72 : Ref sig .tc := ⟨.hbm, 146, rfl⟩
abbrev main_v73 : Ref sig .tc := ⟨.hbm, 147, rfl⟩
abbrev main_c_15 : Ref sig .tc := ⟨.hbm, 148, rfl⟩
abbrev main_call2_cst : Ref sig .tc := ⟨.hbm, 149, rfl⟩
abbrev main_call2_v0 : Ref sig .tc := ⟨.hbm, 150, rfl⟩
abbrev main_call2_v1 : Ref sig .tc := ⟨.hbm, 151, rfl⟩
abbrev main_call2_cst_0 : Ref sig .tc := ⟨.hbm, 152, rfl⟩
abbrev main_call2_v2 : Ref sig .tc := ⟨.hbm, 153, rfl⟩
abbrev main_call2_v3 : Ref sig .tc := ⟨.hbm, 154, rfl⟩
abbrev main_call2_v4 : Ref sig .tc := ⟨.hbm, 155, rfl⟩
abbrev main_call2_v5 : Ref sig .tc := ⟨.hbm, 156, rfl⟩
abbrev main_call2_v6 : Ref sig .tc := ⟨.hbm, 157, rfl⟩
abbrev main_call2_v7 : Ref sig .tc := ⟨.hbm, 158, rfl⟩
abbrev main_call2_cst_1 : Ref sig .tc := ⟨.hbm, 159, rfl⟩
abbrev main_call2_v8 : Ref sig .tc := ⟨.hbm, 160, rfl⟩
abbrev main_call2_cst_2 : Ref sig .tc := ⟨.hbm, 161, rfl⟩
abbrev main_call2_v9 : Ref sig .tc := ⟨.hbm, 162, rfl⟩
abbrev main_call2_v10 : Ref sig .tc := ⟨.hbm, 163, rfl⟩
abbrev main_call2_v11 : Ref sig .tc := ⟨.hbm, 164, rfl⟩
abbrev main_call2_cst_3 : Ref sig .tc := ⟨.hbm, 165, rfl⟩
abbrev main_call2_v12 : Ref sig .tc := ⟨.hbm, 166, rfl⟩
abbrev main_call2_cst_4 : Ref sig .tc := ⟨.hbm, 167, rfl⟩
abbrev main_call2_call0_v0 : Ref sig .tc := ⟨.hbm, 168, rfl⟩
abbrev main_call2_call0_v1 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_v83 : Ref sig .tc := ⟨.hbm, 179, rfl⟩
abbrev main_v84 : Ref sig .tc := ⟨.hbm, 180, rfl⟩
abbrev main_v85 : Ref sig .tc := ⟨.hbm, 181, rfl⟩
abbrev main_v86 : Ref sig .tc := ⟨.hbm, 182, rfl⟩
abbrev main_v87 : Ref sig .tc := ⟨.hbm, 183, rfl⟩
abbrev main_c_16 : Ref sig .tc := ⟨.hbm, 184, rfl⟩
abbrev main_v88 : Ref sig .tc := ⟨.hbm, 185, rfl⟩
abbrev main_v89 : Ref sig .tc := ⟨.hbm, 186, rfl⟩
abbrev main_c_17 : Ref sig .tc := ⟨.hbm, 187, rfl⟩
abbrev main_v90 : Ref sig .tc := ⟨.hbm, 188, rfl⟩
abbrev main_v91 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_cst_18 : Ref sig .tc := ⟨.hbm, 193, rfl⟩
abbrev main_v95 : Ref sig .tc := ⟨.hbm, 194, rfl⟩
abbrev main_v96 : Ref sig .tc := ⟨.hbm, 195, rfl⟩
abbrev main_v97 : Ref sig .tc := ⟨.hbm, 196, rfl⟩
abbrev main_v98 : Ref sig .tc := ⟨.hbm, 197, rfl⟩
abbrev main_cst_19 : Ref sig .tc := ⟨.hbm, 198, rfl⟩
abbrev main_v99 : Ref sig .tc := ⟨.hbm, 199, rfl⟩
abbrev main_cst_20 : Ref sig .tc := ⟨.hbm, 200, rfl⟩
abbrev main_v100 : Ref sig .tc := ⟨.hbm, 201, rfl⟩
abbrev main_v101 : Ref sig .tc := ⟨.hbm, 202, rfl⟩
abbrev main_c_21 : Ref sig .tc := ⟨.hbm, 203, rfl⟩
abbrev main_call3_cst : Ref sig .tc := ⟨.hbm, 204, rfl⟩
abbrev main_call3_v0 : Ref sig .tc := ⟨.hbm, 205, rfl⟩
abbrev main_call3_v1 : Ref sig .tc := ⟨.hbm, 206, rfl⟩
abbrev main_call3_cst_0 : Ref sig .tc := ⟨.hbm, 207, rfl⟩
abbrev main_call3_v2 : Ref sig .tc := ⟨.hbm, 208, rfl⟩
abbrev main_call3_v3 : Ref sig .tc := ⟨.hbm, 209, rfl⟩
abbrev main_call3_v4 : Ref sig .tc := ⟨.hbm, 210, rfl⟩
abbrev main_call3_v5 : Ref sig .tc := ⟨.hbm, 211, rfl⟩
abbrev main_call3_v6 : Ref sig .tc := ⟨.hbm, 212, rfl⟩
abbrev main_call3_v7 : Ref sig .tc := ⟨.hbm, 213, rfl⟩
abbrev main_call3_cst_1 : Ref sig .tc := ⟨.hbm, 214, rfl⟩
abbrev main_call3_v8 : Ref sig .tc := ⟨.hbm, 215, rfl⟩
abbrev main_call3_cst_2 : Ref sig .tc := ⟨.hbm, 216, rfl⟩
abbrev main_call3_v9 : Ref sig .tc := ⟨.hbm, 217, rfl⟩
abbrev main_call3_v10 : Ref sig .tc := ⟨.hbm, 218, rfl⟩
abbrev main_call3_v11 : Ref sig .tc := ⟨.hbm, 219, rfl⟩
abbrev main_call3_cst_3 : Ref sig .tc := ⟨.hbm, 220, rfl⟩
abbrev main_call3_v12 : Ref sig .tc := ⟨.hbm, 221, rfl⟩
abbrev main_call3_cst_4 : Ref sig .tc := ⟨.hbm, 222, rfl⟩
abbrev main_call3_call0_v0 : Ref sig .tc := ⟨.hbm, 223, rfl⟩
abbrev main_call3_call0_v1 : Ref sig .tc := ⟨.hbm, 224, rfl⟩
abbrev main_v102 : Ref sig .tc := ⟨.hbm, 225, rfl⟩
abbrev main_v103 : Ref sig .tc := ⟨.hbm, 226, rfl⟩
abbrev main_cst_22 : Ref sig .tc := ⟨.hbm, 227, rfl⟩
abbrev main_v104 : Ref sig .tc := ⟨.hbm, 228, rfl⟩
abbrev main_cst_23 : Ref sig .tc := ⟨.hbm, 229, rfl⟩
abbrev main_v105 : Ref sig .tc := ⟨.hbm, 230, rfl⟩
abbrev main_v106 : Ref sig .tc := ⟨.hbm, 231, rfl⟩
abbrev main_v107 : Ref sig .tc := ⟨.hbm, 232, rfl⟩
abbrev main_cst_24 : Ref sig .tc := ⟨.hbm, 233, rfl⟩
abbrev main_v108 : Ref sig .tc := ⟨.hbm, 234, rfl⟩
abbrev main_v109 : Ref sig .tc := ⟨.hbm, 235, rfl⟩
abbrev main_v110 : Ref sig .tc := ⟨.hbm, 236, rfl⟩
abbrev main_cst_25 : Ref sig .tc := ⟨.hbm, 237, rfl⟩
abbrev main_v111 : Ref sig .tc := ⟨.hbm, 238, rfl⟩
abbrev main_v112 : Ref sig .tc := ⟨.hbm, 239, rfl⟩
abbrev main_v113 : Ref sig .tc := ⟨.hbm, 240, rfl⟩
abbrev main_v114 : Ref sig .tc := ⟨.hbm, 241, rfl⟩
abbrev main_v115 : Ref sig .tc := ⟨.hbm, 242, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg6_0 : Ref sig .tc := ⟨.vmem, 62, rfl⟩
abbrev cc6_stg6_1 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg2_0 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg5_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem6_0 : DmaSem sig := 62
abbrev cc6_sem6_1 : DmaSem sig := 63
abbrev cc7_sem0_0 : DmaSem sig := 64
abbrev cc7_sem0_1 : DmaSem sig := 65
abbrev cc7_sem1_0 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem5_1 : DmaSem sig := 71

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x256 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  reducesTo_S50000x256_S256_d0 : S50000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S50000x256_0_1 : S1x256.BroadcastsInDim S50000x256 (![0, 1] : Fin 2 → Fin S50000x256.rank)
  shapeCasts_S2000x256_S2000x256 : S2000x256.ShapeCasts S2000x256
  shapeCasts_S256_S256 : S256.ShapeCasts S256
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S_S50000x256 : S_.BroadcastsInDim S50000x256 (![] : Fin 0 → Fin S50000x256.rank)
  shapeCasts_S256x256_S256x256 : S256x256.ShapeCasts S256x256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S50000 : S_.BroadcastsInDim S50000 (![] : Fin 0 → Fin S50000.rank)
  bcast_S_S64 : S_.BroadcastsInDim S64 (![] : Fin 0 → Fin S64.rank)
  bcast_S50000_S50000x1_0 : S50000.BroadcastsInDim S50000x1 (![0] : Fin 1 → Fin S50000x1.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S64_S50000x1_S50000_n_0_0_1_wf : ScatterDims.WF S64 S50000x1 S50000 [] [0] [0] 1
  scatter_S64x256_S50000x1_S50000x256_1_0_0_1_wf : ScatterDims.WF S64x256 S50000x1 S50000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256.size a ≤ S256.size a
  hwx2_5 : ∀ i : grid2.Coords, EltTy.bits .f32 = 32 ∨ (Rect.block (s := S256) S256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S50000x256.size a
  hwx2_6 : ∀ i : grid2.Coords, EltTy.bits .f32 = 32 ∨ (Rect.block (s := S50000x256) S2000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256.size a ≤ S256.size a
  hwx3_1 : ∀ i : grid3.Coords, EltTy.bits .f32 = 32 ∨ (Rect.block (s := S256) S256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256.size a ≤ S256.size a
  hwx3_2 : ∀ i : grid3.Coords, EltTy.bits .f32 = 32 ∨ (Rect.block (s := S256) S256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256.size a ≤ S256.size a
  hwx3_4 : ∀ i : grid3.Coords, EltTy.bits .f32 = 32 ∨ (Rect.block (s := S256) S256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256.size a ≤ S256.size a
  hwx4_3 : ∀ i : grid4.Coords, EltTy.bits .f32 = 32 ∨ (Rect.block (s := S256) S256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .f32 = 32 ∨ (Rect.block (s := S256x256) S256x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256.size a ≤ S256.size a
  hwx4_5 : ∀ i : grid4.Coords, EltTy.bits .f32 = 32 ∨ (Rect.block (s := S256) S256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x256.size a ≤ S50000x256.size a
  hwx4_6 : ∀ i : grid4.Coords, EltTy.bits .f32 = 32 ∨ (Rect.block (s := S50000x256) S2000x256.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256.size a ≤ S256.size a
  hwx5_1 : ∀ i : grid5.Coords, EltTy.bits .f32 = 32 ∨ (Rect.block (s := S256) S256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256.size a ≤ S256.size a
  hwx5_2 : ∀ i : grid5.Coords, EltTy.bits .f32 = 32 ∨ (Rect.block (s := S256) S256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256.size a ≤ S256.size a
  hwx5_3 : ∀ i : grid5.Coords, EltTy.bits .f32 = 32 ∨ (Rect.block (s := S256) S256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256.size a ≤ S256.size a
  hwx5_4 : ∀ i : grid5.Coords, EltTy.bits .f32 = 32 ∨ (Rect.block (s := S256) S256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S50000x256.size a
  hwx5_5 : ∀ i : grid5.Coords, EltTy.bits .f32 = 32 ∨ (Rect.block (s := S50000x256) S2000x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S50000x256.size a
  hwx6_1 : ∀ i : grid6.Coords, EltTy.bits .f32 = 32 ∨ (Rect.block (s := S50000x256) S2000x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S256x256.size a
  hwx6_2 : ∀ i : grid6.Coords, EltTy.bits .f32 = 32 ∨ (Rect.block (s := S256x256) S256x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256.size a ≤ S256.size a
  hwx6_3 : ∀ i : grid6.Coords, EltTy.bits .f32 = 32 ∨ (Rect.block (s := S256) S256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x256.size a ≤ S256x256.size a
  hwx6_4 : ∀ i : grid6.Coords, EltTy.bits .f32 = 32 ∨ (Rect.block (s := S256x256) S256x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256.size a ≤ S256.size a
  hwx6_5 : ∀ i : grid6.Coords, EltTy.bits .f32 = 32 ∨ (Rect.block (s := S256) S256.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x256.size a ≤ S50000x256.size a
  hwx6_6 : ∀ i : grid6.Coords, EltTy.bits .f32 = 32 ∨ (Rect.block (s := S50000x256) S2000x256.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S50000x256.size a
  hwx7_0 : ∀ i : grid7.Coords, EltTy.bits .f32 = 32 ∨ (Rect.block (s := S50000x256) S2000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256.size a ≤ S256.size a
  hwx7_1 : ∀ i : grid7.Coords, EltTy.bits .f32 = 32 ∨ (Rect.block (s := S256) S256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256.size a ≤ S256.size a
  hwx7_2 : ∀ i : grid7.Coords, EltTy.bits .f32 = 32 ∨ (Rect.block (s := S256) S256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256.size a ≤ S256.size a
  hwx7_3 : ∀ i : grid7.Coords, EltTy.bits .f32 = 32 ∨ (Rect.block (s := S256) S256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S256.size a ≤ S256.size a
  hwx7_4 : ∀ i : grid7.Coords, EltTy.bits .f32 = 32 ∨ (Rect.block (s := S256) S256.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x256.size a ≤ S50000x256.size a
  hwx7_5 : ∀ i : grid7.Coords, EltTy.bits .f32 = 32 ∨ (Rect.block (s := S50000x256) S2000x256.size (cc7_transform_5 i) (hinb7_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v42) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v29) S256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v31) S256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v47) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v69) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v49) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v51) S256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v53) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v55) S256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v70) S2000x256.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v70) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v59) S256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v75) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v97) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v75) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v77) S256x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v79) S256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v81) S256x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v83) S256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v98) S2000x256.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v98) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v101) S256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v102) S256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v85) S256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v87) S256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v103) S2000x256.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S3x256x256 : Shape := ⟨3, ![3, 256, 256]⟩
abbrev S3x256 : Shape := ⟨2, ![3, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S1x256x256 : Shape := ⟨3, ![1, 256, 256]⟩
abbrev S800000x256 : Shape := ⟨2, ![800000, 256]⟩
abbrev S64 : Shape := ⟨1, ![64]⟩
abbrev S50000x1 : Shape := ⟨2, ![50000, 1]⟩
abbrev S64x256 : Shape := ⟨2, ![64, 256]⟩
abbrev S64x1 : Shape := ⟨2, ![64, 1]⟩

abbrev nBuf : Space → Nat
  | .hbm => 359
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256, .f32⟩
  | 8 => ⟨S256, .f32⟩
  | 9 => ⟨S3x256x256, .f32⟩
  | 10 => ⟨S3x256, .f32⟩
  | 11 => ⟨S3x256x256, .f32⟩
  | 12 => ⟨S3x256, .f32⟩
  | 13 => ⟨S3x256, .f32⟩
  | 14 => ⟨S3x256, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S50000x128, .f32⟩
  | 33 => ⟨S50000x256, .f32⟩
  | 34 => ⟨S1x256, .f32⟩
  | 35 => ⟨S50000x256, .f32⟩
  | 36 => ⟨S50000x256, .f32⟩
  | 37 => ⟨S_, .f32⟩
  | 38 => ⟨S50000x256, .f32⟩
  | 39 => ⟨S50000x256, .f32⟩
  | 40 => ⟨S50000x256, .f32⟩
  | 41 => ⟨S1x256, .f32⟩
  | 42 => ⟨S50000x256, .f32⟩
  | 43 => ⟨S50000x256, .f32⟩
  | 44 => ⟨S_, .f32⟩
  | 45 => ⟨S256, .f32⟩
  | 46 => ⟨S_, .f32⟩
  | 47 => ⟨S256, .f32⟩
  | 48 => ⟨S256, .f32⟩
  | 49 => ⟨S_, .i32⟩
  | 50 => ⟨S_, .f32⟩
  | 51 => ⟨S256, .f32⟩
  | 52 => ⟨S1x256, .f32⟩
  | 53 => ⟨S_, .f32⟩
  | 54 => ⟨S1x256, .f32⟩
  | 55 => ⟨S1x256, .f32⟩
  | 56 => ⟨S50000x256, .f32⟩
  | 57 => ⟨S50000x256, .f32⟩
  | 58 => ⟨S50000x256, .f32⟩
  | 59 => ⟨S_, .f32⟩
  | 60 => ⟨S_, .f32⟩
  | 61 => ⟨S_, .f32⟩
  | 62 => ⟨S_, .f32⟩
  | 63 => ⟨S256, .f32⟩
  | 64 => ⟨S256, .f32⟩
  | 65 => ⟨S256, .f32⟩
  | 66 => ⟨S_, .f32⟩
  | 67 => ⟨S_, .i1⟩
  | 68 => ⟨S_, .f32⟩
  | 69 => ⟨S_, .f32⟩
  | 70 => ⟨S256, .f32⟩
  | 71 => ⟨S256, .f32⟩
  | 72 => ⟨S1x256, .f32⟩
  | 73 => ⟨S50000x256, .f32⟩
  | 74 => ⟨S50000x256, .f32⟩
  | 75 => ⟨S_, .f32⟩
  | 76 => ⟨S256, .f32⟩
  | 77 => ⟨S256, .f32⟩
  | 78 => ⟨S256, .f32⟩
  | 79 => ⟨S1x256, .f32⟩
  | 80 => ⟨S50000x256, .f32⟩
  | 81 => ⟨S50000x256, .f32⟩
  | 82 => ⟨S1x256, .f32⟩
  | 83 => ⟨S50000x256, .f32⟩
  | 84 => ⟨S50000x256, .f32⟩
  | 85 => ⟨S1x256, .f32⟩
  | 86 => ⟨S50000x256, .f32⟩
  | 87 => ⟨S50000x256, .f32⟩
  | 88 => ⟨S_, .f32⟩
  | 89 => ⟨S50000x256, .f32⟩
  | 90 => ⟨S50000x256, .f32⟩
  | 91 => ⟨S1x256x256, .f32⟩
  | 92 => ⟨S256x256, .f32⟩
  | 93 => ⟨S1x256, .f32⟩
  | 94 => ⟨S256, .f32⟩
  | 95 => ⟨S1x256x256, .f32⟩
  | 96 => ⟨S256x256, .f32⟩
  | 97 => ⟨S1x256, .f32⟩
  | 98 => ⟨S256, .f32⟩
  | 99 => ⟨S1x256, .f32⟩
  | 100 => ⟨S256, .f32⟩
  | 101 => ⟨S1x256, .f32⟩
  | 102 => ⟨S256, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x256, .f32⟩
  | 112 => ⟨S_, .f32⟩
  | 113 => ⟨S50000x256, .f32⟩
  | 114 => ⟨S800000x1, .i32⟩
  | 115 => ⟨S50000x256, .f32⟩
  | 116 => ⟨S50000x256, .f32⟩
  | 117 => ⟨S50000x256, .f32⟩
  | 118 => ⟨S1x256, .f32⟩
  | 119 => ⟨S50000x256, .f32⟩
  | 120 => ⟨S50000x256, .f32⟩
  | 121 => ⟨S_, .f32⟩
  | 122 => ⟨S50000x256, .f32⟩
  | 123 => ⟨S50000x256, .f32⟩
  | 124 => ⟨S50000x256, .f32⟩
  | 125 => ⟨S1x256, .f32⟩
  | 126 => ⟨S50000x256, .f32⟩
  | 127 => ⟨S50000x256, .f32⟩
  | _ => ⟨S50000x128, .f32⟩

abbrev hbmTy0_1 (i : Nat) : BufTy := match i % 128 with
  | 0 => ⟨S_, .f32⟩
  | 1 => ⟨S256, .f32⟩
  | 2 => ⟨S_, .f32⟩
  | 3 => ⟨S256, .f32⟩
  | 4 => ⟨S256, .f32⟩
  | 5 => ⟨S_, .i32⟩
  | 6 => ⟨S_, .f32⟩
  | 7 => ⟨S256, .f32⟩
  | 8 => ⟨S1x256, .f32⟩
  | 9 => ⟨S_, .f32⟩
  | 10 => ⟨S1x256, .f32⟩
  | 11 => ⟨S1x256, .f32⟩
  | 12 => ⟨S50000x256, .f32⟩
  | 13 => ⟨S50000x256, .f32⟩
  | 14 => ⟨S50000x256, .f32⟩
  | 15 => ⟨S_, .f32⟩
  | 16 => ⟨S_, .f32⟩
  | 17 => ⟨S_, .f32⟩
  | 18 => ⟨S_, .f32⟩
  | 19 => ⟨S256, .f32⟩
  | 20 => ⟨S256, .f32⟩
  | 21 => ⟨S256, .f32⟩
  | 22 => ⟨S_, .f32⟩
  | 23 => ⟨S_, .i1⟩
  | 24 => ⟨S_, .f32⟩
  | 25 => ⟨S_, .f32⟩
  | 26 => ⟨S256, .f32⟩
  | 27 => ⟨S256, .f32⟩
  | 28 => ⟨S1x256, .f32⟩
  | 29 => ⟨S50000x256, .f32⟩
  | 30 => ⟨S50000x256, .f32⟩
  | 31 => ⟨S_, .f32⟩
  | 32 => ⟨S256, .f32⟩
  | 33 => ⟨S256, .f32⟩
  | 34 => ⟨S256, .f32⟩
  | 35 => ⟨S1x256, .f32⟩
  | 36 => ⟨S50000x256, .f32⟩
  | 37 => ⟨S50000x256, .f32⟩
  | 38 => ⟨S1x256, .f32⟩
  | 39 => ⟨S50000x256, .f32⟩
  | 40 => ⟨S50000x256, .f32⟩
  | 41 => ⟨S1x256, .f32⟩
  | 42 => ⟨S50000x256, .f32⟩
  | 43 => ⟨S50000x256, .f32⟩
  | 44 => ⟨S_, .f32⟩
  | 45 => ⟨S50000x256, .f32⟩
  | 46 => ⟨S50000x256, .f32⟩
  | 47 => ⟨S1x256x256, .f32⟩
  | 48 => ⟨S256x256, .f32⟩
  | 49 => ⟨S1x256, .f32⟩
  | 50 => ⟨S256, .f32⟩
  | 51 => ⟨S1x256x256, .f32⟩
  | 52 => ⟨S256x256, .f32⟩
  | 53 => ⟨S1x256, .f32⟩
  | 54 => ⟨S256, .f32⟩
  | 55 => ⟨S1x256, .f32⟩
  | 56 => ⟨S256, .f32⟩
  | 57 => ⟨S1x256, .f32⟩
  | 58 => ⟨S256, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x256, .f32⟩
  | 68 => ⟨S_, .f32⟩
  | 69 => ⟨S50000x256, .f32⟩
  | 70 => ⟨S800000x1, .i32⟩
  | 71 => ⟨S50000x256, .f32⟩
  | 72 => ⟨S50000x256, .f32⟩
  | 73 => ⟨S50000x256, .f32⟩
  | 74 => ⟨S1x256, .f32⟩
  | 75 => ⟨S50000x256, .f32⟩
  | 76 => ⟨S50000x256, .f32⟩
  | 77 => ⟨S_, .f32⟩
  | 78 => ⟨S50000x256, .f32⟩
  | 79 => ⟨S50000x256, .f32⟩
  | 80 => ⟨S50000x256, .f32⟩
  | 81 => ⟨S1x256, .f32⟩
  | 82 => ⟨S50000x256, .f32⟩
  | 83 => ⟨S50000x256, .f32⟩
  | 84 => ⟨S_, .f32⟩
  | 85 => ⟨S256, .f32⟩
  | 86 => ⟨S_, .f32⟩
  | 87 => ⟨S256, .f32⟩
  | 88 => ⟨S256, .f32⟩
  | 89 => ⟨S_, .i32⟩
  | 90 => ⟨S_, .f32⟩
  | 91 => ⟨S256, .f32⟩
  | 92 => ⟨S1x256, .f32⟩
  | 93 => ⟨S_, .f32⟩
  | 94 => ⟨S1x256, .f32⟩
  | 95 => ⟨S1x256, .f32⟩
  | 96 => ⟨S50000x256, .f32⟩
  | 97 => ⟨S50000x256, .f32⟩
  | 98 => ⟨S50000x256, .f32⟩
  | 99 => ⟨S_, .f32⟩
  | 100 => ⟨S_, .f32⟩
  | 101 => ⟨S_, .f32⟩
  | 102 => ⟨S_, .f32⟩
  | 103 => ⟨S256, .f32⟩
  | 104 => ⟨S256, .f32⟩
  | 105 => ⟨S256, .f32⟩
  | 106 => ⟨S_, .f32⟩
  | 107 => ⟨S_, .i1⟩
  | 108 => ⟨S_, .f32⟩
  | 109 => ⟨S_, .f32⟩
  | 110 => ⟨S256, .f32⟩
  | 111 => ⟨S256, .f32⟩
  | 112 => ⟨S1x256, .f32⟩
  | 113 => ⟨S50000x256, .f32⟩
  | 114 => ⟨S50000x256, .f32⟩
  | 115 => ⟨S_, .f32⟩
  | 116 => ⟨S256, .f32⟩
  | 117 => ⟨S256, .f32⟩
  | 118 => ⟨S256, .f32⟩
  | 119 => ⟨S1x256, .f32⟩
  | 120 => ⟨S50000x256, .f32⟩
  | 121 => ⟨S50000x256, .f32⟩
  | 122 => ⟨S1x256, .f32⟩
  | 123 => ⟨S50000x256, .f32⟩
  | 124 => ⟨S50000x256, .f32⟩
  | 125 => ⟨S1x256, .f32⟩
  | 126 => ⟨S50000x256, .f32⟩
  | 127 => ⟨S50000x256, .f32⟩
  | _ => ⟨S50000x128, .f32⟩

abbrev hbmTy0_2 (i : Nat) : BufTy := match i % 128 with
  | 0 => ⟨S_, .f32⟩
  | 1 => ⟨S50000x256, .f32⟩
  | 2 => ⟨S50000x256, .f32⟩
  | 3 => ⟨S1x256x256, .f32⟩
  | 4 => ⟨S256x256, .f32⟩
  | 5 => ⟨S1x256, .f32⟩
  | 6 => ⟨S256, .f32⟩
  | 7 => ⟨S1x256x256, .f32⟩
  | 8 => ⟨S256x256, .f32⟩
  | 9 => ⟨S1x256, .f32⟩
  | 10 => ⟨S256, .f32⟩
  | 11 => ⟨S1x256, .f32⟩
  | 12 => ⟨S256, .f32⟩
  | 13 => ⟨S1x256, .f32⟩
  | 14 => ⟨S256, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x256, .f32⟩
  | 24 => ⟨S_, .f32⟩
  | 25 => ⟨S50000x256, .f32⟩
  | 26 => ⟨S800000x1, .i32⟩
  | 27 => ⟨S50000x256, .f32⟩
  | 28 => ⟨S50000x256, .f32⟩
  | 29 => ⟨S50000x256, .f32⟩
  | 30 => ⟨S1x256, .f32⟩
  | 31 => ⟨S50000x256, .f32⟩
  | 32 => ⟨S50000x256, .f32⟩
  | 33 => ⟨S_, .f32⟩
  | 34 => ⟨S50000x256, .f32⟩
  | 35 => ⟨S50000x256, .f32⟩
  | 36 => ⟨S50000x256, .f32⟩
  | 37 => ⟨S1x256, .f32⟩
  | 38 => ⟨S50000x256, .f32⟩
  | 39 => ⟨S50000x256, .f32⟩
  | 40 => ⟨S_, .f32⟩
  | 41 => ⟨S256, .f32⟩
  | 42 => ⟨S_, .f32⟩
  | 43 => ⟨S256, .f32⟩
  | 44 => ⟨S256, .f32⟩
  | 45 => ⟨S_, .i32⟩
  | 46 => ⟨S_, .f32⟩
  | 47 => ⟨S256, .f32⟩
  | 48 => ⟨S1x256, .f32⟩
  | 49 => ⟨S_, .f32⟩
  | 50 => ⟨S1x256, .f32⟩
  | 51 => ⟨S1x256, .f32⟩
  | 52 => ⟨S50000x256, .f32⟩
  | 53 => ⟨S50000x256, .f32⟩
  | 54 => ⟨S50000x256, .f32⟩
  | 55 => ⟨S_, .f32⟩
  | 56 => ⟨S_, .f32⟩
  | 57 => ⟨S_, .f32⟩
  | 58 => ⟨S_, .f32⟩
  | 59 => ⟨S256, .f32⟩
  | 60 => ⟨S256, .f32⟩
  | 61 => ⟨S256, .f32⟩
  | 62 => ⟨S_, .f32⟩
  | 63 => ⟨S_, .i1⟩
  | 64 => ⟨S_, .f32⟩
  | 65 => ⟨S_, .f32⟩
  | 66 => ⟨S256, .f32⟩
  | 67 => ⟨S256, .f32⟩
  | 68 => ⟨S1x256, .f32⟩
  | 69 => ⟨S50000x256, .f32⟩
  | 70 => ⟨S50000x256, .f32⟩
  | 71 => ⟨S_, .f32⟩
  | 72 => ⟨S256, .f32⟩
  | 73 => ⟨S256, .f32⟩
  | 74 => ⟨S256, .f32⟩
  | 75 => ⟨S1x256, .f32⟩
  | 76 => ⟨S50000x256, .f32⟩
  | 77 => ⟨S50000x256, .f32⟩
  | 78 => ⟨S1x256, .f32⟩
  | 79 => ⟨S50000x256, .f32⟩
  | 80 => ⟨S50000x256, .f32⟩
  | 81 => ⟨S1x256, .f32⟩
  | 82 => ⟨S50000x256, .f32⟩
  | 83 => ⟨S50000x256, .f32⟩
  | 84 => ⟨S_, .f32⟩
  | 85 => ⟨S50000x256, .f32⟩
  | 86 => ⟨S50000x256, .f32⟩
  | 87 => ⟨S_, .f32⟩
  | 88 => ⟨S50000, .f32⟩
  | 89 => ⟨S_, .f32⟩
  | 90 => ⟨S64, .f32⟩
  | 91 => ⟨S50000x1, .i32⟩
  | 92 => ⟨S64, .f32⟩
  | 93 => ⟨S_, .f32⟩
  | 94 => ⟨S64x256, .f32⟩
  | 95 => ⟨S50000x1, .i32⟩
  | 96 => ⟨S64x256, .f32⟩
  | 97 => ⟨S_, .f32⟩
  | 98 => ⟨S64, .f32⟩
  | 99 => ⟨S64, .f32⟩
  | 100 => ⟨S64x1, .f32⟩
  | 101 => ⟨S64x256, .f32⟩
  | 102 => ⟨S64x256, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_cst_1 : Ref sig .tc := ⟨.hbm, 60, rfl⟩
abbrev main_call0_v8 : Ref sig .tc := ⟨.hbm, 61, rfl⟩
abbrev main_call0_cst_2 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_cst_3 : Ref sig .tc := ⟨.hbm, 66, rfl⟩
abbrev main_call0_v12 : Ref sig .tc := ⟨.hbm, 67, rfl⟩
abbrev main_call0_cst_4 : Ref sig .tc := ⟨.hbm, 68, rfl⟩
abbrev main_call0_call0_v0 : Ref sig .tc := ⟨.hbm, 69, rfl⟩
abbrev main_call0_call0_v1 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_5 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_cst_6 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_c_7 : Ref sig .tc := ⟨.hbm, 103, rfl⟩
abbrev main_v58 : Ref sig .tc := ⟨.hbm, 104, rfl⟩
abbrev main_v59 : Ref sig .tc := ⟨.hbm, 105, rfl⟩
abbrev main_c_8 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_9 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_10 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_cst_11 : Ref sig .tc := ⟨.hbm, 128, rfl⟩
abbrev main_v79 : Ref sig .tc := ⟨.hbm, 129, rfl⟩
abbrev main_cst_12 : Ref sig .tc := ⟨.hbm, 130, rfl⟩
abbrev main_v80 : Ref sig .tc := ⟨.hbm, 131, rfl⟩
abbrev main_v81 : Ref sig .tc := ⟨.hbm, 132, rfl⟩
abbrev main_c_13 : Ref sig .tc := ⟨.hbm, 133, rfl⟩
abbrev main_call1_cst : Ref sig .tc := ⟨.hbm, 134, rfl⟩
abbrev main_call1_v0 : Ref sig .tc := ⟨.hbm, 135, rfl⟩
abbrev main_call1_v1 : Ref sig .tc := ⟨.hbm, 136, rfl⟩
abbrev main_call1_cst_0 : Ref sig .tc := ⟨.hbm, 137, rfl⟩
abbrev main_call1_v2 : Ref sig .tc := ⟨.hbm, 138, rfl⟩
abbrev main_call1_v3 : Ref sig .tc := ⟨.hbm, 139, rfl⟩
abbrev main_call1_v4 : Ref sig .tc := ⟨.hbm, 140, rfl⟩
abbrev main_call1_v5 : Ref sig .tc := ⟨.hbm, 141, rfl⟩
abbrev main_call1_v6 : Ref sig .tc := ⟨.hbm, 142, rfl⟩
abbrev main_call1_v7 : Ref sig .tc := ⟨.hbm, 143, rfl⟩
abbrev main_call1_cst_1 : Ref sig .tc := ⟨.hbm, 144, rfl⟩
abbrev main_call1_v8 : Ref sig .tc := ⟨.hbm, 145, rfl⟩
abbrev main_call1_cst_2 : Ref sig .tc := ⟨.hbm, 146, rfl⟩
abbrev main_call1_v9 : Ref sig .tc := ⟨.hbm, 147, rfl⟩
abbrev main_call1_v10 : Ref sig .tc := ⟨.hbm, 148, rfl⟩
abbrev main_call1_v11 : Ref sig .tc := ⟨.hbm, 149, rfl⟩
abbrev main_call1_cst_3 : Ref sig .tc := ⟨.hbm, 150, rfl⟩
abbrev main_call1_v12 : Ref sig .tc := ⟨.hbm, 151, rfl⟩
abbrev main_call1_cst_4 : Ref sig .tc := ⟨.hbm, 152, rfl⟩
abbrev main_call1_call0_v0 : Ref sig .tc := ⟨.hbm, 153, rfl⟩
abbrev main_call1_call0_v1 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_cst_14 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_cst_15 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_c_16 : Ref sig .tc := ⟨.hbm, 187, rfl⟩
abbrev main_v112 : Ref sig .tc := ⟨.hbm, 188, rfl⟩
abbrev main_v113 : Ref sig .tc := ⟨.hbm, 189, rfl⟩
abbrev main_c_17 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_cst_18 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_cst_19 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_cst_20 : Ref sig .tc := ⟨.hbm, 212, rfl⟩
abbrev main_v133 : Ref sig .tc := ⟨.hbm, 213, rfl⟩
abbrev main_cst_21 : Ref sig .tc := ⟨.hbm, 214, rfl⟩
abbrev main_v134 : Ref sig .tc := ⟨.hbm, 215, rfl⟩
abbrev main_v135 : Ref sig .tc := ⟨.hbm, 216, rfl⟩
abbrev main_c_22 : Ref sig .tc := ⟨.hbm, 217, rfl⟩
abbrev main_call2_cst : Ref sig .tc := ⟨.hbm, 218, rfl⟩
abbrev main_call2_v0 : Ref sig .tc := ⟨.hbm, 219, rfl⟩
abbrev main_call2_v1 : Ref sig .tc := ⟨.hbm, 220, rfl⟩
abbrev main_call2_cst_0 : Ref sig .tc := ⟨.hbm, 221, rfl⟩
abbrev main_call2_v2 : Ref sig .tc := ⟨.hbm, 222, rfl⟩
abbrev main_call2_v3 : Ref sig .tc := ⟨.hbm, 223, rfl⟩
abbrev main_call2_v4 : Ref sig .tc := ⟨.hbm, 224, rfl⟩
abbrev main_call2_v5 : Ref sig .tc := ⟨.hbm, 225, rfl⟩
abbrev main_call2_v6 : Ref sig .tc := ⟨.hbm, 226, rfl⟩
abbrev main_call2_v7 : Ref sig .tc := ⟨.hbm, 227, rfl⟩
abbrev main_call2_cst_1 : Ref sig .tc := ⟨.hbm, 228, rfl⟩
abbrev main_call2_v8 : Ref sig .tc := ⟨.hbm, 229, rfl⟩
abbrev main_call2_cst_2 : Ref sig .tc := ⟨.hbm, 230, rfl⟩
abbrev main_call2_v9 : Ref sig .tc := ⟨.hbm, 231, rfl⟩
abbrev main_call2_v10 : Ref sig .tc := ⟨.hbm, 232, rfl⟩
abbrev main_call2_v11 : Ref sig .tc := ⟨.hbm, 233, rfl⟩
abbrev main_call2_cst_3 : Ref sig .tc := ⟨.hbm, 234, rfl⟩
abbrev main_call2_v12 : Ref sig .tc := ⟨.hbm, 235, rfl⟩
abbrev main_call2_cst_4 : Ref sig .tc := ⟨.hbm, 236, rfl⟩
abbrev main_call2_call0_v0 : Ref sig .tc := ⟨.hbm, 237, rfl⟩
abbrev main_call2_call0_v1 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩
abbrev main_v139 : Ref sig .tc := ⟨.hbm, 242, rfl⟩
abbrev main_cst_23 : Ref sig .tc := ⟨.hbm, 243, rfl⟩
abbrev main_v140 : Ref sig .tc := ⟨.hbm, 244, rfl⟩
abbrev main_v141 : Ref sig .tc := ⟨.hbm, 245, rfl⟩
abbrev main_v142 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_cst_24 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_v159 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_v163 : Ref sig .tc := ⟨.hbm, 268, rfl⟩
abbrev main_v164 : Ref sig .tc := ⟨.hbm, 269, rfl⟩
abbrev main_v165 : Ref sig .tc := ⟨.hbm, 270, rfl⟩
abbrev main_c_25 : Ref sig .tc := ⟨.hbm, 271, rfl⟩
abbrev main_v166 : Ref sig .tc := ⟨.hbm, 272, rfl⟩
abbrev main_v167 : Ref sig .tc := ⟨.hbm, 273, rfl⟩
abbrev main_c_26 : Ref sig .tc := ⟨.hbm, 274, rfl⟩
abbrev main_v168 : Ref sig .tc := ⟨.hbm, 275, rfl⟩
abbrev main_v169 : Ref sig .tc := ⟨.hbm, 276, rfl⟩
abbrev main_v170 : Ref sig .tc := ⟨.hbm, 277, rfl⟩
abbrev main_v171 : Ref sig .tc := ⟨.hbm, 278, rfl⟩
abbrev main_v172 : Ref sig .tc := ⟨.hbm, 279, rfl⟩
abbrev main_cst_27 : Ref sig .tc := ⟨.hbm, 280, rfl⟩
abbrev main_v173 : Ref sig .tc := ⟨.hbm, 281, rfl⟩
abbrev main_v174 : Ref sig .tc := ⟨.hbm, 282, rfl⟩
abbrev main_v175 : Ref sig .tc := ⟨.hbm, 283, rfl⟩
abbrev main_v176 : Ref sig .tc := ⟨.hbm, 284, rfl⟩
abbrev main_v177 : Ref sig .tc := ⟨.hbm, 285, rfl⟩
abbrev main_v178 : Ref sig .tc := ⟨.hbm, 286, rfl⟩
abbrev main_v179 : Ref sig .tc := ⟨.hbm, 287, rfl⟩
abbrev main_v180 : Ref sig .tc := ⟨.hbm, 288, rfl⟩
abbrev main_cst_28 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_v184 : Ref sig .tc := ⟨.hbm, 293, rfl⟩
abbrev main_v185 : Ref sig .tc := ⟨.hbm, 294, rfl⟩
abbrev main_v186 : Ref sig .tc := ⟨.hbm, 295, rfl⟩
abbrev main_cst_29 : Ref sig .tc := ⟨.hbm, 296, rfl⟩
abbrev main_v187 : Ref sig .tc := ⟨.hbm, 297, rfl⟩
abbrev main_cst_30 : Ref sig .tc := ⟨.hbm, 298, rfl⟩
abbrev main_v188 : Ref sig .tc := ⟨.hbm, 299, rfl⟩
abbrev main_v189 : Ref sig .tc := ⟨.hbm, 300, rfl⟩
abbrev main_c_31 : Ref sig .tc := ⟨.hbm, 301, rfl⟩
abbrev main_call3_cst : Ref sig .tc := ⟨.hbm, 302, rfl⟩
abbrev main_call3_v0 : Ref sig .tc := ⟨.hbm, 303, rfl⟩
abbrev main_call3_v1 : Ref sig .tc := ⟨.hbm, 304, rfl⟩
abbrev main_call3_cst_0 : Ref sig .tc := ⟨.hbm, 305, rfl⟩
abbrev main_call3_v2 : Ref sig .tc := ⟨.hbm, 306, rfl⟩
abbrev main_call3_v3 : Ref sig .tc := ⟨.hbm, 307, rfl⟩
abbrev main_call3_v4 : Ref sig .tc := ⟨.hbm, 308, rfl⟩
abbrev main_call3_v5 : Ref sig .tc := ⟨.hbm, 309, rfl⟩
abbrev main_call3_v6 : Ref sig .tc := ⟨.hbm, 310, rfl⟩
abbrev main_call3_v7 : Ref sig .tc := ⟨.hbm, 311, rfl⟩
abbrev main_call3_cst_1 : Ref sig .tc := ⟨.hbm, 312, rfl⟩
abbrev main_call3_v8 : Ref sig .tc := ⟨.hbm, 313, rfl⟩
abbrev main_call3_cst_2 : Ref sig .tc := ⟨.hbm, 314, rfl⟩
abbrev main_call3_v9 : Ref sig .tc := ⟨.hbm, 315, rfl⟩
abbrev main_call3_v10 : Ref sig .tc := ⟨.hbm, 316, rfl⟩
abbrev main_call3_v11 : Ref sig .tc := ⟨.hbm, 317, rfl⟩
abbrev main_call3_cst_3 : Ref sig .tc := ⟨.hbm, 318, rfl⟩
abbrev main_call3_v12 : Ref sig .tc := ⟨.hbm, 319, rfl⟩
abbrev main_call3_cst_4 : Ref sig .tc := ⟨.hbm, 320, rfl⟩
abbrev main_call3_call0_v0 : Ref sig .tc := ⟨.hbm, 321, rfl⟩
abbrev main_call3_call0_v1 : Ref sig .tc := ⟨.hbm, 322, rfl⟩
abbrev main_v190 : Ref sig .tc := ⟨.hbm, 323, rfl⟩
abbrev main_v191 : Ref sig .tc := ⟨.hbm, 324, rfl⟩
abbrev main_v192 : Ref sig .tc := ⟨.hbm, 325, rfl⟩
abbrev main_v193 : Ref sig .tc := ⟨.hbm, 326, rfl⟩
abbrev main_cst_32 : Ref sig .tc := ⟨.hbm, 327, rfl⟩
abbrev main_v194 : Ref sig .tc := ⟨.hbm, 328, rfl⟩
abbrev main_v195 : Ref sig .tc := ⟨.hbm, 329, rfl⟩
abbrev main_v196 : Ref sig .tc := ⟨.hbm, 330, rfl⟩
abbrev main_v197 : Ref sig .tc := ⟨.hbm, 331, rfl⟩
abbrev main_v198 : Ref sig .tc := ⟨.hbm, 332, rfl⟩
abbrev main_v199 : Ref sig .tc := ⟨.hbm, 333, rfl⟩
abbrev main_v200 : Ref sig .tc := ⟨.hbm, 334, rfl⟩
abbrev main_v201 : Ref sig .tc := ⟨.hbm, 335, rfl⟩
abbrev main_v202 : Ref sig .tc := ⟨.hbm, 336, rfl⟩
abbrev main_v203 : Ref sig .tc := ⟨.hbm, 337, rfl⟩
abbrev main_v204 : Ref sig .tc := ⟨.hbm, 338, rfl⟩
abbrev main_v205 : Ref sig .tc := ⟨.hbm, 339, rfl⟩
abbrev main_cst_33 : Ref sig .tc := ⟨.hbm, 340, rfl⟩
abbrev main_v206 : Ref sig .tc := ⟨.hbm, 341, rfl⟩
abbrev main_v207 : Ref sig .tc := ⟨.hbm, 342, rfl⟩
abbrev main_cst_34 : Ref sig .tc := ⟨.hbm, 343, rfl⟩
abbrev main_v208 : Ref sig .tc := ⟨.hbm, 344, rfl⟩
abbrev main_cst_35 : Ref sig .tc := ⟨.hbm, 345, rfl⟩
abbrev main_v209 : Ref sig .tc := ⟨.hbm, 346, rfl⟩
abbrev main_v210 : Ref sig .tc := ⟨.hbm, 347, rfl⟩
abbrev main_v211 : Ref sig .tc := ⟨.hbm, 348, rfl⟩
abbrev main_cst_36 : Ref sig .tc := ⟨.hbm, 349, rfl⟩
abbrev main_v212 : Ref sig .tc := ⟨.hbm, 350, rfl⟩
abbrev main_v213 : Ref sig .tc := ⟨.hbm, 351, rfl⟩
abbrev main_v214 : Ref sig .tc := ⟨.hbm, 352, rfl⟩
abbrev main_cst_37 : Ref sig .tc := ⟨.hbm, 353, rfl⟩
abbrev main_v215 : Ref sig .tc := ⟨.hbm, 354, rfl⟩
abbrev main_v216 : Ref sig .tc := ⟨.hbm, 355, rfl⟩
abbrev main_v217 : Ref sig .tc := ⟨.hbm, 356, rfl⟩
abbrev main_v218 : Ref sig .tc := ⟨.hbm, 357, rfl⟩
abbrev main_v219 : Ref sig .tc := ⟨.hbm, 358, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S50000 : S_.BroadcastsInDim S50000 (![] : Fin 0 → Fin S50000.rank)
  bcast_S_S64 : S_.BroadcastsInDim S64 (![] : Fin 0 → Fin S64.rank)
  bcast_S50000_S50000x1_0 : S50000.BroadcastsInDim S50000x1 (![0] : Fin 1 → Fin S50000x1.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S64_S50000x1_S50000_n_0_0_1_wf : ScatterDims.WF S64 S50000x1 S50000 [] [0] [0] 1
  scatter_S64x256_S50000x1_S50000x256_1_0_0_1_wf : ScatterDims.WF S64x256 S50000x1 S50000x256 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf

class Facts : Prop extends Facts₀ where

variable [Facts]
-- ==== Proof.KernelRun.lean ====
/-
  The idealized kernel program's run, with the result named.  The program is eight kernel regions among stretches of
  host operations; the buffer contents at each boundary are a fold from the launch memory (a stretch applies its
  operations; a region replaces its arrays by what its write-backs leave).  Every weakly fair execution terminates
  without a fault, and in the final state every unscoped buffer holds the last boundary's contents: in particular
  the result buffer, and the fifteen arguments, which no stretch and no region writes.
-/
import proofs.«111778_j58583353917552_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; the result buffer ends at the last
    boundary's contents and the arguments end as launched. -/
theorem run : θ_run defs (onTc (τ := τ) (main (F := F))) ⟨m, fun _ => 0, ρ⟩ (fun r => ∀ c : Dev nD,
      r.2.mem ((c.tc : Thread nD τ).loc main_v115) = W21 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v115 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c),
       (h c _ (mem_uc main_arg11 (by decide))).trans (W21_main_arg11 m ρ c),
       (h c _ (mem_uc main_arg12 (by decide))).trans (W21_main_arg12 m ρ c),
       (h c _ (mem_uc main_arg13 (by decide))).trans (W21_main_arg13 m ρ c),
       (h c _ (mem_uc main_arg14 (by decide))).trans (W21_main_arg14 m ρ c)⟩)

end Cert.KernelIdeal.RunValue

end
-- ==== Proof.KernelKeep.lean ====
/-
  Which buffers each stretch of host operations of the idealized kernel program writes, and hence which it leaves
  alone: a buffer outside a stretch's written list holds after the stretch what it held before.
-/
import proofs.«111778_j58583353917552_1_alg».proof.Proof.Gen.KernelIdeal.Launch
import Idealize.ShloMosaic.Lib.StableHlo.Run

set_option maxRecDepth 16384

noncomputable section

namespace Cert.KernelIdeal.Keep

open Idealize.ShloMosaic Idealize.ShloMosaic.TcCoe Idealize.SL.Sem
open Cert.KernelIdeal Cert.KernelIdeal.Gen

variable {F : FTy → Type} [FloatOps F]

/-- The references stretch 0 writes. -/
abbrev wr0 : List (Ref sig .tc) := [main_v0, main_v1, main_v2, main_v3, main_c, main_v4, main_v5, main_c_0, main_v6, main_v7, main_v8, main_v9, main_v10, main_cst, main_v11, main_v12, main_v13]
theorem hW0 : (hostOps0 : List (HloOp τ sig (Elt F))).Forall fun op => op.writes ⊆ ((wr0).map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer stretch 0 does not write keeps its contents through it. -/
theorem keep0 (V : Valuation τ sig (Elt F)) (b : Ref sig .tc) (hb : b ∉ wr0 := by decide) :
    StableHlo.after hostOps0 V (Proc.devRef .tc b) = V (Proc.devRef .tc b) :=
  StableHlo.after_of_writes_sub hostOps0 V hW0 hb

/-- The references stretch 1 writes. -/
abbrev wr1 : List (Ref sig .tc) := [main_cst_1, main_v15, main_cst_2, main_v16, main_v17, main_c_3]
theorem hW1 : (hostOps1 : List (HloOp τ sig (Elt F))).Forall fun op => op.writes ⊆ ((wr1).map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer stretch 1 does not write keeps its contents through it. -/
theorem keep1 (V : Valuation τ sig (Elt F)) (b : Ref sig .tc) (hb : b ∉ wr1 := by decide) :
    StableHlo.after hostOps1 V (Proc.devRef .tc b) = V (Proc.devRef .tc b) :=
  StableHlo.after_of_writes_sub hostOps1 V hW1 hb

/-- The references stretch 1_1 writes. -/
abbrev wr1_1 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v18]
theorem hW1_1 : (hostOps1_1 : List (HloOp τ sig (Elt F))).Forall fun op => op.writes ⊆ ((wr1_1).map (Proc.devRef (τ := τ) .tc)).toFinset := by
  simp only [hostOps1_1, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer stretch 1_1 does not write keeps its contents through it. -/
theorem keep1_1 (V : Valuation τ sig (Elt F)) (b : Ref sig .tc) (hb : b ∉ wr1_1 := by decide) :
    StableHlo.after hostOps1_1 V (Proc.devRef .tc b) = V (Proc.devRef .tc b) :=
  StableHlo.after_of_writes_sub hostOps1_1 V hW1_1 hb

/-- The references stretch 2 writes. -/
abbrev wr2 : List (Ref sig .tc) := [main_v20, main_v21, main_v22, main_v23, main_v24, main_v25, main_v26, main_v27, main_v28, main_v29, main_v30, main_v31, main_c_4, main_v32, main_v33, main_c_5, main_v34, main_v35, main_v36, main_v37, main_v38, main_cst_6, main_v39, main_v40, main_v41]
theorem hW2 : (hostOps2 : List (HloOp τ sig (Elt F))).Forall fun op => op.writes ⊆ ((wr2).map (Proc.devRef (τ := τ) .tc)).toFinset := by
  simp only [hostOps2, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer stretch 2 does not write keeps its contents through it. -/
theorem keep2 (V : Valuation τ sig (Elt F)) (b : Ref sig .tc) (hb : b ∉ wr2 := by decide) :
    StableHlo.after hostOps2 V (Proc.devRef .tc b) = V (Proc.devRef .tc b) :=
  StableHlo.after_of_writes_sub hostOps2 V hW2 hb

/-- The references stretch 3 writes. -/
abbrev wr3 : List (Ref sig .tc) := [main_cst_7, main_v43, main_cst_8, main_v44, main_v45, main_c_9]
theorem hW3 : (hostOps3 : List (HloOp τ sig (Elt F))).Forall fun op => op.writes ⊆ ((wr3).map (Proc.devRef (τ := τ) .tc)).toFinset := by
  simp only [hostOps3, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer stretch 3 does not write keeps its contents through it. -/
theorem keep3 (V : Valuation τ sig (Elt F)) (b : Ref sig .tc) (hb : b ∉ wr3 := by decide) :
    StableHlo.after hostOps3 V (Proc.devRef .tc b) = V (Proc.devRef .tc b) :=
  StableHlo.after_of_writes_sub hostOps3 V hW3 hb

/-- The references stretch 3_1 writes. -/
abbrev wr3_1 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v46]
theorem hW3_1 : (hostOps3_1 : List (HloOp τ sig (Elt F))).Forall fun op => op.writes ⊆ ((wr3_1).map (Proc.devRef (τ := τ) .tc)).toFinset := by
  simp only [hostOps3_1, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer stretch 3_1 does not write keeps its contents through it. -/
theorem keep3_1 (V : Valuation τ sig (Elt F)) (b : Ref sig .tc) (hb : b ∉ wr3_1 := by decide) :
    StableHlo.after hostOps3_1 V (Proc.devRef .tc b) = V (Proc.devRef .tc b) :=
  StableHlo.after_of_writes_sub hostOps3_1 V hW3_1 hb

/-- The references stretch 4 writes. -/
abbrev wr4 : List (Ref sig .tc) := [main_v48, main_v49, main_v50, main_v51, main_v52, main_v53, main_v54, main_v55, main_v56, main_v57, main_v58, main_v59, main_c_10, main_v60, main_v61, main_c_11, main_v62, main_v63, main_v64, main_v65, main_v66, main_cst_12, main_v67, main_v68, main_v69]
theorem hW4 : (hostOps4 : List (HloOp τ sig (Elt F))).Forall fun op => op.writes ⊆ ((wr4).map (Proc.devRef (τ := τ) .tc)).toFinset := by
  simp only [hostOps4, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer stretch 4 does not write keeps its contents through it. -/
theorem keep4 (V : Valuation τ sig (Elt F)) (b : Ref sig .tc) (hb : b ∉ wr4 := by decide) :
    StableHlo.after hostOps4 V (Proc.devRef .tc b) = V (Proc.devRef .tc b) :=
  StableHlo.after_of_writes_sub hostOps4 V hW4 hb

/-- The references stretch 5 writes. -/
abbrev wr5 : List (Ref sig .tc) := [main_cst_13, main_v71, main_cst_14, main_v72, main_v73, main_c_15]
theorem hW5 : (hostOps5 : List (HloOp τ sig (Elt F))).Forall fun op => op.writes ⊆ ((wr5).map (Proc.devRef (τ := τ) .tc)).toFinset := by
  simp only [hostOps5, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer stretch 5 does not write keeps its contents through it. -/
theorem keep5 (V : Valuation τ sig (Elt F)) (b : Ref sig .tc) (hb : b ∉ wr5 := by decide) :
    StableHlo.after hostOps5 V (Proc.devRef .tc b) = V (Proc.devRef .tc b) :=
  StableHlo.after_of_writes_sub hostOps5 V hW5 hb

/-- The references stretch 5_1 writes. -/
abbrev wr5_1 : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v74]
theorem hW5_1 : (hostOps5_1 : List (HloOp τ sig (Elt F))).Forall fun op => op.writes ⊆ ((wr5_1).map (Proc.devRef (τ := τ) .tc)).toFinset := by
  simp only [hostOps5_1, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer stretch 5_1 does not write keeps its contents through it. -/
theorem keep5_1 (V : Valuation τ sig (Elt F)) (b : Ref sig .tc) (hb : b ∉ wr5_1 := by decide) :
    StableHlo.after hostOps5_1 V (Proc.devRef .tc b) = V (Proc.devRef .tc b) :=
  StableHlo.after_of_writes_sub hostOps5_1 V hW5_1 hb

/-- The references stretch 6 writes. -/
abbrev wr6 : List (Ref sig .tc) := [main_v76, main_v77, main_v78, main_v79, main_v80, main_v81, main_v82, main_v83, main_v84, main_v85, main_v86, main_v87, main_c_16, main_v88, main_v89, main_c_17, main_v90, main_v91, main_v92, main_v93, main_v94, main_cst_18, main_v95, main_v96, main_v97]
theorem hW6 : (hostOps6 : List (HloOp τ sig (Elt F))).Forall fun op => op.writes ⊆ ((wr6).map (Proc.devRef (τ := τ) .tc)).toFinset := by
  simp only [hostOps6, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer stretch 6 does not write keeps its contents through it. -/
theorem keep6 (V : Valuation τ sig (Elt F)) (b : Ref sig .tc) (hb : b ∉ wr6 := by decide) :
    StableHlo.after hostOps6 V (Proc.devRef .tc b) = V (Proc.devRef .tc b) :=
  StableHlo.after_of_writes_sub hostOps6 V hW6 hb

/-- The references stretch 7 writes. -/
abbrev wr7 : List (Ref sig .tc) := [main_cst_19, main_v99, main_cst_20, main_v100, main_v101, main_c_21]
theorem hW7 : (hostOps7 : List (HloOp τ sig (Elt F))).Forall fun op => op.writes ⊆ ((wr7).map (Proc.devRef (τ := τ) .tc)).toFinset := by
  simp only [hostOps7, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer stretch 7 does not write keeps its contents through it. -/
theorem keep7 (V : Valuation τ sig (Elt F)) (b : Ref sig .tc) (hb : b ∉ wr7 := by decide) :
    StableHlo.after hostOps7 V (Proc.devRef .tc b) = V (Proc.devRef .tc b) :=
  StableHlo.after_of_writes_sub hostOps7 V hW7 hb

/-- The references stretch 7_1 writes. -/
abbrev wr7_1 : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v102]
theorem hW7_1 : (hostOps7_1 : List (HloOp τ sig (Elt F))).Forall fun op => op.writes ⊆ ((wr7_1).map (Proc.devRef (τ := τ) .tc)).toFinset := by
  simp only [hostOps7_1, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer stretch 7_1 does not write keeps its contents through it. -/
theorem keep7_1 (V : Valuation τ sig (Elt F)) (b : Ref sig .tc) (hb : b ∉ wr7_1 := by decide) :
    StableHlo.after hostOps7_1 V (Proc.devRef .tc b) = V (Proc.devRef .tc b) :=
  StableHlo.after_of_writes_sub hostOps7_1 V hW7_1 hb

/-- The references stretch 8 writes. -/
abbrev wr8 : List (Ref sig .tc) := [main_cst_22, main_v104, main_cst_23, main_v105, main_v106, main_v107, main_cst_24, main_v108, main_v109, main_v110, main_cst_25, main_v111, main_v112, main_v113, main_v114, main_v115]
theorem hW8 : (hostOps8 : List (HloOp τ sig (Elt F))).Forall fun op => op.writes ⊆ ((wr8).map (Proc.devRef (τ := τ) .tc)).toFinset := by
  simp only [hostOps8, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer stretch 8 does not write keeps its contents through it. -/
theorem keep8 (V : Valuation τ sig (Elt F)) (b : Ref sig .tc) (hb : b ∉ wr8 := by decide) :
    StableHlo.after hostOps8 V (Proc.devRef .tc b) = V (Proc.devRef .tc b) :=
  StableHlo.after_of_writes_sub hostOps8 V hW8 hb

end Cert.KernelIdeal.Keep

end
-- ==== Proof.Spec.lean ====
/-
  The network both programs compute, stage by stage, as functions of whole arrays (any float instance).

  A layer takes node features h (50000 rows), the edge list ei (row 0 the sources, row 1 the targets) and six
  parameter arrays.  Its stages:
    * nbrSum: for every node the sum of the features of the sources of the edges that point at it (a row gather
      by the source indices, negative indices wrapped by 50000, then a scatter-add by the target indices into zeros);
    * mlp: z = relu((nbrSum + h) · W1 + b1) · W2 + b2, the biases repeated down the rows;
    * colMean, colVar: the column means of z and the column means of the squared deviations from them
      (the divisor 50000 − 0, guarded by a select on its sign);
    * bnRelu: relu((z − mean) · rsqrt(var + ε) · γ + β), each length-256 vector repeated down the rows.
  Four layers (the first on 128 input features, three more on 256 with the k-th slices of the stacked parameters),
  then per graph the sum of its nodes' rows divided by max(count of its nodes, 1).
-/
import proofs.«111778_j58583353917552_1_alg».proof.Proof.Gen.ReferenceIdeal

noncomputable section

namespace Cert.Spec

open Idealize.ShloMosaic Cert.ReferenceIdeal Cert.ReferenceIdeal.Gen

variable {F : FTy → Type} [FloatOps F]

/-- The contents of a buffer of shape S and element type e. -/
abbrev Arr (F : FTy → Type) (S : Shape) (e : EltTy) : Type := (⟨S, e⟩ : BufTy).Contents (Elt F)

/-- Row 0 of the edge list, negative entries wrapped by 50000, as a column of gather indices. -/
def srcIdx (ei : Arr F S2x800000 .i32) : Arr F S800000x1 .i32 :=
  let s : Arr F S800000 .i32 := shapeCast S800000 (extractStridedSlice S1x800000 ![0, 0] ei slices_S2x800000_S1x800000_0_0) shapeCasts_S1x800000_S800000
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Row 1 of the edge list as a column of scatter indices. -/
def dstIdx (ei : Arr F S2x800000 .i32) : Arr F S800000x1 .i32 :=
  broadcastInDim S800000x1 ![0] bcast_S800000_S800000x1_0
    (shapeCast S800000 (extractStridedSlice S1x800000 ![1, 0] ei slices_S2x800000_S1x800000_1_0) shapeCasts_S1x800000_S800000 : Arr F S800000 .i32)

/-- Neighbour sums of 128-wide features. -/
def nbrSum128 (x : Arr F S50000x128 .f32) (ei : Arr F S2x800000 .i32) : Arr F S50000x128 .f32 :=
  Host.scatterAdd scatter_S50000x128_S800000x1_S800000x128_1_0_0_1
    (broadcastInDim S50000x128 ![] bcast_S_S50000x128 (constant S_ .f32 0x00000000#32)) (dstIdx ei)
    (Host.gather gather_S50000x128_S800000x1_S800000x128_1_0_n_n_0_1_1128 x (srcIdx ei))

/-- Neighbour sums of 256-wide features. -/
def nbrSum256 (h : Arr F S50000x256 .f32) (ei : Arr F S2x800000 .i32) : Arr F S50000x256 .f32 :=
  Host.scatterAdd scatter_S50000x256_S800000x1_S800000x256_1_0_0_1
    (broadcastInDim S50000x256 ![] bcast_S_S50000x256 (constant S_ .f32 0x00000000#32)) (dstIdx ei)
    (Host.gather gather_S50000x256_S800000x1_S800000x256_1_0_n_n_0_1_1256 h (srcIdx ei))

/-- A length-256 vector repeated down the 50000 rows. -/
def rows (b : Arr F S256 .f32) : Arr F S50000x256 .f32 :=
  broadcastInDim S50000x256 ![0, 1] bcast_S1x256_S50000x256_0_1 (broadcastInDim S1x256 ![1] bcast_S256_S1x256_1 b)

/-- The 50000×256 array of zeros. -/
def zeros : Arr F S50000x256 .f32 :=
  broadcastInDim S50000x256 ![] bcast_S_S50000x256 (constant S_ .f32 0x00000000#32)

/-- The second half of the two-layer perceptron: relu(u + b1) · W2 + b2. -/
def mlpTail (u : Arr F S50000x256 .f32) (b1 : Arr F S256 .f32) (w2 : Arr F S256x256 .f32) (b2 : Arr F S256 .f32) : Arr F S50000x256 .f32 :=
  addf (Host.dotGeneral dot_S50000x256_S256x256_S50000x256_1_0_0_1_n_n none (maximumf (addf u (rows b1)) zeros) w2) (rows b2)

/-- The perceptron on 128 input features: relu((a + h) · W1 + b1) · W2 + b2. -/
def mlp128 (a h : Arr F S50000x128 .f32) (w1 : Arr F S128x256 .f32) (b1 : Arr F S256 .f32) (w2 : Arr F S256x256 .f32) (b2 : Arr F S256 .f32) :
    Arr F S50000x256 .f32 :=
  mlpTail (Host.dotGeneral dot_S50000x128_S128x256_S50000x256_1_0_0_1_n_n none (addf a h) w1) b1 w2 b2

/-- The perceptron on 256 input features. -/
def mlp256 (a h : Arr F S50000x256 .f32) (w1 : Arr F S256x256 .f32) (b1 : Arr F S256 .f32) (w2 : Arr F S256x256 .f32) (b2 : Arr F S256 .f32) :
    Arr F S50000x256 .f32 :=
  mlpTail (Host.dotGeneral dot_S50000x256_S256x256_S50000x256_1_0_0_1_n_n none (addf a h) w1) b1 w2 b2

/-- Column means: column sums over 50000. -/
def colMean (z : Arr F S50000x256 .f32) : Arr F S256 .f32 :=
  Host.divf (Host.reduceAdd z (constant S_ .f32 0x00000000#32) reducesTo_S50000x256_S256_d0 h_S_)
    (broadcastInDim S256 ![] bcast_S_S256 (constant S_ .f32 0x47435000#32))

/-- The divisor of the variance: 50000 minus the (zero) correction. -/
def varDen : Arr F S_ .f32 :=
  subf (constant S_ .f32 0x47435000#32) (sitofp .f32 (constantI S_ 32 0#32 : Arr F S_ .i32))

/-- Column variances: the column sums of the squared deviations from the column means over the divisor, where
    the divisor is positive (otherwise the quiet-NaN word). -/
def colVar (z : Arr F S50000x256 .f32) : Arr F S256 .f32 :=
  let d : Arr F S50000x256 .f32 := subf z (broadcastInDim S50000x256 ![0, 1] bcast_S1x256_S50000x256_0_1
    (Host.divf (broadcastInDim S1x256 ![1] bcast_S256_S1x256_1 (Host.reduceAdd z (constant S_ .f32 0x00000000#32) reducesTo_S50000x256_S256_d0 h_S_))
      (broadcastInDim S1x256 ![] bcast_S_S1x256 (constant S_ .f32 0x47435000#32))))
  select (broadcastInDim S256 ![] bcast_S_S256 (cmpf .ogt (varDen (F := F)) (constant S_ .f32 0x00000000#32)))
    (Host.divf (Host.reduceAdd (mulf d d) (constant S_ .f32 0x00000000#32) reducesTo_S50000x256_S256_d0 h_S_)
      (broadcastInDim S256 ![] bcast_S_S256 (varDen (F := F))))
    (broadcastInDim S256 ![] bcast_S_S256 (id (constant S_ .f32 0x7FC00000#32 : Arr F S_ .f32)))

/-- Normalise the columns, scale, shift, clamp below at zero. -/
def bnRelu (z : Arr F S50000x256 .f32) (mu var g be : Arr F S256 .f32) : Arr F S50000x256 .f32 :=
  maximumf (addf (mulf (mulf (subf z (rows mu))
    (rows (Host.rsqrt (addf var (broadcastInDim S256 ![] bcast_S_S256 (constant S_ .f32 0x3727C5AC#32)))))) (rows g)) (rows be)) zeros

/-- The first layer. -/
def layer0 (x : Arr F S50000x128 .f32) (ei : Arr F S2x800000 .i32) (w1 : Arr F S128x256 .f32) (b1 : Arr F S256 .f32)
    (w2 : Arr F S256x256 .f32) (b2 g be : Arr F S256 .f32) : Arr F S50000x256 .f32 :=
  bnRelu (mlp128 (nbrSum128 x ei) x w1 b1 w2 b2) (colMean (mlp128 (nbrSum128 x ei) x w1 b1 w2 b2))
    (colVar (mlp128 (nbrSum128 x ei) x w1 b1 w2 b2)) g be

/-- A later layer. -/
def layerR (h : Arr F S50000x256 .f32) (ei : Arr F S2x800000 .i32) (w1 : Arr F S256x256 .f32) (b1 : Arr F S256 .f32)
    (w2 : Arr F S256x256 .f32) (b2 g be : Arr F S256 .f32) : Arr F S50000x256 .f32 :=
  bnRelu (mlp256 (nbrSum256 h ei) h w1 b1 w2 b2) (colMean (mlp256 (nbrSum256 h ei) h w1 b1 w2 b2))
    (colVar (mlp256 (nbrSum256 h ei) h w1 b1 w2 b2)) g be

/-- Slice k of three stacked 256×256 matrices. -/
def mat0 (w : Arr F S3x256x256 .f32) : Arr F S256x256 .f32 :=
  shapeCast S256x256 (extractStridedSlice S1x256x256 ![0, 0, 0] w slices_S3x256x256_S1x256x256_0_0_0) shapeCasts_S1x256x256_S256x256
def mat1 (w : Arr F S3x256x256 .f32) : Arr F S256x256 .f32 :=
  shapeCast S256x256 (extractStridedSlice S1x256x256 ![1, 0, 0] w slices_S3x256x256_S1x256x256_1_0_0) shapeCasts_S1x256x256_S256x256
def mat2 (w : Arr F S3x256x256 .f32) : Arr F S256x256 .f32 :=
  shapeCast S256x256 (extractStridedSlice S1x256x256 ![2, 0, 0] w slices_S3x256x256_S1x256x256_2_0_0) shapeCasts_S1x256x256_S256x256

/-- Row k of three stacked length-256 vectors. -/
def vec0 (b : Arr F S3x256 .f32) : Arr F S256 .f32 :=
  shapeCast S256 (extractStridedSlice S1x256 ![0, 0] b slices_S3x256_S1x256_0_0) shapeCasts_S1x256_S256
def vec1 (b : Arr F S3x256 .f32) : Arr F S256 .f32 :=
  shapeCast S256 (extractStridedSlice S1x256 ![1, 0] b slices_S3x256_S1x256_1_0) shapeCasts_S1x256_S256
def vec2 (b : Arr F S3x256 .f32) : Arr F S256 .f32 :=
  shapeCast S256 (extractStridedSlice S1x256 ![2, 0] b slices_S3x256_S1x256_2_0) shapeCasts_S1x256_S256

/-- Per graph: the sum of its nodes' rows over max(its number of nodes, 1). -/
def pool (h : Arr F S50000x256 .f32) (batch : Arr F S50000 .i32) : Arr F S64x256 .f32 :=
  Host.divf
    (Host.scatterAdd scatter_S64x256_S50000x1_S50000x256_1_0_0_1 (broadcastInDim S64x256 ![] bcast_S_S64x256 (constant S_ .f32 0x00000000#32))
      (broadcastInDim S50000x1 ![0] bcast_S50000_S50000x1_0 batch) h)
    (broadcastInDim S64x256 ![0, 1] bcast_S64x1_S64x256_0_1 (broadcastInDim S64x1 ![0] bcast_S64_S64x1_0
      (maximumf
        (Host.scatterAdd scatter_S64_S50000x1_S50000_n_0_0_1 (broadcastInDim S64 ![] bcast_S_S64 (constant S_ .f32 0x00000000#32))
          (broadcastInDim S50000x1 ![0] bcast_S50000_S50000x1_0 batch) (broadcastInDim S50000 ![] bcast_S_S50000 (constant S_ .f32 0x3F800000#32)))
        (broadcastInDim S64 ![] bcast_S_S64 (constant S_ .f32 0x3F800000#32)))))

/-- The whole network. -/
def net (x : Arr F S50000x128 .f32) (ei : Arr F S2x800000 .i32) (batch : Arr F S50000 .i32)
    (w1_0 : Arr F S128x256 .f32) (b1_0 : Arr F S256 .f32) (w2_0 : Arr F S256x256 .f32) (b2_0 g_0 be_0 : Arr F S256 .f32)
    (w1_r : Arr F S3x256x256 .f32) (b1_r : Arr F S3x256 .f32) (w2_r : Arr F S3x256x256 .f32) (b2_r g_r be_r : Arr F S3x256 .f32) :
    Arr F S64x256 .f32 :=
  pool
    (layerR
      (layerR
        (layerR (layer0 x ei w1_0 b1_0 w2_0 b2_0 g_0 be_0) ei (mat0 w1_r) (vec0 b1_r) (mat0 w2_r) (vec0 b2_r) (vec0 g_r) (vec0 be_r))
        ei (mat1 w1_r) (vec1 b1_r) (mat1 w2_r) (vec1 b2_r) (vec1 g_r) (vec1 be_r))
      ei (mat2 w1_r) (vec2 b1_r) (mat2 w2_r) (vec2 b2_r) (vec2 g_r) (vec2 be_r))
    batch

end Cert.Spec

end
-- ==== Proof.SpecRows.lean ====
/-
  The network's stages restated over what the program keeps in buffers between stages: the edge list's two rows as
  flat index vectors (the later layers gather and scatter by them again), and the variance with its correction as an
  operand.  Each is the stage of the network it stands for, by unfolding.
-/
import proofs.«111778_j58583353917552_1_alg».proof.Proof.Spec

noncomputable section

namespace Cert.SpecRows

open Idealize.ShloMosaic Cert.ReferenceIdeal Cert.ReferenceIdeal.Gen Cert.Spec

variable {F : FTy → Type} [FloatOps F]

/-- Row 0 of the edge list as a flat vector. -/
def srcRow (ei : Arr F S2x800000 .i32) : Arr F S800000 .i32 :=
  shapeCast S800000 (extractStridedSlice S1x800000 ![0, 0] ei slices_S2x800000_S1x800000_0_0) shapeCasts_S1x800000_S800000

/-- Row 1 of the edge list as a flat vector. -/
def dstRow (ei : Arr F S2x800000 .i32) : Arr F S800000 .i32 :=
  shapeCast S800000 (extractStridedSlice S1x800000 ![1, 0] ei slices_S2x800000_S1x800000_1_0) shapeCasts_S1x800000_S800000

/-- Neighbour sums of 256-wide features from the two flat index vectors. -/
def nbrRows256 (h : Arr F S50000x256 .f32) (s d : Arr F S800000 .i32) : Arr F S50000x256 .f32 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 d)
    (Host.gather gather_S50000x256_S800000x1_S800000x256_1_0_n_n_0_1_1256 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

theorem nbrRows256_eq (h : Arr F S50000x256 .f32) (ei : Arr F S2x800000 .i32) :
    nbrRows256 h (srcRow ei) (dstRow ei) = nbrSum256 h ei := rfl

/-- Column variances with the correction n as an operand. -/
def varOf (z : Arr F S50000x256 .f32) (n : Arr F S_ .i32) : Arr F S256 .f32 :=
  select (broadcastInDim S256 ![] bcast_S_S256 (cmpf .ogt (subf (constant S_ .f32 0x47435000#32) (sitofp .f32 n) : Arr F S_ .f32) (constant S_ .f32 0x00000000#32)))
    (Host.divf (Host.reduceAdd
        (mulf (subf z (broadcastInDim S50000x256 ![0, 1] bcast_S1x256_S50000x256_0_1
            (Host.divf (broadcastInDim S1x256 ![1] bcast_S256_S1x256_1 (Host.reduceAdd z (constant S_ .f32 0x00000000#32) reducesTo_S50000x256_S256_d0 h_S_))
              (broadcastInDim S1x256 ![] bcast_S_S1x256 (constant S_ .f32 0x47435000#32)))))
          (subf z (broadcastInDim S50000x256 ![0, 1] bcast_S1x256_S50000x256_0_1
            (Host.divf (broadcastInDim S1x256 ![1] bcast_S256_S1x256_1 (Host.reduceAdd z (constant S_ .f32 0x00000000#32) reducesTo_S50000x256_S256_d0 h_S_))
              (broadcastInDim S1x256 ![] bcast_S_S1x256 (constant S_ .f32 0x47435000#32))))))
        (constant S_ .f32 0x00000000#32) reducesTo_S50000x256_S256_d0 h_S_)
      (broadcastInDim S256 ![] bcast_S_S256 (subf (constant S_ .f32 0x47435000#32) (sitofp .f32 n) : Arr F S_ .f32)))
    (broadcastInDim S256 ![] bcast_S_S256 (id (constant S_ .f32 0x7FC00000#32 : Arr F S_ .f32)))

theorem varOf_zero (z : Arr F S50000x256 .f32) : varOf z (constantI S_ 32 0#32) = colVar z := rfl

end Cert.SpecRows

end
-- ==== Proof.KernelStages.lean ====
/-
  What each stretch of host operations of the idealized kernel program computes, as a stage of the network applied to
  the buffers the stretch reads, for arbitrary contents of those buffers: the neighbour sums and the two rows of the edge
  list (before the first region), the column means and the column variances of a perceptron's output (between a
  perceptron region and its normalisation region), a layer's slices of the stacked parameters and the neighbour sums of
  the previous layer's output (between layers), and the pooling (after the last region).
-/
import proofs.«111778_j58583353917552_1_alg».proof.Proof.Gen.KernelIdeal.Launch
import proofs.«111778_j58583353917552_1_alg».proof.Proof.SpecRows
import Idealize.ShloMosaic.Lib.StableHlo.Run
import Idealize.ShloMosaic.PureOps.Ideal

set_option maxRecDepth 16384
set_option maxHeartbeats 1000000

noncomputable section

namespace Cert.KernelIdeal.Stages

open Idealize.ShloMosaic Idealize.ShloMosaic.TcCoe Idealize.SL.Sem
open Cert.KernelIdeal Cert.KernelIdeal.Gen

theorem h0_agg (V : Valuation τ sig (Elt Ideal)) :
    StableHlo.after hostOps0 V (Proc.devRef .tc main_v13) = Cert.Spec.nbrSum128 (F := Ideal) (V (Proc.devRef .tc main_arg0)) (V (Proc.devRef .tc main_arg1)) := by
  after_results
  rfl
theorem h0_src (V : Valuation τ sig (Elt Ideal)) :
    StableHlo.after hostOps0 V (Proc.devRef .tc main_v1) = Cert.SpecRows.srcRow (F := Ideal) (V (Proc.devRef .tc main_arg1)) := by
  after_results
  rfl
theorem h0_dst (V : Valuation τ sig (Elt Ideal)) :
    StableHlo.after hostOps0 V (Proc.devRef .tc main_v3) = Cert.SpecRows.dstRow (F := Ideal) (V (Proc.devRef .tc main_arg1)) := by
  after_results
  rfl
theorem h1_mean (V : Valuation τ sig (Elt Ideal)) :
    StableHlo.after hostOps1 V (Proc.devRef .tc main_v17) = Cert.Spec.colMean (F := Ideal) (V (Proc.devRef .tc main_v14)) := by
  after_results
  rfl
theorem h1_corr (V : Valuation τ sig (Elt Ideal)) :
    StableHlo.after hostOps1 V (Proc.devRef .tc main_c_3) = (constantI Cert.ReferenceIdeal.S_ 32 0#32 : Cert.Spec.Arr Ideal Cert.ReferenceIdeal.S_ .i32) := by
  after_results
theorem h1_var (V : Valuation τ sig (Elt Ideal)) :
    StableHlo.after hostOps1_1 V (Proc.devRef .tc main_v18) = Cert.SpecRows.varOf (F := Ideal) (V (Proc.devRef .tc main_v14)) (V (Proc.devRef .tc main_c_3)) := by
  after_results_simp
  rfl
theorem h3_mean (V : Valuation τ sig (Elt Ideal)) :
    StableHlo.after hostOps3 V (Proc.devRef .tc main_v45) = Cert.Spec.colMean (F := Ideal) (V (Proc.devRef .tc main_v42)) := by
  after_results
  rfl
theorem h3_corr (V : Valuation τ sig (Elt Ideal)) :
    StableHlo.after hostOps3 V (Proc.devRef .tc main_c_9) = (constantI Cert.ReferenceIdeal.S_ 32 0#32 : Cert.Spec.Arr Ideal Cert.ReferenceIdeal.S_ .i32) := by
  after_results
theorem h3_var (V : Valuation τ sig (Elt Ideal)) :
    StableHlo.after hostOps3_1 V (Proc.devRef .tc main_v46) = Cert.SpecRows.varOf (F := Ideal) (V (Proc.devRef .tc main_v42)) (V (Proc.devRef .tc main_c_9)) := by
  after_results_simp
  rfl
theorem h5_mean (V : Valuation τ sig (Elt Ideal)) :
    StableHlo.after hostOps5 V (Proc.devRef .tc main_v73) = Cert.Spec.colMean (F := Ideal) (V (Proc.devRef .tc main_v70)) := by
  after_results
  rfl
theorem h5_corr (V : Valuation τ sig (Elt Ideal)) :
    StableHlo.after hostOps5 V (Proc.devRef .tc main_c_15) = (constantI Cert.ReferenceIdeal.S_ 32 0#32 : Cert.Spec.Arr Ideal Cert.ReferenceIdeal.S_ .i32) := by
  after_results
theorem h5_var (V : Valuation τ sig (Elt Ideal)) :
    StableHlo.after hostOps5_1 V (Proc.devRef .tc main_v74) = Cert.SpecRows.varOf (F := Ideal) (V (Proc.devRef .tc main_v70)) (V (Proc.devRef .tc main_c_15)) := by
  after_results_simp
  rfl
theorem h7_mean (V : Valuation τ sig (Elt Ideal)) :
    StableHlo.after hostOps7 V (Proc.devRef .tc main_v101) = Cert.Spec.colMean (F := Ideal) (V (Proc.devRef .tc main_v98)) := by
  after_results
  rfl
theorem h7_corr (V : Valuation τ sig (Elt Ideal)) :
    StableHlo.after hostOps7 V (Proc.devRef .tc main_c_21) = (constantI Cert.ReferenceIdeal.S_ 32 0#32 : Cert.Spec.Arr Ideal Cert.ReferenceIdeal.S_ .i32) := by
  after_results
theorem h7_var (V : Valuation τ sig (Elt Ideal)) :
    StableHlo.after hostOps7_1 V (Proc.devRef .tc main_v102) = Cert.SpecRows.varOf (F := Ideal) (V (Proc.devRef .tc main_v98)) (V (Proc.devRef .tc main_c_21)) := by
  after_results_simp
  rfl
theorem h2_w1 (V : Valuation τ sig (Elt Ideal)) :
    StableHlo.after hostOps2 V (Proc.devRef .tc main_v21) = Cert.Spec.mat0 (F := Ideal) (V (Proc.devRef .tc main_arg9)) := by
  after_results
  rfl
theorem h2_b1 (V : Valuation τ sig (Elt Ideal)) :
    StableHlo.after hostOps2 V (Proc.devRef .tc main_v23) = Cert.Spec.vec0 (F := Ideal) (V (Proc.devRef .tc main_arg10)) := by
  after_results
  rfl
theorem h2_w2 (V : Valuation τ sig (Elt Ideal)) :
    StableHlo.after hostOps2 V (Proc.devRef .tc main_v25) = Cert.Spec.mat0 (F := Ideal) (V (Proc.devRef .tc main_arg11)) := by
  after_results
  rfl
theorem h2_b2 (V : Valuation τ sig (Elt Ideal)) :
    StableHlo.after hostOps2 V (Proc.devRef .tc main_v27) = Cert.Spec.vec0 (F := Ideal) (V (Proc.devRef .tc main_arg12)) := by
  after_results
  rfl
theorem h2_g (V : Valuation τ sig (Elt Ideal)) :
    StableHlo.after hostOps2 V (Proc.devRef .tc main_v29) = Cert.Spec.vec0 (F := Ideal) (V (Proc.devRef .tc main_arg13)) := by
  after_results
  rfl
theorem h2_be (V : Valuation τ sig (Elt Ideal)) :
    StableHlo.after hostOps2 V (Proc.devRef .tc main_v31) = Cert.Spec.vec0 (F := Ideal) (V (Proc.devRef .tc main_arg14)) := by
  after_results
  rfl
theorem h2_agg (V : Valuation τ sig (Elt Ideal)) :
    StableHlo.after hostOps2 V (Proc.devRef .tc main_v41) = Cert.SpecRows.nbrRows256 (F := Ideal) (V (Proc.devRef .tc main_v19)) (V (Proc.devRef .tc main_v1)) (V (Proc.devRef .tc main_v3)) := by
  after_results_simp
  rfl
theorem h4_w1 (V : Valuation τ sig (Elt Ideal)) :
    StableHlo.after hostOps4 V (Proc.devRef .tc main_v49) = Cert.Spec.mat1 (F := Ideal) (V (Proc.devRef .tc main_arg9)) := by
  after_results
  rfl
theorem h4_b1 (V : Valuation τ sig (Elt Ideal)) :
    StableHlo.after hostOps4 V (Proc.devRef .tc main_v51) = Cert.Spec.vec1 (F := Ideal) (V (Proc.devRef .tc main_arg10)) := by
  after_results
  rfl
theorem h4_w2 (V : Valuation τ sig (Elt Ideal)) :
    StableHlo.after hostOps4 V (Proc.devRef .tc main_v53) = Cert.Spec.mat1 (F := Ideal) (V (Proc.devRef .tc main_arg11)) := by
  after_results
  rfl
theorem h4_b2 (V : Valuation τ sig (Elt Ideal)) :
    StableHlo.after hostOps4 V (Proc.devRef .tc main_v55) = Cert.Spec.vec1 (F := Ideal) (V (Proc.devRef .tc main_arg12)) := by
  after_results
  rfl
theorem h4_g (V : Valuation τ sig (Elt Ideal)) :
    StableHlo.after hostOps4 V (Proc.devRef .tc main_v57) = Cert.Spec.vec1 (F := Ideal) (V (Proc.devRef .tc main_arg13)) := by
  after_results
  rfl
theorem h4_be (V : Valuation τ sig (Elt Ideal)) :
    StableHlo.after hostOps4 V (Proc.devRef .tc main_v59) = Cert.Spec.vec1 (F := Ideal) (V (Proc.devRef .tc main_arg14)) := by
  after_results
  rfl
theorem h4_agg (V : Valuation τ sig (Elt Ideal)) :
    StableHlo.after hostOps4 V (Proc.devRef .tc main_v69) = Cert.SpecRows.nbrRows256 (F := Ideal) (V (Proc.devRef .tc main_v47)) (V (Proc.devRef .tc main_v1)) (V (Proc.devRef .tc main_v3)) := by
  after_results_simp
  rfl
theorem h6_w1 (V : Valuation τ sig (Elt Ideal)) :
    StableHlo.after hostOps6 V (Proc.devRef .tc main_v77) = Cert.Spec.mat2 (F := Ideal) (V (Proc.devRef .tc main_arg9)) := by
  after_results
  rfl
theorem h6_b1 (V : Valuation τ sig (Elt Ideal)) :
    StableHlo.after hostOps6 V (Proc.devRef .tc main_v79) = Cert.Spec.vec2 (F := Ideal) (V (Proc.devRef .tc main_arg10)) := by
  after_results
  rfl
theorem h6_w2 (V : Valuation τ sig (Elt Ideal)) :
    StableHlo.after hostOps6 V (Proc.devRef .tc main_v81) = Cert.Spec.mat2 (F := Ideal) (V (Proc.devRef .tc main_arg11)) := by
  after_results
  rfl
theorem h6_b2 (V : Valuation τ sig (Elt Ideal)) :
    StableHlo.after hostOps6 V (Proc.devRef .tc main_v83) = Cert.Spec.vec2 (F := Ideal) (V (Proc.devRef .tc main_arg12)) := by
  after_results
  rfl
theorem h6_g (V : Valuation τ sig (Elt Ideal)) :
    StableHlo.after hostOps6 V (Proc.devRef .tc main_v85) = Cert.Spec.vec2 (F := Ideal) (V (Proc.devRef .tc main_arg13)) := by
  after_results
  rfl
theorem h6_be (V : Valuation τ sig (Elt Ideal)) :
    StableHlo.after hostOps6 V (Proc.devRef .tc main_v87) = Cert.Spec.vec2 (F := Ideal) (V (Proc.devRef .tc main_arg14)) := by
  after_results
  rfl
theorem h6_agg (V : Valuation τ sig (Elt Ideal)) :
    StableHlo.after hostOps6 V (Proc.devRef .tc main_v97) = Cert.SpecRows.nbrRows256 (F := Ideal) (V (Proc.devRef .tc main_v75)) (V (Proc.devRef .tc main_v1)) (V (Proc.devRef .tc main_v3)) := by
  after_results_simp
  rfl
theorem h8_pool (V : Valuation τ sig (Elt Ideal)) :
    StableHlo.after hostOps8 V (Proc.devRef .tc main_v115) = Cert.Spec.pool (F := Ideal) (V (Proc.devRef .tc main_v103)) (V (Proc.devRef .tc main_arg2)) := by
  after_results_simp
  rfl

end Cert.KernelIdeal.Stages

end
-- ==== Proof.LibRowBlock.lean ====
/-
  General facts about row blocks, at the ideal values.  A matrix product's entry (r, j) is the sum over k of A(r,k)·B(k,j):
  it needs one row of the left operand, so a block of rows times a matrix is that block of rows of the whole product.
  And a length-n vector written as one row and repeated down the rows reads, at (r, j), its entry j — whether the
  repeating is a kernel's shape cast and broadcast or the host's two broadcasts.  Nothing here mentions a program.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.RowBlockLib

open Idealize.ShloMosaic Idealize.ShloMosaic.ValueIdx Idealize.ShloMosaic.Pipeline

/-- Row a of a block of rows times a matrix is row a' of the whole matrix times it, when the block's row a is the whole
    matrix's row a'. -/
theorem dotGeneral_plain_row {M m k n : Nat} {φ₁ φ₁' φ₂ φ₂' : FTy} (prec prec' : Option ContractPrecision)
    (A : FVec Ideal ⟨2, ![M, k]⟩ φ₁) (Ab : FVec Ideal ⟨2, ![m, k]⟩ φ₁') (B : FVec Ideal ⟨2, ![k, n]⟩ φ₂) (Bb : FVec Ideal ⟨2, ![k, n]⟩ φ₂')
    (a : Fin m) (a' : Fin M) (b : Fin n)
    (hA : ∀ c : Fin k, (Ab (ix2 a c) : EReal) = A (ix2 a' c)) (hB : ∀ c : Fin k, (Bb (ix2 c b) : EReal) = B (ix2 c b)) :
    (Host.dotGeneral (DotDims.plain m k n) prec Ab Bb (ix2 a b) : EReal) = Host.dotGeneral (DotDims.plain M k n) prec' A B (ix2 a' b) := by
  rw [StackMember.dotGeneral_plain_apply, StackMember.dotGeneral_plain_apply]
  exact Finset.sum_congr rfl fun c _ => by rw [hA c, hB c]

/-- A length-n vector stored as one row and broadcast down m rows reads, at (p, j), the vector's entry j. -/
theorem bias_rows_apply {α : Type} {m n : Nat} (hn : n ≠ 1) (v : (⟨1, ![n]⟩ : Shape).Idx → α)
    (h1 : (⟨1, ![n]⟩ : Shape).ShapeCasts ⟨2, ![1, n]⟩) (h2 : (⟨2, ![1, n]⟩ : Shape).Broadcasts ⟨2, ![m, n]⟩) (p : Fin m) (j : Fin n) :
    broadcastTo ⟨2, ![m, n]⟩ (shapeCast ⟨2, ![1, n]⟩ v h1) h2 (ix2 p j) = v (ix1 j) := by
  refine (broadcastTo_apply _ h2 (ix2 p j) (ix2 (0 : Fin 1) j) fun ax => ?_).trans ?_
  · match ax with
    | ⟨0, _⟩ => show (0 : Nat) = if (1 : Nat) = 1 then 0 else p.val; rw [if_pos rfl]
    | ⟨1, _⟩ => show j.val = if n = 1 then 0 else j.val; rw [if_neg hn]
  · refine (shapeCast_addUnit_apply ![n] v h1 (ix2 (0 : Fin 1) j)).trans (congrArg v (funext fun a => ?_))
    match a with
    | ⟨0, _⟩ => rfl

/-- The same read of the host's two broadcasts ([n] to [1, n] along axis 1, then to [M, n]). -/
theorem bias_rows_host_apply {α : Type} {M n : Nat} (hn : n ≠ 1) (v : (⟨1, ![n]⟩ : Shape).Idx → α)
    (h1 : (⟨1, ![n]⟩ : Shape).BroadcastsInDim ⟨2, ![1, n]⟩ ![1]) (h2 : (⟨2, ![1, n]⟩ : Shape).BroadcastsInDim ⟨2, ![M, n]⟩ ![0, 1])
    (r : Fin M) (j : Fin n) :
    broadcastInDim ⟨2, ![M, n]⟩ ![0, 1] h2 (broadcastInDim ⟨2, ![1, n]⟩ ![1] h1 v) (ix2 r j) = v (ix1 j) := by
  refine (broadcastInDim_apply _ h2 _ (ix2 r j) (ix2 (0 : Fin 1) j) fun a => ?_).trans
    (broadcastInDim_apply _ h1 v (ix2 (0 : Fin 1) j) (ix1 j) fun a => ?_)
  · match a with
    | ⟨0, _⟩ => show (0 : Nat) = if (1 : Nat) = 1 then 0 else r.val; rw [if_pos rfl]
    | ⟨1, _⟩ => show j.val = if n = 1 then 0 else j.val; rw [if_neg hn]
  · match a with
    | ⟨0, _⟩ => show j.val = if n = 1 then 0 else j.val; rw [if_neg hn]

end Cert.RowBlockLib

end
-- ==== Proof.LibRowOps.lean ====
/-
  General reads at an index, at the ideal values, used by the row-local stages of a network: a matrix product
  accumulated into zero, a column broadcast across the columns, and a select on a strict comparison of two values.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.LibMlp.lean ====
/-
  A two-layer perceptron on a block of rows, at the ideal values.

  The kernel's form, on a block of mb rows: relu((Ab + Hb) · W1 + b1) · W2 + b2, each product accumulated into a zero
  splat, each operand passed through a change of float format (the identity here), each bias cast to one row and
  repeated down the block.  The host's form, on all M rows: the same with dot_general and the host's broadcasts.
  Entry (p, j) of the first is entry (r, j) of the second whenever row p of the block's operands is row r of the whole
  operands: a row of a product needs one row of the left factor, and everything else is pointwise.
-/
import proofs.«111778_j58583353917552_1_alg».proof.Proof.LibRowBlock
import proofs.«111778_j58583353917552_1_alg».proof.Proof.LibRowOps

noncomputable section

open scoped BigOperators

namespace Cert.MlpLib

open Idealize.ShloMosaic Idealize.ShloMosaic.ValueIdx Idealize.ShloMosaic.Pipeline

/-- A scalar broadcast to an M×n array by the host reads the scalar everywhere. -/
theorem scalar_host_apply {α : Type} {M n : ℕ} (v : (⟨0, ![]⟩ : Shape).Idx → α)
    (g0 : (⟨0, ![]⟩ : Shape).BroadcastsInDim ⟨2, ![M, n]⟩ ![]) (i : (⟨2, ![M, n]⟩ : Shape).Idx) (i0 : (⟨0, ![]⟩ : Shape).Idx) :
    broadcastInDim ⟨2, ![M, n]⟩ ![] g0 v i = v i0 :=
  broadcastInDim_apply _ g0 v i i0 fun a => a.elim0

theorem mlp_row {M mb k n : ℕ} (hn : n ≠ 1) (hbits : FTy.bf16.bits < FTy.f32.bits)
    (A H : FVec Ideal ⟨2, ![M, k]⟩ .f32) (Ab Hb : FVec Ideal ⟨2, ![mb, k]⟩ .f32)
    (W1 : FVec Ideal ⟨2, ![k, n]⟩ .f32) (b1 : FVec Ideal ⟨1, ![n]⟩ .f32) (W2 : FVec Ideal ⟨2, ![n, n]⟩ .f32) (b2 : FVec Ideal ⟨1, ![n]⟩ .f32)
    (D1b : DotDims ⟨2, ![mb, k]⟩ ⟨2, ![k, n]⟩ ⟨2, ![mb, n]⟩) (hD1b : D1b = DotDims.plain mb k n)
    (D2b : DotDims ⟨2, ![mb, n]⟩ ⟨2, ![n, n]⟩ ⟨2, ![mb, n]⟩) (hD2b : D2b = DotDims.plain mb n n)
    (D1 : DotDims ⟨2, ![M, k]⟩ ⟨2, ![k, n]⟩ ⟨2, ![M, n]⟩) (hD1 : D1 = DotDims.plain M k n)
    (D2 : DotDims ⟨2, ![M, n]⟩ ⟨2, ![n, n]⟩ ⟨2, ![M, n]⟩) (hD2 : D2 = DotDims.plain M n n)
    (c1 : (⟨1, ![n]⟩ : Shape).ShapeCasts ⟨2, ![1, n]⟩) (c2 : (⟨2, ![1, n]⟩ : Shape).Broadcasts ⟨2, ![mb, n]⟩)
    (g1 : (⟨1, ![n]⟩ : Shape).BroadcastsInDim ⟨2, ![1, n]⟩ ![1]) (g2 : (⟨2, ![1, n]⟩ : Shape).BroadcastsInDim ⟨2, ![M, n]⟩ ![0, 1])
    (g0 : (⟨0, ![]⟩ : Shape).BroadcastsInDim ⟨2, ![M, n]⟩ ![])
    (p : Fin mb) (r : Fin M) (j : Fin n)
    (hA : ∀ i : Fin k, Ab (ix2 p i) = A (ix2 r i)) (hH : ∀ i : Fin k, Hb (ix2 p i) = H (ix2 r i)) :
    (addf (matmul D2b none (truncf .bf16 (maximumf (addf (matmul D1b none (truncf .bf16 (addf Ab Hb) hbits) (truncf .bf16 W1 hbits)
        (constant ⟨2, ![mb, n]⟩ .f32 0x00000000#32)) (broadcastTo ⟨2, ![mb, n]⟩ (shapeCast ⟨2, ![1, n]⟩ b1 c1) c2))
        (broadcast ⟨2, ![mb, n]⟩ (Scalar.ofBits .f32 0x00000000#32))) hbits) (truncf .bf16 W2 hbits) (constant ⟨2, ![mb, n]⟩ .f32 0x00000000#32))
      (broadcastTo ⟨2, ![mb, n]⟩ (shapeCast ⟨2, ![1, n]⟩ b2 c1) c2) : FVec Ideal ⟨2, ![mb, n]⟩ .f32) (ix2 p j)
    = (addf (Host.dotGeneral D2 none (maximumf (addf (Host.dotGeneral D1 none (addf A H) W1)
        (broadcastInDim ⟨2, ![M, n]⟩ ![0, 1] g2 (broadcastInDim ⟨2, ![1, n]⟩ ![1] g1 b1)))
        (broadcastInDim ⟨2, ![M, n]⟩ ![] g0 (constant ⟨0, ![]⟩ .f32 0x00000000#32))) W2)
      (broadcastInDim ⟨2, ![M, n]⟩ ![0, 1] g2 (broadcastInDim ⟨2, ![1, n]⟩ ![1] g1 b2)) : FVec Ideal ⟨2, ![M, n]⟩ .f32) (ix2 r j) := by
  subst hD1b hD2b hD1 hD2
  have inner : ∀ c : Fin n,
      (truncf .bf16 (maximumf (addf (matmul (DotDims.plain mb k n) none (truncf .bf16 (addf Ab Hb) hbits) (truncf .bf16 W1 hbits)
        (constant ⟨2, ![mb, n]⟩ .f32 0x00000000#32)) (broadcastTo ⟨2, ![mb, n]⟩ (shapeCast ⟨2, ![1, n]⟩ b1 c1) c2))
        (broadcast ⟨2, ![mb, n]⟩ (Scalar.ofBits .f32 0x00000000#32))) hbits : FVec Ideal ⟨2, ![mb, n]⟩ .bf16) (ix2 p c)
      = (maximumf (addf (Host.dotGeneral (DotDims.plain M k n) none (addf A H) W1)
        (broadcastInDim ⟨2, ![M, n]⟩ ![0, 1] g2 (broadcastInDim ⟨2, ![1, n]⟩ ![1] g1 b1)))
        (broadcastInDim ⟨2, ![M, n]⟩ ![] g0 (constant ⟨0, ![]⟩ .f32 0x00000000#32)) : FVec Ideal ⟨2, ![M, n]⟩ .f32) (ix2 r c) := by
    intro c
    rw [truncf_apply, maximumf_apply, maximumf_apply, addf_apply, addf_apply,
      RowBlockLib.bias_rows_apply hn b1 c1 c2 p c, RowBlockLib.bias_rows_host_apply hn b1 g1 g2 r c,
      RowLib.matmul_plain_zero_ix2, StackMember.dotGeneral_plain_apply, broadcast_apply,
      scalar_host_apply _ g0 (ix2 r c) ix0, constant_apply]
    have hs : (∑ i : Fin k, (truncf .bf16 (addf Ab Hb) hbits : FVec Ideal ⟨2, ![mb, k]⟩ .bf16) (ix2 p i) * (truncf .bf16 W1 hbits : FVec Ideal ⟨2, ![k, n]⟩ .bf16) (ix2 i c))
        = ∑ i : Fin k, (addf A H) (ix2 r i) * W1 (ix2 i c) :=
      Finset.sum_congr rfl fun i _ => by rw [truncf_apply, truncf_apply, addf_apply, addf_apply, hA i, hH i]
    rw [hs]
    rfl
  rw [addf_apply, addf_apply, RowBlockLib.bias_rows_apply hn b2 c1 c2 p j, RowBlockLib.bias_rows_host_apply hn b2 g1 g2 r j,
    RowLib.matmul_plain_zero_ix2, StackMember.dotGeneral_plain_apply]
  refine congrArg (· + b2 (ix1 j)) (Finset.sum_congr rfl fun c _ => ?_)
  rw [inner c, truncf_apply]

end Cert.MlpLib

end
-- ==== Proof.MlpValue0.lean ====
/-
  Region 0 of the idealized kernel program: the two-layer perceptron on blocks of 2000 rows.

  Grid point t loads rows 2000·t … 2000·t + 1999 of the neighbour sums and of the features, and the four parameter
  arrays whole; its body is relu((a + h) · W1 + b1) · W2 + b2 on those rows; it writes the result back as the same
  rows of the output.  A row of the result depends on that one row of a and h only, so the block written at point t
  is rows 2000·t … of the perceptron of the whole arrays; the 25 blocks cover all 50000 rows; hence the output array
  after the region is the perceptron of the arrays the region found.
-/
import proofs.«111778_j58583353917552_1_alg».proof.Proof.Gen.KernelIdeal.Frame
import proofs.«111778_j58583353917552_1_alg».proof.Proof.Spec
import proofs.«111778_j58583353917552_1_alg».proof.Proof.LibMlp
import Idealize.ShloMosaic.Lib.ValueIdx
import Idealize.ShloMosaic.Lib.Pipeline.Value

set_option maxRecDepth 16384

noncomputable section

namespace Cert.KernelIdeal.MlpValue0

open Idealize.ShloMosaic Idealize.ShloMosaic.TcCoe Idealize.SL.Sem Idealize.ShloMosaic.ValueIdx Idealize.ShloMosaic.Pipeline
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's arithmetic with its identity reshapes removed. -/
theorem pay_eq (x0 x1 : Vec Ideal S2000x128 .f32) (x2 : Vec Ideal S128x256 .f32) (x3 : Vec Ideal S256 .f32) (x4 : Vec Ideal S256x256 .f32) (x5 : Vec Ideal S256 .f32) :
    k0_pay1 x0 x1 x2 x3 x4 x5
      = addf (matmul dot_S2000x256_S256x256_S2000x256_1_0_0_1_n_n none (truncf .bf16 (maximumf (addf (matmul dot_S2000x128_S128x256_S2000x256_1_0_0_1_n_n none
          (truncf .bf16 (addf x0 x1) bitsLt_bf16_f32) (truncf .bf16 x2 bitsLt_bf16_f32) (constant S2000x256 .f32 0x00000000#32))
          (broadcastTo S2000x256 (shapeCast S1x256 x3 shapeCasts_S256_S1x256) broadcasts_S1x256_S2000x256))
          (broadcast S2000x256 (Scalar.ofBits .f32 0x00000000#32))) bitsLt_bf16_f32) (truncf .bf16 x4 bitsLt_bf16_f32) (constant S2000x256 .f32 0x00000000#32))
        (broadcastTo S2000x256 (shapeCast S1x256 x5 shapeCasts_S256_S1x256) broadcasts_S1x256_S2000x256) := by
  unfold k0_pay1
  simp only [shapeCast_self]

/-- The index maps over the grid: the row-blocked windows sit at block row t, the parameter windows at block 0. -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row p of the block of window 0 at point t is row 2000·t + p of its array. -/
theorem blk_0 (c : Dev nD) (t : Fin cfg0.N) (p : Fin 2000) (i : Fin 128) (r : Fin 50000) (hr : r.val = 2000 * t.val + p.val) :
    (iblk0 V c 0 t : Vec Ideal S2000x128 .f32) (ix2 p i) = (V c main_v13 : S50000x128.Idx → Elt Ideal .f32) (ix2 r i) := by
  obtain ⟨e0, e1, -⟩ := idx t
  unfold iblk0
  rw [View.read_apply]
  show V c main_v13 _ = V c main_v13 _
  refine congrArg (V c main_v13) (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * i.val = i.val; rw [e1]; omega

/-- The same for window 1. -/
theorem blk_1 (c : Dev nD) (t : Fin cfg0.N) (p : Fin 2000) (i : Fin 128) (r : Fin 50000) (hr : r.val = 2000 * t.val + p.val) :
    (iblk0 V c 1 t : Vec Ideal S2000x128 .f32) (ix2 p i) = (V c main_arg0 : S50000x128.Idx → Elt Ideal .f32) (ix2 r i) := by
  obtain ⟨-, -, e0, e1, -⟩ := idx t
  unfold iblk0
  rw [View.read_apply]
  show V c main_arg0 _ = V c main_arg0 _
  refine congrArg (V c main_arg0) (funext fun a => Fin.ext ?_)
  match a with
  | ⟨0, _⟩ => show win0_1.index t (0 : Fin 2) * 2000 + 1 * p.val = r.val; rw [e0, hr]; omega
  | ⟨1, _⟩ => show win0_1.index t (1 : Fin 2) * 128 + 1 * i.val = i.val; rw [e1]; omega

/-- The parameter windows' blocks are their whole arrays. -/
theorem blk_2 (c : Dev nD) (t : Fin cfg0.N) : (iblk0 V c 2 t : Vec Ideal S128x256 .f32) = (V c main_arg3 : S128x256.Idx → Elt Ideal .f32) := by
  obtain ⟨-, -, -, -, e0, e1, -⟩ := idx t
  unfold iblk0
  funext y
  rw [View.read_apply]
  show V c main_arg3 _ = V c main_arg3 y
  refine congrArg (V c main_arg3) (funext fun a => Fin.ext ?_)
  match a with
  | ⟨0, _⟩ => show win0_2.index t (0 : Fin 2) * 128 + 1 * (y 0).val = (y 0).val; rw [e0]; omega
  | ⟨1, _⟩ => show win0_2.index t (1 : Fin 2) * 256 + 1 * (y 1).val = (y 1).val; rw [e1]; omega

theorem blk_3 (c : Dev nD) (t : Fin cfg0.N) : (iblk0 V c 3 t : Vec Ideal S256 .f32) = (V c main_arg4 : S256.Idx → Elt Ideal .f32) := by
  obtain ⟨-, -, -, -, -, -, e0, -⟩ := idx t
  unfold iblk0
  funext y
  rw [View.read_apply]
  show V c main_arg4 _ = V c main_arg4 y
  refine congrArg (V c main_arg4) (funext fun a => Fin.ext ?_)
  match a with
  | ⟨0, _⟩ => show win0_3.index t (0 : Fin 1) * 256 + 1 * (y 0).val = (y 0).val; rw [e0]; omega

theorem blk_4 (c : Dev nD) (t : Fin cfg0.N) : (iblk0 V c 4 t : Vec Ideal S256x256 .f32) = (V c main_arg5 : S256x256.Idx → Elt Ideal .f32) := by
  obtain ⟨-, -, -, -, -, -, -, e0, e1, -⟩ := idx t
  unfold iblk0
  funext y
  rw [View.read_apply]
  show V c main_arg5 _ = V c main_arg5 y
  refine congrArg (V c main_arg5) (funext fun a => Fin.ext ?_)
  match a with
  | ⟨0, _⟩ => show win0_4.index t (0 : Fin 2) * 256 + 1 * (y 0).val = (y 0).val; rw [e0]; omega
  | ⟨1, _⟩ => show win0_4.index t (1 : Fin 2) * 256 + 1 * (y 1).val = (y 1).val; rw [e1]; omega

theorem blk_5 (c : Dev nD) (t : Fin cfg0.N) : (iblk0 V c 5 t : Vec Ideal S256 .f32) = (V c main_arg6 : S256.Idx → Elt Ideal .f32) := by
  obtain ⟨-, -, -, -, -, -, -, -, -, e0, -⟩ := idx t
  unfold iblk0
  funext y
  rw [View.read_apply]
  show V c main_arg6 _ = V c main_arg6 y
  refine congrArg (V c main_arg6) (funext fun a => Fin.ext ?_)
  match a with
  | ⟨0, _⟩ => show win0_5.index t (0 : Fin 1) * 256 + 1 * (y 0).val = (y 0).val; rw [e0]; omega

/-- What point t writes back is block t of the perceptron of the whole arrays. -/
theorem flushed_eq (c : Dev nD) (t : Fin cfg0.N) :
    (dat0 V c).flushed 6 t = ((cfg0.win 6).blk t).view.read (Elt Ideal)
      (Cert.Spec.mlp128 (F := Ideal) (V c main_v13) (V c main_arg0) (V c main_arg3) (V c main_arg4) (V c main_arg5) (V c main_arg6)) := by
  show (cfg0.win 6).cut (grid0.coords t) ((dat0 V c).after 6 t) = _
  rw [after0_6]
  unfold out0_6
  rw [View.canon_unit_zero hz2]
  simp only [View.ld_unit_zero (S := S2000x128) hz2, View.ld_unit_zero (S := S128x256) hz2, View.ld_unit_zero (S := S256) hz1,
    View.ld_unit_zero (S := S256x256) hz2]
  rw [pay_eq, blk_2, blk_3, blk_4, blk_5]
  funext y
  obtain ⟨p, j, rfl⟩ : ∃ (p : Fin 2000) (j : Fin 256), y = ix2 p j := ⟨y 0, y 1, eq_ix2 y⟩
  have hp := p.isLt
  have ht : t.val < 25 := by have h := t.isLt; have hN : cfg0.N = 25 := N_0; omega
  obtain ⟨-, -, -, -, -, -, -, -, -, -, e0, e1⟩ := idx t
  rw [View.read_apply]
  refine (MlpLib.mlp_row (M := 50000) (mb := 2000) (k := 128) (n := 256) (by decide) bitsLt_bf16_f32
    (V c main_v13) (V c main_arg0) (iblk0 V c 0 t) (iblk0 V c 1 t) (V c main_arg3) (V c main_arg4) (V c main_arg5) (V c main_arg6)
    dot_S2000x128_S128x256_S2000x256_1_0_0_1_n_n (RowLib.dotDims_eq_plain _ rfl rfl rfl rfl rfl rfl)
    dot_S2000x256_S256x256_S2000x256_1_0_0_1_n_n (RowLib.dotDims_eq_plain _ rfl rfl rfl rfl rfl rfl)
    Cert.ReferenceIdeal.dot_S50000x128_S128x256_S50000x256_1_0_0_1_n_n (RowLib.dotDims_eq_plain _ rfl rfl rfl rfl rfl rfl)
    Cert.ReferenceIdeal.dot_S50000x256_S256x256_S50000x256_1_0_0_1_n_n (RowLib.dotDims_eq_plain _ rfl rfl rfl rfl rfl rfl)
    shapeCasts_S256_S1x256 broadcasts_S1x256_S2000x256 Cert.ReferenceIdeal.Gen.bcast_S256_S1x256_1 Cert.ReferenceIdeal.Gen.bcast_S1x256_S50000x256_0_1
    Cert.ReferenceIdeal.Gen.bcast_S_S50000x256 p ⟨2000 * t.val + p.val, by omega⟩ j
    (fun i => blk_0 V c t p i _ rfl) (fun i => blk_1 V c t p i _ rfl)).trans ?_
  unfold Cert.Spec.mlp128 Cert.Spec.mlpTail Cert.Spec.rows Cert.Spec.zeros
  refine congrArg _ (funext fun a => Fin.ext ?_)
  match a with
  | ⟨0, _⟩ => show 2000 * t.val + p.val = win0_6.index t (0 : Fin 2) * 2000 + 1 * p.val; rw [e0]; omega
  | ⟨1, _⟩ => show j.val = win0_6.index t (1 : Fin 2) * 256 + 1 * j.val; rw [e1]; omega

/-- An index of the output array is in point t's block iff each coordinate is in the block's range. -/
theorem mem_blk (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v14).slice (win0_6.rect t)).set ↔ _
  rw [View.set_slice_whole, Rect.mem_set_unit]
  exact Iff.rfl

/-- The output array after the region. -/
theorem final (c : Dev nD) :
    (dat0 V c).arrAt 6 cfg0.N
      = Cert.Spec.mlp128 (F := Ideal) (V c main_v13) (V c main_arg0) (V c main_arg3) (V c main_arg4) (V c main_arg5) (V c main_arg6) :=
  (dat0 V c).arrAt_eq_of_cover 6 _ (fun t _ => flushed_eq V c t) fun i => by
    have h0 : (i 0).val < 50000 := (i 0).isLt
    have h1 : (i 1).val < 256 := (i 1).isLt
    have hN : cfg0.N = 25 := N_0
    refine ⟨⟨(i 0).val / 2000, by rw [hN]; omega⟩, flush0_6 _, ?_⟩
    rw [mem_blk]
    obtain ⟨-, -, -, -, -, -, -, -, -, -, e0, e1⟩ := idx ⟨(i 0).val / 2000, by rw [hN]; omega⟩
    intro a
    match a with
    | ⟨0, _⟩ =>
      show win0_6.index _ (0 : Fin 2) * 2000 ≤ (i 0).val ∧ (i 0).val < win0_6.index _ (0 : Fin 2) * 2000 + 2000
      rw [e0]; show (i 0).val / 2000 * 2000 ≤ (i 0).val ∧ (i 0).val < (i 0).val / 2000 * 2000 + 2000; omega
    | ⟨1, _⟩ =>
      show win0_6.index _ (1 : Fin 2) * 256 ≤ (i 1).val ∧ (i 1).val < win0_6.index _ (1 : Fin 2) * 256 + 256
      rw [e1]; omega

end Cert.KernelIdeal.MlpValue0

end
-- ==== Proof.MlpValue2.lean ====
/-
  Region 2 of the idealized kernel program: the two-layer perceptron on blocks of 2000 rows.

  Grid point t loads rows 2000·t … 2000·t + 1999 of the neighbour sums and of the features, and the four parameter
  arrays whole; its body is relu((a + h) · W1 + b1) · W2 + b2 on those rows; it writes the result back as the same
  rows of the output.  A row of the result depends on that one row of a and h only, so the block written at point t
  is rows 2000·t … of the perceptron of the whole arrays; the 25 blocks cover all 50000 rows; hence the output array
  after the region is the perceptron of the arrays the region found.
-/
import proofs.«111778_j58583353917552_1_alg».proof.Proof.Gen.KernelIdeal.Frame
import proofs.«111778_j58583353917552_1_alg».proof.Proof.Spec
import proofs.«111778_j58583353917552_1_alg».proof.Proof.LibMlp
import Idealize.ShloMosaic.Lib.ValueIdx
import Idealize.ShloMosaic.Lib.Pipeline.Value

set_option maxRecDepth 16384

noncomputable section

namespace Cert.KernelIdeal.MlpValue2

open Idealize.ShloMosaic Idealize.ShloMosaic.TcCoe Idealize.SL.Sem Idealize.ShloMosaic.ValueIdx Idealize.ShloMosaic.Pipeline
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's arithmetic with its identity reshapes removed. -/
theorem pay_eq (x0 x1 : Vec Ideal S2000x256 .f32) (x2 : Vec Ideal S256x256 .f32) (x3 : Vec Ideal S256 .f32) (x4 : Vec Ideal S256x256 .f32) (x5 : Vec Ideal S256 .f32) :
    k2_pay1 x0 x1 x2 x3 x4 x5
      = addf (matmul dot_S2000x256_S256x256_S2000x256_1_0_0_1_n_n none (truncf .bf16 (maximumf (addf (matmul dot_S2000x256_S256x256_S2000x256_1_0_0_1_n_n none
          (truncf .bf16 (addf x0 x1) bitsLt_bf16_f32) (truncf .bf16 x2 bitsLt_bf16_f32) (constant S2000x256 .f32 0x00000000#32))
          (broadcastTo S2000x256 (shapeCast S1x256 x3 shapeCasts_S256_S1x256) broadcasts_S1x256_S2000x256))
          (broadcast S2000x256 (Scalar.ofBits .f32 0x00000000#32))) bitsLt_bf16_f32) (truncf .bf16 x4 bitsLt_bf16_f32) (constant S2000x256 .f32 0x00000000#32))
        (broadcastTo S2000x256 (shapeCast S1x256 x5 shapeCasts_S256_S1x256) broadcasts_S1x256_S2000x256) := by
  unfold k2_pay1
  simp only [shapeCast_self]

/-- The index maps over the grid: the row-blocked windows sit at block row t, the parameter windows at block 0. -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Row p of the block of window 0 at point t is row 2000·t + p of its array. -/
theorem blk_0 (c : Dev nD) (t : Fin cfg2.N) (p : Fin 2000) (i : Fin 256) (r : Fin 50000) (hr : r.val = 2000 * t.val + p.val) :
    (iblk2 V c 0 t : Vec Ideal S2000x256 .f32) (ix2 p i) = (V c main_v41 : S50000x256.Idx → Elt Ideal .f32) (ix2 r i) := by
  obtain ⟨e0, e1, -⟩ := idx t
  unfold iblk2
  rw [View.read_apply]
  show V c main_v41 _ = V c main_v41 _
  refine congrArg (V c main_v41) (funext fun a => Fin.ext ?_)
  match a with
  | ⟨0, _⟩ => show win2_0.index t (0 : Fin 2) * 2000 + 1 * p.val = r.val; rw [e0, hr]; omega
  | ⟨1, _⟩ => show win2_0.index t (1 : Fin 2) * 256 + 1 * i.val = i.val; rw [e1]; omega

/-- The same for window 1. -/
theorem blk_1 (c : Dev nD) (t : Fin cfg2.N) (p : Fin 2000) (i : Fin 256) (r : Fin 50000) (hr : r.val = 2000 * t.val + p.val) :
    (iblk2 V c 1 t : Vec Ideal S2000x256 .f32) (ix2 p i) = (V c main_v19 : S50000x256.Idx → Elt Ideal .f32) (ix2 r i) := by
  obtain ⟨-, -, e0, e1, -⟩ := idx t
  unfold iblk2
  rw [View.read_apply]
  show V c main_v19 _ = V c main_v19 _
  refine congrArg (V c main_v19) (funext fun a => Fin.ext ?_)
  match a with
  | ⟨0, _⟩ => show win2_1.index t (0 : Fin 2) * 2000 + 1 * p.val = r.val; rw [e0, hr]; omega
  | ⟨1, _⟩ => show win2_1.index t (1 : Fin 2) * 256 + 1 * i.val = i.val; rw [e1]; omega

/-- The parameter windows' blocks are their whole arrays. -/
theorem blk_2 (c : Dev nD) (t : Fin cfg2.N) : (iblk2 V c 2 t : Vec Ideal S256x256 .f32) = (V c main_v21 : S256x256.Idx → Elt Ideal .f32) := by
  obtain ⟨-, -, -, -, e0, e1, -⟩ := idx t
  unfold iblk2
  funext y
  rw [View.read_apply]
  show V c main_v21 _ = V c main_v21 y
  refine congrArg (V c main_v21) (funext fun a => Fin.ext ?_)
  match a with
  | ⟨0, _⟩ => show win2_2.index t (0 : Fin 2) * 256 + 1 * (y 0).val = (y 0).val; rw [e0]; omega
  | ⟨1, _⟩ => show win2_2.index t (1 : Fin 2) * 256 + 1 * (y 1).val = (y 1).val; rw [e1]; omega

theorem blk_3 (c : Dev nD) (t : Fin cfg2.N) : (iblk2 V c 3 t : Vec Ideal S256 .f32) = (V c main_v23 : S256.Idx → Elt Ideal .f32) := by
  obtain ⟨-, -, -, -, -, -, e0, -⟩ := idx t
  unfold iblk2
  funext y
  rw [View.read_apply]
  show V c main_v23 _ = V c main_v23 y
  refine congrArg (V c main_v23) (funext fun a => Fin.ext ?_)
  match a with
  | ⟨0, _⟩ => show win2_3.index t (0 : Fin 1) * 256 + 1 * (y 0).val = (y 0).val; rw [e0]; omega

theorem blk_4 (c : Dev nD) (t : Fin cfg2.N) : (iblk2 V c 4 t : Vec Ideal S256x256 .f32) = (V c main_v25 : S256x256.Idx → Elt Ideal .f32) := by
  obtain ⟨-, -, -, -, -, -, -, e0, e1, -⟩ := idx t
  unfold iblk2
  funext y
  rw [View.read_apply]
  show V c main_v25 _ = V c main_v25 y
  refine congrArg (V c main_v25) (funext fun a => Fin.ext ?_)
  match a with
  | ⟨0, _⟩ => show win2_4.index t (0 : Fin 2) * 256 + 1 * (y 0).val = (y 0).val; rw [e0]; omega
  | ⟨1, _⟩ => show win2_4.index t (1 : Fin 2) * 256 + 1 * (y 1).val = (y 1).val; rw [e1]; omega

theorem blk_5 (c : Dev nD) (t : Fin cfg2.N) : (iblk2 V c 5 t : Vec Ideal S256 .f32) = (V c main_v27 : S256.Idx → Elt Ideal .f32) := by
  obtain ⟨-, -, -, -, -, -, -, -, -, e0, -⟩ := idx t
  unfold iblk2
  funext y
  rw [View.read_apply]
  show V c main_v27 _ = V c main_v27 y
  refine congrArg (V c main_v27) (funext fun a => Fin.ext ?_)
  match a with
  | ⟨0, _⟩ => show win2_5.index t (0 : Fin 1) * 256 + 1 * (y 0).val = (y 0).val; rw [e0]; omega

/-- What point t writes back is block t of the perceptron of the whole arrays. -/
theorem flushed_eq (c : Dev nD) (t : Fin cfg2.N) :
    (dat2 V c).flushed 6 t = ((cfg2.win 6).blk t).view.read (Elt Ideal)
      (Cert.Spec.mlp256 (F := Ideal) (V c main_v41) (V c main_v19) (V c main_v21) (V c main_v23) (V c main_v25) (V c main_v27)) := by
  show (cfg2.win 6).cut (grid2.coords t) ((dat2 V c).after 6 t) = _
  rw [after2_6]
  unfold out2_6
  rw [View.canon_unit_zero hz2]
  simp only [View.ld_unit_zero (S := S2000x256) hz2, View.ld_unit_zero (S := S256x256) hz2, View.ld_unit_zero (S := S256) hz1,
    View.ld_unit_zero (S := S256x256) hz2]
  rw [pay_eq, blk_2, blk_3, blk_4, blk_5]
  funext y
  obtain ⟨p, j, rfl⟩ : ∃ (p : Fin 2000) (j : Fin 256), y = ix2 p j := ⟨y 0, y 1, eq_ix2 y⟩
  have hp := p.isLt
  have ht : t.val < 25 := by have h := t.isLt; have hN : cfg2.N = 25 := N_2; omega
  obtain ⟨-, -, -, -, -, -, -, -, -, -, e0, e1⟩ := idx t
  rw [View.read_apply]
  refine (MlpLib.mlp_row (M := 50000) (mb := 2000) (k := 256) (n := 256) (by decide) bitsLt_bf16_f32
    (V c main_v41) (V c main_v19) (iblk2 V c 0 t) (iblk2 V c 1 t) (V c main_v21) (V c main_v23) (V c main_v25) (V c main_v27)
    dot_S2000x256_S256x256_S2000x256_1_0_0_1_n_n (RowLib.dotDims_eq_plain _ rfl rfl rfl rfl rfl rfl)
    dot_S2000x256_S256x256_S2000x256_1_0_0_1_n_n (RowLib.dotDims_eq_plain _ rfl rfl rfl rfl rfl rfl)
    Cert.ReferenceIdeal.dot_S50000x256_S256x256_S50000x256_1_0_0_1_n_n (RowLib.dotDims_eq_plain _ rfl rfl rfl rfl rfl rfl)
    Cert.ReferenceIdeal.dot_S50000x256_S256x256_S50000x256_1_0_0_1_n_n (RowLib.dotDims_eq_plain _ rfl rfl rfl rfl rfl rfl)
    shapeCasts_S256_S1x256 broadcasts_S1x256_S2000x256 Cert.ReferenceIdeal.Gen.bcast_S256_S1x256_1 Cert.ReferenceIdeal.Gen.bcast_S1x256_S50000x256_0_1
    Cert.ReferenceIdeal.Gen.bcast_S_S50000x256 p ⟨2000 * t.val + p.val, by omega⟩ j
    (fun i => blk_0 V c t p i _ rfl) (fun i => blk_1 V c t p i _ rfl)).trans ?_
  unfold Cert.Spec.mlp256 Cert.Spec.mlpTail Cert.Spec.rows Cert.Spec.zeros
  refine congrArg _ (funext fun a => Fin.ext ?_)
  match a with
  | ⟨0, _⟩ => show 2000 * t.val + p.val = win2_6.index t (0 : Fin 2) * 2000 + 1 * p.val; rw [e0]; omega
  | ⟨1, _⟩ => show j.val = win2_6.index t (1 : Fin 2) * 256 + 1 * j.val; rw [e1]; omega

/-- An index of the output array is in point t's block iff each coordinate is in the block's range. -/
theorem mem_blk (t : Fin cfg2.N) (i : S50000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v42).slice (win2_6.rect t)).set ↔ _
  rw [View.set_slice_whole, Rect.mem_set_unit]
  exact Iff.rfl

/-- The output array after the region. -/
theorem final (c : Dev nD) :
    (dat2 V c).arrAt 6 cfg2.N
      = Cert.Spec.mlp256 (F := Ideal) (V c main_v41) (V c main_v19) (V c main_v21) (V c main_v23) (V c main_v25) (V c main_v27) :=
  (dat2 V c).arrAt_eq_of_cover 6 _ (fun t _ => flushed_eq V c t) fun i => by
    have h0 : (i 0).val < 50000 := (i 0).isLt
    have h1 : (i 1).val < 256 := (i 1).isLt
    have hN : cfg2.N = 25 := N_2
    refine ⟨⟨(i 0).val / 2000, by rw [hN]; omega⟩, flush2_6 _, ?_⟩
    rw [mem_blk]
    obtain ⟨-, -, -, -, -, -, -, -, -, -, e0, e1⟩ := idx ⟨(i 0).val / 2000, by rw [hN]; omega⟩
    intro a
    match a with
    | ⟨0, _⟩ =>
      show win2_6.index _ (0 : Fin 2) * 2000 ≤ (i 0).val ∧ (i 0).val < win2_6.index _ (0 : Fin 2) * 2000 + 2000
      rw [e0]; show (i 0).val / 2000 * 2000 ≤ (i 0).val ∧ (i 0).val < (i 0).val / 2000 * 2000 + 2000; omega
    | ⟨1, _⟩ =>
      show win2_6.index _ (1 : Fin 2) * 256 ≤ (i 1).val ∧ (i 1).val < win2_6.index _ (1 : Fin 2) * 256 + 256
      rw [e1]; omega

end Cert.KernelIdeal.MlpValue2

end
-- ==== Proof.MlpValue4.lean ====
/-
  Region 4 of the idealized kernel program: the two-layer perceptron on blocks of 2000 rows.

  Grid point t loads rows 2000·t … 2000·t + 1999 of the neighbour sums and of the features, and the four parameter
  arrays whole; its body is relu((a + h) · W1 + b1) · W2 + b2 on those rows; it writes the result back as the same
  rows of the output.  A row of the result depends on that one row of a and h only, so the block written at point t
  is rows 2000·t … of the perceptron of the whole arrays; the 25 blocks cover all 50000 rows; hence the output array
  after the region is the perceptron of the arrays the region found.
-/
import proofs.«111778_j58583353917552_1_alg».proof.Proof.Gen.KernelIdeal.Frame
import proofs.«111778_j58583353917552_1_alg».proof.Proof.Spec
import proofs.«111778_j58583353917552_1_alg».proof.Proof.LibMlp
import Idealize.ShloMosaic.Lib.ValueIdx
import Idealize.ShloMosaic.Lib.Pipeline.Value

set_option maxRecDepth 16384

noncomputable section

namespace Cert.KernelIdeal.MlpValue4

open Idealize.ShloMosaic Idealize.ShloMosaic.TcCoe Idealize.SL.Sem Idealize.ShloMosaic.ValueIdx Idealize.ShloMosaic.Pipeline
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's arithmetic with its identity reshapes removed. -/
theorem pay_eq (x0 x1 : Vec Ideal S2000x256 .f32) (x2 : Vec Ideal S256x256 .f32) (x3 : Vec Ideal S256 .f32) (x4 : Vec Ideal S256x256 .f32) (x5 : Vec Ideal S256 .f32) :
    k4_pay1 x0 x1 x2 x3 x4 x5
      = addf (matmul dot_S2000x256_S256x256_S2000x256_1_0_0_1_n_n none (truncf .bf16 (maximumf (addf (matmul dot_S2000x256_S256x256_S2000x256_1_0_0_1_n_n none
          (truncf .bf16 (addf x0 x1) bitsLt_bf16_f32) (truncf .bf16 x2 bitsLt_bf16_f32) (constant S2000x256 .f32 0x00000000#32))
          (broadcastTo S2000x256 (shapeCast S1x256 x3 shapeCasts_S256_S1x256) broadcasts_S1x256_S2000x256))
          (broadcast S2000x256 (Scalar.ofBits .f32 0x00000000#32))) bitsLt_bf16_f32) (truncf .bf16 x4 bitsLt_bf16_f32) (constant S2000x256 .f32 0x00000000#32))
        (broadcastTo S2000x256 (shapeCast S1x256 x5 shapeCasts_S256_S1x256) broadcasts_S1x256_S2000x256) := by
  unfold k4_pay1
  simp only [shapeCast_self]

/-- The index maps over the grid: the row-blocked windows sit at block row t, the parameter windows at block 0. -/
theorem idx : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 1) = 0
    ∧ win4_6.index t (0 : Fin 2) = t.val ∧ win4_6.index t (1 : Fin 2) = 0 :=
  (by decide +kernel : ∀ t : Fin grid4.N, _)

/-- Row p of the block of window 0 at point t is row 2000·t + p of its array. -/
theorem blk_0 (c : Dev nD) (t : Fin cfg4.N) (p : Fin 2000) (i : Fin 256) (r : Fin 50000) (hr : r.val = 2000 * t.val + p.val) :
    (iblk4 V c 0 t : Vec Ideal S2000x256 .f32) (ix2 p i) = (V c main_v69 : S50000x256.Idx → Elt Ideal .f32) (ix2 r i) := by
  obtain ⟨e0, e1, -⟩ := idx t
  unfold iblk4
  rw [View.read_apply]
  show V c main_v69 _ = V c main_v69 _
  refine congrArg (V c main_v69) (funext fun a => Fin.ext ?_)
  match a with
  | ⟨0, _⟩ => show win4_0.index t (0 : Fin 2) * 2000 + 1 * p.val = r.val; rw [e0, hr]; omega
  | ⟨1, _⟩ => show win4_0.index t (1 : Fin 2) * 256 + 1 * i.val = i.val; rw [e1]; omega

/-- The same for window 1. -/
theorem blk_1 (c : Dev nD) (t : Fin cfg4.N) (p : Fin 2000) (i : Fin 256) (r : Fin 50000) (hr : r.val = 2000 * t.val + p.val) :
    (iblk4 V c 1 t : Vec Ideal S2000x256 .f32) (ix2 p i) = (V c main_v47 : S50000x256.Idx → Elt Ideal .f32) (ix2 r i) := by
  obtain ⟨-, -, e0, e1, -⟩ := idx t
  unfold iblk4
  rw [View.read_apply]
  show V c main_v47 _ = V c main_v47 _
  refine congrArg (V c main_v47) (funext fun a => Fin.ext ?_)
  match a with
  | ⟨0, _⟩ => show win4_1.index t (0 : Fin 2) * 2000 + 1 * p.val = r.val; rw [e0, hr]; omega
  | ⟨1, _⟩ => show win4_1.index t (1 : Fin 2) * 256 + 1 * i.val = i.val; rw [e1]; omega

/-- The parameter windows' blocks are their whole arrays. -/
theorem blk_2 (c : Dev nD) (t : Fin cfg4.N) : (iblk4 V c 2 t : Vec Ideal S256x256 .f32) = (V c main_v49 : S256x256.Idx → Elt Ideal .f32) := by
  obtain ⟨-, -, -, -, e0, e1, -⟩ := idx t
  unfold iblk4
  funext y
  rw [View.read_apply]
  show V c main_v49 _ = V c main_v49 y
  refine congrArg (V c main_v49) (funext fun a => Fin.ext ?_)
  match a with
  | ⟨0, _⟩ => show win4_2.index t (0 : Fin 2) * 256 + 1 * (y 0).val = (y 0).val; rw [e0]; omega
  | ⟨1, _⟩ => show win4_2.index t (1 : Fin 2) * 256 + 1 * (y 1).val = (y 1).val; rw [e1]; omega

theorem blk_3 (c : Dev nD) (t : Fin cfg4.N) : (iblk4 V c 3 t : Vec Ideal S256 .f32) = (V c main_v51 : S256.Idx → Elt Ideal .f32) := by
  obtain ⟨-, -, -, -, -, -, e0, -⟩ := idx t
  unfold iblk4
  funext y
  rw [View.read_apply]
  show V c main_v51 _ = V c main_v51 y
  refine congrArg (V c main_v51) (funext fun a => Fin.ext ?_)
  match a with
  | ⟨0, _⟩ => show win4_3.index t (0 : Fin 1) * 256 + 1 * (y 0).val = (y 0).val; rw [e0]; omega

theorem blk_4 (c : Dev nD) (t : Fin cfg4.N) : (iblk4 V c 4 t : Vec Ideal S256x256 .f32) = (V c main_v53 : S256x256.Idx → Elt Ideal .f32) := by
  obtain ⟨-, -, -, -, -, -, -, e0, e1, -⟩ := idx t
  unfold iblk4
  funext y
  rw [View.read_apply]
  show V c main_v53 _ = V c main_v53 y
  refine congrArg (V c main_v53) (funext fun a => Fin.ext ?_)
  match a with
  | ⟨0, _⟩ => show win4_4.index t (0 : Fin 2) * 256 + 1 * (y 0).val = (y 0).val; rw [e0]; omega
  | ⟨1, _⟩ => show win4_4.index t (1 : Fin 2) * 256 + 1 * (y 1).val = (y 1).val; rw [e1]; omega

theorem blk_5 (c : Dev nD) (t : Fin cfg4.N) : (iblk4 V c 5 t : Vec Ideal S256 .f32) = (V c main_v55 : S256.Idx → Elt Ideal .f32) := by
  obtain ⟨-, -, -, -, -, -, -, -, -, e0, -⟩ := idx t
  unfold iblk4
  funext y
  rw [View.read_apply]
  show V c main_v55 _ = V c main_v55 y
  refine congrArg (V c main_v55) (funext fun a => Fin.ext ?_)
  match a with
  | ⟨0, _⟩ => show win4_5.index t (0 : Fin 1) * 256 + 1 * (y 0).val = (y 0).val; rw [e0]; omega

/-- What point t writes back is block t of the perceptron of the whole arrays. -/
theorem flushed_eq (c : Dev nD) (t : Fin cfg4.N) :
    (dat4 V c).flushed 6 t = ((cfg4.win 6).blk t).view.read (Elt Ideal)
      (Cert.Spec.mlp256 (F := Ideal) (V c main_v69) (V c main_v47) (V c main_v49) (V c main_v51) (V c main_v53) (V c main_v55)) := by
  show (cfg4.win 6).cut (grid4.coords t) ((dat4 V c).after 6 t) = _
  rw [after4_6]
  unfold out4_6
  rw [View.canon_unit_zero hz2]
  simp only [View.ld_unit_zero (S := S2000x256) hz2, View.ld_unit_zero (S := S256x256) hz2, View.ld_unit_zero (S := S256) hz1,
    View.ld_unit_zero (S := S256x256) hz2]
  rw [pay_eq, blk_2, blk_3, blk_4, blk_5]
  funext y
  obtain ⟨p, j, rfl⟩ : ∃ (p : Fin 2000) (j : Fin 256), y = ix2 p j := ⟨y 0, y 1, eq_ix2 y⟩
  have hp := p.isLt
  have ht : t.val < 25 := by have h := t.isLt; have hN : cfg4.N = 25 := N_4; omega
  obtain ⟨-, -, -, -, -, -, -, -, -, -, e0, e1⟩ := idx t
  rw [View.read_apply]
  refine (MlpLib.mlp_row (M := 50000) (mb := 2000) (k := 256) (n := 256) (by decide) bitsLt_bf16_f32
    (V c main_v69) (V c main_v47) (iblk4 V c 0 t) (iblk4 V c 1 t) (V c main_v49) (V c main_v51) (V c main_v53) (V c main_v55)
    dot_S2000x256_S256x256_S2000x256_1_0_0_1_n_n (RowLib.dotDims_eq_plain _ rfl rfl rfl rfl rfl rfl)
    dot_S2000x256_S256x256_S2000x256_1_0_0_1_n_n (RowLib.dotDims_eq_plain _ rfl rfl rfl rfl rfl rfl)
    Cert.ReferenceIdeal.dot_S50000x256_S256x256_S50000x256_1_0_0_1_n_n (RowLib.dotDims_eq_plain _ rfl rfl rfl rfl rfl rfl)
    Cert.ReferenceIdeal.dot_S50000x256_S256x256_S50000x256_1_0_0_1_n_n (RowLib.dotDims_eq_plain _ rfl rfl rfl rfl rfl rfl)
    shapeCasts_S256_S1x256 broadcasts_S1x256_S2000x256 Cert.ReferenceIdeal.Gen.bcast_S256_S1x256_1 Cert.ReferenceIdeal.Gen.bcast_S1x256_S50000x256_0_1
    Cert.ReferenceIdeal.Gen.bcast_S_S50000x256 p ⟨2000 * t.val + p.val, by omega⟩ j
    (fun i => blk_0 V c t p i _ rfl) (fun i => blk_1 V c t p i _ rfl)).trans ?_
  unfold Cert.Spec.mlp256 Cert.Spec.mlpTail Cert.Spec.rows Cert.Spec.zeros
  refine congrArg _ (funext fun a => Fin.ext ?_)
  match a with
  | ⟨0, _⟩ => show 2000 * t.val + p.val = win4_6.index t (0 : Fin 2) * 2000 + 1 * p.val; rw [e0]; omega
  | ⟨1, _⟩ => show j.val = win4_6.index t (1 : Fin 2) * 256 + 1 * j.val; rw [e1]; omega

/-- An index of the output array is in point t's block iff each coordinate is in the block's range. -/
theorem mem_blk (t : Fin cfg4.N) (i : S50000x256.Idx) :
    i ∈ ((cfg4.win 6).blk t).view.set ↔ ∀ a : Fin 2, win4_6.index t a * S2000x256.size a ≤ (i a).val ∧ (i a).val < win4_6.index t a * S2000x256.size a + S2000x256.size a := by
  show i ∈ ((View.whole main_v70).slice (win4_6.rect t)).set ↔ _
  rw [View.set_slice_whole, Rect.mem_set_unit]
  exact Iff.rfl

/-- The output array after the region. -/
theorem final (c : Dev nD) :
    (dat4 V c).arrAt 6 cfg4.N
      = Cert.Spec.mlp256 (F := Ideal) (V c main_v69) (V c main_v47) (V c main_v49) (V c main_v51) (V c main_v53) (V c main_v55) :=
  (dat4 V c).arrAt_eq_of_cover 6 _ (fun t _ => flushed_eq V c t) fun i => by
    have h0 : (i 0).val < 50000 := (i 0).isLt
    have h1 : (i 1).val < 256 := (i 1).isLt
    have hN : cfg4.N = 25 := N_4
    refine ⟨⟨(i 0).val / 2000, by rw [hN]; omega⟩, flush4_6 _, ?_⟩
    rw [mem_blk]
    obtain ⟨-, -, -, -, -, -, -, -, -, -, e0, e1⟩ := idx ⟨(i 0).val / 2000, by rw [hN]; omega⟩
    intro a
    match a with
    | ⟨0, _⟩ =>
      show win4_6.index _ (0 : Fin 2) * 2000 ≤ (i 0).val ∧ (i 0).val < win4_6.index _ (0 : Fin 2) * 2000 + 2000
      rw [e0]; show (i 0).val / 2000 * 2000 ≤ (i 0).val ∧ (i 0).val < (i 0).val / 2000 * 2000 + 2000; omega
    | ⟨1, _⟩ =>
      show win4_6.index _ (1 : Fin 2) * 256 ≤ (i 1).val ∧ (i 1).val < win4_6.index _ (1 : Fin 2) * 256 + 256
      rw [e1]; omega

end Cert.KernelIdeal.MlpValue4

end
-- ==== Proof.MlpValue6.lean ====
/-
  Region 6 of the idealized kernel program: the two-layer perceptron on blocks of 2000 rows.

  Grid point t loads rows 2000·t … 2000·t + 1999 of the neighbour sums and of the features, and the four parameter
  arrays whole; its body is relu((a + h) · W1 + b1) · W2 + b2 on those rows; it writes the result back as the same
  rows of the output.  A row of the result depends on that one row of a and h only, so the block written at point t
  is rows 2000·t … of the perceptron of the whole arrays; the 25 blocks cover all 50000 rows; hence the output array
  after the region is the perceptron of the arrays the region found.
-/
import proofs.«111778_j58583353917552_1_alg».proof.Proof.Gen.KernelIdeal.Frame
import proofs.«111778_j58583353917552_1_alg».proof.Proof.Spec
import proofs.«111778_j58583353917552_1_alg».proof.Proof.LibMlp
import Idealize.ShloMosaic.Lib.ValueIdx
import Idealize.ShloMosaic.Lib.Pipeline.Value

set_option maxRecDepth 16384

noncomputable section

namespace Cert.KernelIdeal.MlpValue6

open Idealize.ShloMosaic Idealize.ShloMosaic.TcCoe Idealize.SL.Sem Idealize.ShloMosaic.ValueIdx Idealize.ShloMosaic.Pipeline
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's arithmetic with its identity reshapes removed. -/
theorem pay_eq (x0 x1 : Vec Ideal S2000x256 .f32) (x2 : Vec Ideal S256x256 .f32) (x3 : Vec Ideal S256 .f32) (x4 : Vec Ideal S256x256 .f32) (x5 : Vec Ideal S256 .f32) :
    k6_pay1 x0 x1 x2 x3 x4 x5
      = addf (matmul dot_S2000x256_S256x256_S2000x256_1_0_0_1_n_n none (truncf .bf16 (maximumf (addf (matmul dot_S2000x256_S256x256_S2000x256_1_0_0_1_n_n none
          (truncf .bf16 (addf x0 x1) bitsLt_bf16_f32) (truncf .bf16 x2 bitsLt_bf16_f32) (constant S2000x256 .f32 0x00000000#32))
          (broadcastTo S2000x256 (shapeCast S1x256 x3 shapeCasts_S256_S1x256) broadcasts_S1x256_S2000x256))
          (broadcast S2000x256 (Scalar.ofBits .f32 0x00000000#32))) bitsLt_bf16_f32) (truncf .bf16 x4 bitsLt_bf16_f32) (constant S2000x256 .f32 0x00000000#32))
        (broadcastTo S2000x256 (shapeCast S1x256 x5 shapeCasts_S256_S1x256) broadcasts_S1x256_S2000x256) := by
  unfold k6_pay1
  simp only [shapeCast_self]

/-- The index maps over the grid: the row-blocked windows sit at block row t, the parameter windows at block 0. -/
theorem idx : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 1) = 0
    ∧ win6_4.index t (0 : Fin 2) = 0 ∧ win6_4.index t (1 : Fin 2) = 0
    ∧ win6_5.index t (0 : Fin 1) = 0
    ∧ win6_6.index t (0 : Fin 2) = t.val ∧ win6_6.index t (1 : Fin 2) = 0 :=
  (by decide +kernel : ∀ t : Fin grid6.N, _)

/-- Row p of the block of window 0 at point t is row 2000·t + p of its array. -/
theorem blk_0 (c : Dev nD) (t : Fin cfg6.N) (p : Fin 2000) (i : Fin 256) (r : Fin 50000) (hr : r.val = 2000 * t.val + p.val) :
    (iblk6 V c 0 t : Vec Ideal S2000x256 .f32) (ix2 p i) = (V c main_v97 : S50000x256.Idx → Elt Ideal .f32) (ix2 r i) := by
  obtain ⟨e0, e1, -⟩ := idx t
  unfold iblk6
  rw [View.read_apply]
  show V c main_v97 _ = V c main_v97 _
  refine congrArg (V c main_v97) (funext fun a => Fin.ext ?_)
  match a with
  | ⟨0, _⟩ => show win6_0.index t (0 : Fin 2) * 2000 + 1 * p.val = r.val; rw [e0, hr]; omega
  | ⟨1, _⟩ => show win6_0.index t (1 : Fin 2) * 256 + 1 * i.val = i.val; rw [e1]; omega

/-- The same for window 1. -/
theorem blk_1 (c : Dev nD) (t : Fin cfg6.N) (p : Fin 2000) (i : Fin 256) (r : Fin 50000) (hr : r.val = 2000 * t.val + p.val) :
    (iblk6 V c 1 t : Vec Ideal S2000x256 .f32) (ix2 p i) = (V c main_v75 : S50000x256.Idx → Elt Ideal .f32) (ix2 r i) := by
  obtain ⟨-, -, e0, e1, -⟩ := idx t
  unfold iblk6
  rw [View.read_apply]
  show V c main_v75 _ = V c main_v75 _
  refine congrArg (V c main_v75) (funext fun a => Fin.ext ?_)
  match a with
  | ⟨0, _⟩ => show win6_1.index t (0 : Fin 2) * 2000 + 1 * p.val = r.val; rw [e0, hr]; omega
  | ⟨1, _⟩ => show win6_1.index t (1 : Fin 2) * 256 + 1 * i.val = i.val; rw [e1]; omega

/-- The parameter windows' blocks are their whole arrays. -/
theorem blk_2 (c : Dev nD) (t : Fin cfg6.N) : (iblk6 V c 2 t : Vec Ideal S256x256 .f32) = (V c main_v77 : S256x256.Idx → Elt Ideal .f32) := by
  obtain ⟨-, -, -, -, e0, e1, -⟩ := idx t
  unfold iblk6
  funext y
  rw [View.read_apply]
  show V c main_v77 _ = V c main_v77 y
  refine congrArg (V c main_v77) (funext fun a => Fin.ext ?_)
  match a with
  | ⟨0, _⟩ => show win6_2.index t (0 : Fin 2) * 256 + 1 * (y 0).val = (y 0).val; rw [e0]; omega
  | ⟨1, _⟩ => show win6_2.index t (1 : Fin 2) * 256 + 1 * (y 1).val = (y 1).val; rw [e1]; omega

theorem blk_3 (c : Dev nD) (t : Fin cfg6.N) : (iblk6 V c 3 t : Vec Ideal S256 .f32) = (V c main_v79 : S256.Idx → Elt Ideal .f32) := by
  obtain ⟨-, -, -, -, -, -, e0, -⟩ := idx t
  unfold iblk6
  funext y
  rw [View.read_apply]
  show V c main_v79 _ = V c main_v79 y
  refine congrArg (V c main_v79) (funext fun a => Fin.ext ?_)
  match a with
  | ⟨0, _⟩ => show win6_3.index t (0 : Fin 1) * 256 + 1 * (y 0).val = (y 0).val; rw [e0]; omega

theorem blk_4 (c : Dev nD) (t : Fin cfg6.N) : (iblk6 V c 4 t : Vec Ideal S256x256 .f32) = (V c main_v81 : S256x256.Idx → Elt Ideal .f32) := by
  obtain ⟨-, -, -, -, -, -, -, e0, e1, -⟩ := idx t
  unfold iblk6
  funext y
  rw [View.read_apply]
  show V c main_v81 _ = V c main_v81 y
  refine congrArg (V c main_v81) (funext fun a => Fin.ext ?_)
  match a with
  | ⟨0, _⟩ => show win6_4.index t (0 : Fin 2) * 256 + 1 * (y 0).val = (y 0).val; rw [e0]; omega
  | ⟨1, _⟩ => show win6_4.index t (1 : Fin 2) * 256 + 1 * (y 1).val = (y 1).val; rw [e1]; omega

theorem blk_5 (c : Dev nD) (t : Fin cfg6.N) : (iblk6 V c 5 t : Vec Ideal S256 .f32) = (V c main_v83 : S256.Idx → Elt Ideal .f32) := by
  obtain ⟨-, -, -, -, -, -, -, -, -, e0, -⟩ := idx t
  unfold iblk6
  funext y
  rw [View.read_apply]
  show V c main_v83 _ = V c main_v83 y
  refine congrArg (V c main_v83) (funext fun a => Fin.ext ?_)
  match a with
  | ⟨0, _⟩ => show win6_5.index t (0 : Fin 1) * 256 + 1 * (y 0).val = (y 0).val; rw [e0]; omega

/-- What point t writes back is block t of the perceptron of the whole arrays. -/
theorem flushed_eq (c : Dev nD) (t : Fin cfg6.N) :
    (dat6 V c).flushed 6 t = ((cfg6.win 6).blk t).view.read (Elt Ideal)
      (Cert.Spec.mlp256 (F := Ideal) (V c main_v97) (V c main_v75) (V c main_v77) (V c main_v79) (V c main_v81) (V c main_v83)) := by
  show (cfg6.win 6).cut (grid6.coords t) ((dat6 V c).after 6 t) = _
  rw [after6_6]
  unfold out6_6
  rw [View.canon_unit_zero hz2]
  simp only [View.ld_unit_zero (S := S2000x256) hz2, View.ld_unit_zero (S := S256x256) hz2, View.ld_unit_zero (S := S256) hz1,
    View.ld_unit_zero (S := S256x256) hz2]
  rw [pay_eq, blk_2, blk_3, blk_4, blk_5]
  funext y
  obtain ⟨p, j, rfl⟩ : ∃ (p : Fin 2000) (j : Fin 256), y = ix2 p j := ⟨y 0, y 1, eq_ix2 y⟩
  have hp := p.isLt
  have ht : t.val < 25 := by have h := t.isLt; have hN : cfg6.N = 25 := N_6; omega
  obtain ⟨-, -, -, -, -, -, -, -, -, -, e0, e1⟩ := idx t
  rw [View.read_apply]
  refine (MlpLib.mlp_row (M := 50000) (mb := 2000) (k := 256) (n := 256) (by decide) bitsLt_bf16_f32
    (V c main_v97) (V c main_v75) (iblk6 V c 0 t) (iblk6 V c 1 t) (V c main_v77) (V c main_v79) (V c main_v81) (V c main_v83)
    dot_S2000x256_S256x256_S2000x256_1_0_0_1_n_n (RowLib.dotDims_eq_plain _ rfl rfl rfl rfl rfl rfl)
    dot_S2000x256_S256x256_S2000x256_1_0_0_1_n_n (RowLib.dotDims_eq_plain _ rfl rfl rfl rfl rfl rfl)
    Cert.ReferenceIdeal.dot_S50000x256_S256x256_S50000x256_1_0_0_1_n_n (RowLib.dotDims_eq_plain _ rfl rfl rfl rfl rfl rfl)
    Cert.ReferenceIdeal.dot_S50000x256_S256x256_S50000x256_1_0_0_1_n_n (RowLib.dotDims_eq_plain _ rfl rfl rfl rfl rfl rfl)
    shapeCasts_S256_S1x256 broadcasts_S1x256_S2000x256 Cert.ReferenceIdeal.Gen.bcast_S256_S1x256_1 Cert.ReferenceIdeal.Gen.bcast_S1x256_S50000x256_0_1
    Cert.ReferenceIdeal.Gen.bcast_S_S50000x256 p ⟨2000 * t.val + p.val, by omega⟩ j
    (fun i => blk_0 V c t p i _ rfl) (fun i => blk_1 V c t p i _ rfl)).trans ?_
  unfold Cert.Spec.mlp256 Cert.Spec.mlpTail Cert.Spec.rows Cert.Spec.zeros
  refine congrArg _ (funext fun a => Fin.ext ?_)
  match a with
  | ⟨0, _⟩ => show 2000 * t.val + p.val = win6_6.index t (0 : Fin 2) * 2000 + 1 * p.val; rw [e0]; omega
  | ⟨1, _⟩ => show j.val = win6_6.index t (1 : Fin 2) * 256 + 1 * j.val; rw [e1]; omega

/-- An index of the output array is in point t's block iff each coordinate is in the block's range. -/
theorem mem_blk (t : Fin cfg6.N) (i : S50000x256.Idx) :
    i ∈ ((cfg6.win 6).blk t).view.set ↔ ∀ a : Fin 2, win6_6.index t a * S2000x256.size a ≤ (i a).val ∧ (i a).val < win6_6.index t a * S2000x256.size a + S2000x256.size a := by
  show i ∈ ((View.whole main_v98).slice (win6_6.rect t)).set ↔ _
  rw [View.set_slice_whole, Rect.mem_set_unit]
  exact Iff.rfl

/-- The output array after the region. -/
theorem final (c : Dev nD) :
    (dat6 V c).arrAt 6 cfg6.N
      = Cert.Spec.mlp256 (F := Ideal) (V c main_v97) (V c main_v75) (V c main_v77) (V c main_v79) (V c main_v81) (V c main_v83) :=
  (dat6 V c).arrAt_eq_of_cover 6 _ (fun t _ => flushed_eq V c t) fun i => by
    have h0 : (i 0).val < 50000 := (i 0).isLt
    have h1 : (i 1).val < 256 := (i 1).isLt
    have hN : cfg6.N = 25 := N_6
    refine ⟨⟨(i 0).val / 2000, by rw [hN]; omega⟩, flush6_6 _, ?_⟩
    rw [mem_blk]
    obtain ⟨-, -, -, -, -, -, -, -, -, -, e0, e1⟩ := idx ⟨(i 0).val / 2000, by rw [hN]; omega⟩
    intro a
    match a with
    | ⟨0, _⟩ =>
      show win6_6.index _ (0 : Fin 2) * 2000 ≤ (i 0).val ∧ (i 0).val < win6_6.index _ (0 : Fin 2) * 2000 + 2000
      rw [e0]; show (i 0).val / 2000 * 2000 ≤ (i 0).val ∧ (i 0).val < (i 0).val / 2000 * 2000 + 2000; omega
    | ⟨1, _⟩ =>
      show win6_6.index _ (1 : Fin 2) * 256 ≤ (i 1).val ∧ (i 1).val < win6_6.index _ (1 : Fin 2) * 256 + 256
      rw [e1]; omega

end Cert.KernelIdeal.MlpValue6

end
-- ==== Proof.BnPoint.lean ====
/-
  The batch-normalisation stage with its clamp, at one entry.

  Both programs compute relu((z − mean) · rsqrt(var + ε) · γ + β) on a 50000×256 array z with four length-256 vectors.
  The kernel does it on blocks of 2000 rows, each vector written as one row and repeated down the block; the reference
  on the whole array, each vector repeated down the 50000 rows. Read at one entry (row, column j), either is the same
  function of that entry of z and of entry j of the four vectors, on the extended reals: `bnPt`. From that, a block of
  the kernel's result is the corresponding block of rows of the reference's array (`point_eq`).
-/
import proofs.«111778_j58583353917552_1_alg».proof.Proof.Gen.KernelIdeal.Skeleton
import proofs.«111778_j58583353917552_1_alg».proof.Proof.Spec
import proofs.«111778_j58583353917552_1_alg».proof.Proof.LibRowBlock
import Idealize.ShloMosaic.PureOps.Ideal.Laws
import Idealize.ShloMosaic.Lib.ValueIdx
import Idealize.ShloMosaic.Lib.Pipeline.Value

noncomputable section

namespace Cert.KernelIdeal.BnValue

open Idealize.ShloMosaic Idealize.ShloMosaic.ValueIdx Idealize.ShloMosaic.Pipeline
open Cert.KernelIdeal Cert.KernelIdeal.Gen Cert.RowBlockLib

/-- One entry of the stage on the extended reals: centre by the mean, scale by the reciprocal square root of the
    variance plus ε, scale by γ, shift by β, clamp below at zero. -/
def bnPt (z mu var g be : Ideal .f32) : Ideal .f32 :=
  max (((z - mu) * Ideal.rsqrt (var + Ideal.ofBits .f32 0x3727C5AC#32)) * g + be) (Ideal.ofBits .f32 0x00000000#32)

/-! The kernel body's arithmetic on a block of 2000 rows, read at row p and column j: each length-256 vector is laid
    out as one row and repeated down the block's rows, so the entry only sees column j of the four vectors. The four
    layers' bodies are the same arithmetic. -/

theorem pay1_apply (zb : Vec Ideal S2000x256 .f32) (mu var g be : Vec Ideal S256 .f32) (p : Fin 2000) (j : Fin 256) :
    k1_pay1 (F := Ideal) zb var mu g be (ix2 p j) = bnPt (zb (ix2 p j)) (mu (ix1 j)) (var (ix1 j)) (g (ix1 j)) (be (ix1 j)) := by
  unfold k1_pay1 bnPt
  simp only [maximumf_apply, addf_apply, mulf_apply, subf_apply, shapeCast_self, broadcast_apply,
    bias_rows_apply (by decide : (256 : Nat) ≠ 1), rsqrt, Ideal.rsqrt_def, Ideal.ofBits_def]

theorem pay3_apply (zb : Vec Ideal S2000x256 .f32) (mu var g be : Vec Ideal S256 .f32) (p : Fin 2000) (j : Fin 256) :
    k3_pay1 (F := Ideal) zb var mu g be (ix2 p j) = bnPt (zb (ix2 p j)) (mu (ix1 j)) (var (ix1 j)) (g (ix1 j)) (be (ix1 j)) := by
  unfold k3_pay1 bnPt
  simp only [maximumf_apply, addf_apply, mulf_apply, subf_apply, shapeCast_self, broadcast_apply,
    bias_rows_apply (by decide : (256 : Nat) ≠ 1), rsqrt, Ideal.rsqrt_def, Ideal.ofBits_def]

theorem pay5_apply (zb : Vec Ideal S2000x256 .f32) (mu var g be : Vec Ideal S256 .f32) (p : Fin 2000) (j : Fin 256) :
    k5_pay1 (F := Ideal) zb var mu g be (ix2 p j) = bnPt (zb (ix2 p j)) (mu (ix1 j)) (var (ix1 j)) (g (ix1 j)) (be (ix1 j)) := by
  unfold k5_pay1 bnPt
  simp only [maximumf_apply, addf_apply, mulf_apply, subf_apply, shapeCast_self, broadcast_apply,
    bias_rows_apply (by decide : (256 : Nat) ≠ 1), rsqrt, Ideal.rsqrt_def, Ideal.ofBits_def]

theorem pay7_apply (zb : Vec Ideal S2000x256 .f32) (mu var g be : Vec Ideal S256 .f32) (p : Fin 2000) (j : Fin 256) :
    k7_pay1 (F := Ideal) zb var mu g be (ix2 p j) = bnPt (zb (ix2 p j)) (mu (ix1 j)) (var (ix1 j)) (g (ix1 j)) (be (ix1 j)) := by
  unfold k7_pay1 bnPt
  simp only [maximumf_apply, addf_apply, mulf_apply, subf_apply, shapeCast_self, broadcast_apply,
    bias_rows_apply (by decide : (256 : Nat) ≠ 1), rsqrt, Ideal.rsqrt_def, Ideal.ofBits_def]

/-- A length-256 vector repeated down the 50000 rows reads, at (r, j), its entry j. -/
theorem rows_apply (b : Cert.Spec.Arr Ideal Cert.ReferenceIdeal.S256 .f32) (r : Fin 50000) (j : Fin 256) :
    Cert.Spec.rows b (ix2 r j) = b (ix1 j) :=
  bias_rows_host_apply (by decide) b _ _ r j

/-- The reference's stage on the whole array, read at row r and column j: the same function of the entry and of
    column j of the four vectors (the host's reciprocal square root and the kernel's are one function on the extended reals). -/
theorem spec_apply (z : Cert.Spec.Arr Ideal Cert.ReferenceIdeal.S50000x256 .f32) (mu var g be : Cert.Spec.Arr Ideal Cert.ReferenceIdeal.S256 .f32)
    (r : Fin 50000) (j : Fin 256) :
    Cert.Spec.bnRelu z mu var g be (ix2 r j) = bnPt (z (ix2 r j)) (mu (ix1 j)) (var (ix1 j)) (g (ix1 j)) (be (ix1 j)) := by
  unfold Cert.Spec.bnRelu bnPt Cert.Spec.zeros
  simp only [maximumf_apply, addf_apply, mulf_apply, subf_apply, rows_apply, Host.rsqrt, Ideal.hostUnary_rsqrt_def]
  simp only [broadcastInDim, constant, Ideal.ofBits_def]

/-- A block of a kernel's result against the reference's array, for any body that is the stage entry by entry (`hpay`):
    when the block's rows are rows 2000·t … 2000·t + 1999 of z and the four vectors are read whole, entry y of the block
    is entry i of the reference's stage, for i the index y names in the array (row 2000·t + y₀, column y₁). -/
theorem point_eq (pay : Vec Ideal S2000x256 .f32 → Vec Ideal S256 .f32 → Vec Ideal S256 .f32 → Vec Ideal S256 .f32 → Vec Ideal S256 .f32 → FVec Ideal S2000x256 .f32)
    (hpay : ∀ (zb : Vec Ideal S2000x256 .f32) (mu var g be : Vec Ideal S256 .f32) (p : Fin 2000) (j : Fin 256),
      pay zb var mu g be (ix2 p j) = bnPt (zb (ix2 p j)) (mu (ix1 j)) (var (ix1 j)) (g (ix1 j)) (be (ix1 j)))
    (zb : Vec Ideal S2000x256 .f32) (mub varb gb beb : Vec Ideal S256 .f32)
    (z : Cert.Spec.Arr Ideal Cert.ReferenceIdeal.S50000x256 .f32) (mu var g be : Cert.Spec.Arr Ideal Cert.ReferenceIdeal.S256 .f32)
    (t : Nat) (y : S2000x256.Idx) (i : Cert.ReferenceIdeal.S50000x256.Idx)
    (hzb : ∀ (p : Fin 2000) (j : Fin 256) (r : Fin 50000), r.val = 2000 * t + p.val → zb (ix2 p j) = z (ix2 r j))
    (hmu : ∀ j : Fin 256, mub (ix1 j) = mu (ix1 j)) (hvar : ∀ j : Fin 256, varb (ix1 j) = var (ix1 j))
    (hg : ∀ j : Fin 256, gb (ix1 j) = g (ix1 j)) (hbe : ∀ j : Fin 256, beb (ix1 j) = be (ix1 j))
    (hi0 : (i 0).val = 2000 * t + (y 0).val) (hi1 : i 1 = y 1) :
    pay zb varb mub gb beb y = Cert.Spec.bnRelu z mu var g be i := by
  obtain ⟨p, j, rfl⟩ : ∃ (p : Fin 2000) (j : Fin 256), y = ix2 p j := ⟨y 0, y 1, eq_ix2 y⟩
  obtain ⟨r, j', rfl⟩ : ∃ (r : Fin 50000) (j' : Fin 256), i = ix2 r j' := ⟨i 0, i 1, eq_ix2 i⟩
  have hr : r.val = 2000 * t + p.val := hi0
  have hj : j = j' := hi1.symm
  subst hj
  rw [hpay, spec_apply, hzb p j r hr, hmu, hvar, hg, hbe]

end Cert.KernelIdeal.BnValue

end
-- ==== Proof.BnValue.lean ====
/-
  The four batch-normalisation regions of the kernel program, as whole arrays.

  Each region runs over 25 points; point t reads rows 2000·t … 2000·t + 1999 of a 50000×256 array and the four
  length-256 vectors (mean, variance, scale, shift) whole, and writes the same rows of the result. Entry by entry a
  block of the result is the reference's stage at the corresponding row (`point_eq`), the 25 blocks cover the 50000 rows,
  so the result array ends holding the reference's stage of the arrays the region is entered with.
-/
import proofs.«111778_j58583353917552_1_alg».proof.Proof.Gen.KernelIdeal.Frame
import proofs.«111778_j58583353917552_1_alg».proof.Proof.BnPoint
import Idealize.ShloMosaic.Lib.Pipeline.Value

noncomputable section

namespace Cert.KernelIdeal.BnValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 1 -/

/-- The printed index maps, decided over the 25 points: the row-block windows (0 and 5) sit at block (t, 0), the four
    vectors' windows at block 0. -/
theorem idx1 : ∀ t : Fin cfg1.N, win1_0.index t (0 : Fin 2) = t.val ∧ win1_0.index t (1 : Fin 2) = 0
    ∧ win1_1.index t (0 : Fin 1) = 0 ∧ win1_2.index t (0 : Fin 1) = 0 ∧ win1_3.index t (0 : Fin 1) = 0 ∧ win1_4.index t (0 : Fin 1) = 0
    ∧ win1_5.index t (0 : Fin 2) = t.val ∧ win1_5.index t (1 : Fin 2) = 0 :=
  (by decide +kernel : ∀ t : Fin grid1.N, _)

/-- Window 0's block at point t is rows 2000·t … 2000·t + 1999 of its array. -/
theorem zblk1 (c : Dev nD) (t : Fin cfg1.N) (p : Fin 2000) (j : Fin 256) (r : Fin 50000) (hr : r.val = 2000 * t.val + p.val) :
    (iblk1 V c 0 t : Vec Ideal S2000x256 .f32) (ix2 p j) = (V c main_v14 : S50000x256.Idx → Elt Ideal .f32) (ix2 r j) := by
  obtain ⟨e0, e1, -⟩ := idx1 t
  unfold iblk1
  rw [View.read_apply]
  show V c main_v14 _ = V c main_v14 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 256 + 1 * j.val = j.val; rw [e1]; omega

/-- Window 1's block at any point is the whole vector. -/
theorem mublk1 (c : Dev nD) (t : Fin cfg1.N) (j : Fin 256) :
    (iblk1 V c 1 t : Vec Ideal S256 .f32) (ix1 j) = (V c main_v17 : S256.Idx → Elt Ideal .f32) (ix1 j) := by
  have e : win1_1.index t (0 : Fin 1) = 0 := (idx1 t).2.2.1
  unfold iblk1
  rw [View.read_apply]
  show V c main_v17 _ = V c main_v17 _
  congr 1
  funext a
  apply Fin.ext
  match a with
  | ⟨0, _⟩ => show win1_1.index t (0 : Fin 1) * 256 + 1 * j.val = j.val; rw [e]; omega

/-- Window 2's block at any point is the whole vector. -/
theorem varblk1 (c : Dev nD) (t : Fin cfg1.N) (j : Fin 256) :
    (iblk1 V c 2 t : Vec Ideal S256 .f32) (ix1 j) = (V c main_v18 : S256.Idx → Elt Ideal .f32) (ix1 j) := by
  have e : win1_2.index t (0 : Fin 1) = 0 := (idx1 t).2.2.2.1
  unfold iblk1
  rw [View.read_apply]
  show V c main_v18 _ = V c main_v18 _
  congr 1
  funext a
  apply Fin.ext
  match a with
  | ⟨0, _⟩ => show win1_2.index t (0 : Fin 1) * 256 + 1 * j.val = j.val; rw [e]; omega

/-- Window 3's block at any point is the whole vector. -/
theorem gblk1 (c : Dev nD) (t : Fin cfg1.N) (j : Fin 256) :
    (iblk1 V c 3 t : Vec Ideal S256 .f32) (ix1 j) = (V c main_arg7 : S256.Idx → Elt Ideal .f32) (ix1 j) := by
  have e : win1_3.index t (0 : Fin 1) = 0 := (idx1 t).2.2.2.2.1
  unfold iblk1
  rw [View.read_apply]
  show V c main_arg7 _ = V c main_arg7 _
  congr 1
  funext a
  apply Fin.ext
  match a with
  | ⟨0, _⟩ => show win1_3.index t (0 : Fin 1) * 256 + 1 * j.val = j.val; rw [e]; omega

/-- Window 4's block at any point is the whole vector. -/
theorem beblk1 (c : Dev nD) (t : Fin cfg1.N) (j : Fin 256) :
    (iblk1 V c 4 t : Vec Ideal S256 .f32) (ix1 j) = (V c main_arg8 : S256.Idx → Elt Ideal .f32) (ix1 j) := by
  have e : win1_4.index t (0 : Fin 1) = 0 := (idx1 t).2.2.2.2.2.1
  unfold iblk1
  rw [View.read_apply]
  show V c main_arg8 _ = V c main_arg8 _
  congr 1
  funext a
  apply Fin.ext
  match a with
  | ⟨0, _⟩ => show win1_4.index t (0 : Fin 1) * 256 + 1 * j.val = j.val; rw [e]; omega

/-- What point t writes back is block t of the reference's stage of the arrays the region finds. -/
theorem flushed1_eq (c : Dev nD) (t : Fin cfg1.N) :
    (dat1 V c).flushed 5 t = ((cfg1.win 5).blk t).view.read (Elt Ideal)
      (Cert.Spec.bnRelu (F := Ideal) (V c main_v14) (V c main_v17) (V c main_v18) (V c main_arg7) (V c main_arg8)) := by
  show (cfg1.win 5).cut (grid1.coords t) ((dat1 V c).after 5 t) = _
  rw [after1_5]
  unfold out1_5
  rw [View.canon_unit_zero hz2]
  simp only [View.ld_unit_zero (S := S2000x256) hz2, View.ld_unit_zero (S := S256) hz1]
  obtain ⟨-, -, -, -, -, -, e6, e7⟩ := idx1 t
  funext y
  rw [View.read_apply]
  refine point_eq k1_pay1 pay1_apply _ _ _ _ _ _ _ _ _ _ t.val _ _ (zblk1 V c t) (mublk1 V c t) (varblk1 V c t) (gblk1 V c t) (beblk1 V c t) ?_ ?_
  · show win1_5.index t (0 : Fin 2) * 2000 + 1 * (y 0).val = 2000 * t.val + (y 0).val
    rw [e6]; omega
  · apply Fin.ext
    show win1_5.index t (1 : Fin 2) * 256 + 1 * (y 1).val = (y 1).val
    rw [e7]; omega

/-- Every row r of the array is in the block of point r / 2000. -/
theorem cover1 (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, e6, e7⟩ := idx1 t
  refine ⟨t, flush1_5 t, ?_⟩
  show i ∈ ((View.whole main_v19).slice (win1_5.rect t)).set
  rw [View.set_slice_whole, Rect.mem_set_unit]
  intro a
  match a with
  | ⟨0, _⟩ =>
    show win1_5.index t (0 : Fin 2) * 2000 ≤ (i 0).val ∧ (i 0).val < win1_5.index t (0 : Fin 2) * 2000 + 2000
    rw [e6, ht]; omega
  | ⟨1, _⟩ =>
    show win1_5.index t (1 : Fin 2) * 256 ≤ (i 1).val ∧ (i 1).val < win1_5.index t (1 : Fin 2) * 256 + 256
    rw [e7]; omega

/-- The region's result array ends holding the reference's stage of the arrays the region finds. -/
theorem bn1 (c : Dev nD) :
    (dat1 (F := Ideal) V c).arrAt 5 cfg1.N = Cert.Spec.bnRelu (F := Ideal) (V c main_v14) (V c main_v17) (V c main_v18) (V c main_arg7) (V c main_arg8) :=
  (dat1 V c).arrAt_eq_of_cover 5 _ (fun t _ => flushed1_eq V c t) cover1

/-! ## Region 3 -/

/-- The printed index maps, decided over the 25 points: the row-block windows (0 and 5) sit at block (t, 0), the four
    vectors' windows at block 0. -/
theorem idx3 : ∀ t : Fin cfg3.N, win3_0.index t (0 : Fin 2) = t.val ∧ win3_0.index t (1 : Fin 2) = 0
    ∧ win3_1.index t (0 : Fin 1) = 0 ∧ win3_2.index t (0 : Fin 1) = 0 ∧ win3_3.index t (0 : Fin 1) = 0 ∧ win3_4.index t (0 : Fin 1) = 0
    ∧ win3_5.index t (0 : Fin 2) = t.val ∧ win3_5.index t (1 : Fin 2) = 0 :=
  (by decide +kernel : ∀ t : Fin grid3.N, _)

/-- Window 0's block at point t is rows 2000·t … 2000·t + 1999 of its array. -/
theorem zblk3 (c : Dev nD) (t : Fin cfg3.N) (p : Fin 2000) (j : Fin 256) (r : Fin 50000) (hr : r.val = 2000 * t.val + p.val) :
    (iblk3 V c 0 t : Vec Ideal S2000x256 .f32) (ix2 p j) = (V c main_v42 : S50000x256.Idx → Elt Ideal .f32) (ix2 r j) := by
  obtain ⟨e0, e1, -⟩ := idx3 t
  unfold iblk3
  rw [View.read_apply]
  show V c main_v42 _ = V c main_v42 _
  congr 1
  funext a
  apply Fin.ext
  match a with
  | ⟨0, _⟩ => show win3_0.index t (0 : Fin 2) * 2000 + 1 * p.val = r.val; rw [e0, hr]; omega
  | ⟨1, _⟩ => show win3_0.index t (1 : Fin 2) * 256 + 1 * j.val = j.val; rw [e1]; omega

/-- Window 1's block at any point is the whole vector. -/
theorem mublk3 (c : Dev nD) (t : Fin cfg3.N) (j : Fin 256) :
    (iblk3 V c 1 t : Vec Ideal S256 .f32) (ix1 j) = (V c main_v45 : S256.Idx → Elt Ideal .f32) (ix1 j) := by
  have e : win3_1.index t (0 : Fin 1) = 0 := (idx3 t).2.2.1
  unfold iblk3
  rw [View.read_apply]
  show V c main_v45 _ = V c main_v45 _
  congr 1
  funext a
  apply Fin.ext
  match a with
  | ⟨0, _⟩ => show win3_1.index t (0 : Fin 1) * 256 + 1 * j.val = j.val; rw [e]; omega

/-- Window 2's block at any point is the whole vector. -/
theorem varblk3 (c : Dev nD) (t : Fin cfg3.N) (j : Fin 256) :
    (iblk3 V c 2 t : Vec Ideal S256 .f32) (ix1 j) = (V c main_v46 : S256.Idx → Elt Ideal .f32) (ix1 j) := by
  have e : win3_2.index t (0 : Fin 1) = 0 := (idx3 t).2.2.2.1
  unfold iblk3
  rw [View.read_apply]
  show V c main_v46 _ = V c main_v46 _
  congr 1
  funext a
  apply Fin.ext
  match a with
  | ⟨0, _⟩ => show win3_2.index t (0 : Fin 1) * 256 + 1 * j.val = j.val; rw [e]; omega

/-- Window 3's block at any point is the whole vector. -/
theorem gblk3 (c : Dev nD) (t : Fin cfg3.N) (j : Fin 256) :
    (iblk3 V c 3 t : Vec Ideal S256 .f32) (ix1 j) = (V c main_v29 : S256.Idx → Elt Ideal .f32) (ix1 j) := by
  have e : win3_3.index t (0 : Fin 1) = 0 := (idx3 t).2.2.2.2.1
  unfold iblk3
  rw [View.read_apply]
  show V c main_v29 _ = V c main_v29 _
  congr 1
  funext a
  apply Fin.ext
  match a with
  | ⟨0, _⟩ => show win3_3.index t (0 : Fin 1) * 256 + 1 * j.val = j.val; rw [e]; omega

/-- Window 4's block at any point is the whole vector. -/
theorem beblk3 (c : Dev nD) (t : Fin cfg3.N) (j : Fin 256) :
    (iblk3 V c 4 t : Vec Ideal S256 .f32) (ix1 j) = (V c main_v31 : S256.Idx → Elt Ideal .f32) (ix1 j) := by
  have e : win3_4.index t (0 : Fin 1) = 0 := (idx3 t).2.2.2.2.2.1
  unfold iblk3
  rw [View.read_apply]
  show V c main_v31 _ = V c main_v31 _
  congr 1
  funext a
  apply Fin.ext
  match a with
  | ⟨0, _⟩ => show win3_4.index t (0 : Fin 1) * 256 + 1 * j.val = j.val; rw [e]; omega

/-- What point t writes back is block t of the reference's stage of the arrays the region finds. -/
theorem flushed3_eq (c : Dev nD) (t : Fin cfg3.N) :
    (dat3 V c).flushed 5 t = ((cfg3.win 5).blk t).view.read (Elt Ideal)
      (Cert.Spec.bnRelu (F := Ideal) (V c main_v42) (V c main_v45) (V c main_v46) (V c main_v29) (V c main_v31)) := by
  show (cfg3.win 5).cut (grid3.coords t) ((dat3 V c).after 5 t) = _
  rw [after3_5]
  unfold out3_5
  rw [View.canon_unit_zero hz2]
  simp only [View.ld_unit_zero (S := S2000x256) hz2, View.ld_unit_zero (S := S256) hz1]
  obtain ⟨-, -, -, -, -, -, e6, e7⟩ := idx3 t
  funext y
  rw [View.read_apply]
  refine point_eq k3_pay1 pay3_apply _ _ _ _ _ _ _ _ _ _ t.val _ _ (zblk3 V c t) (mublk3 V c t) (varblk3 V c t) (gblk3 V c t) (beblk3 V c t) ?_ ?_
  · show win3_5.index t (0 : Fin 2) * 2000 + 1 * (y 0).val = 2000 * t.val + (y 0).val
    rw [e6]; omega
  · apply Fin.ext
    show win3_5.index t (1 : Fin 2) * 256 + 1 * (y 1).val = (y 1).val
    rw [e7]; omega

/-- Every row r of the array is in the block of point r / 2000. -/
theorem cover3 (i : S50000x256.Idx) : ∃ t : Fin cfg3.N, (cfg3.win 5).flush t = true ∧ i ∈ ((cfg3.win 5).blk t).view.set := by
  have hi0 : (i 0).val < 50000 := (i 0).isLt
  have hi1 : (i 1).val < 256 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨-, -, -, -, -, -, e6, e7⟩ := idx3 t
  refine ⟨t, flush3_5 t, ?_⟩
  show i ∈ ((View.whole main_v47).slice (win3_5.rect t)).set
  rw [View.set_slice_whole, Rect.mem_set_unit]
  intro a
  match a with
  | ⟨0, _⟩ =>
    show win3_5.index t (0 : Fin 2) * 2000 ≤ (i 0).val ∧ (i 0).val < win3_5.index t (0 : Fin 2) * 2000 + 2000
    rw [e6, ht]; omega
  | ⟨1, _⟩ =>
    show win3_5.index t (1 : Fin 2) * 256 ≤ (i 1).val ∧ (i 1).val < win3_5.index t (1 : Fin 2) * 256 + 256
    rw [e7]; omega

/-- The region's result array ends holding the reference's stage of the arrays the region finds. -/
theorem bn3 (c : Dev nD) :
    (dat3 (F := Ideal) V c).arrAt 5 cfg3.N = Cert.Spec.bnRelu (F := Ideal) (V c main_v42) (V c main_v45) (V c main_v46) (V c main_v29) (V c main_v31) :=
  (dat3 V c).arrAt_eq_of_cover 5 _ (fun t _ => flushed3_eq V c t) cover3

/-! ## Region 5 -/

/-- The printed index maps, decided over the 25 points: the row-block windows (0 and 5) sit at block (t, 0), the four
    vectors' windows at block 0. -/
theorem idx5 : ∀ t : Fin cfg5.N, win5_0.index t (0 : Fin 2) = t.val ∧ win5_0.index t (1 : Fin 2) = 0
    ∧ win5_1.index t (0 : Fin 1) = 0 ∧ win5_2.index t (0 : Fin 1) = 0 ∧ win5_3.index t (0 : Fin 1) = 0 ∧ win5_4.index t (0 : Fin 1) = 0
    ∧ win5_5.index t (0 : Fin 2) = t.val ∧ win5_5.index t (1 : Fin 2) = 0 :=
  (by decide +kernel : ∀ t : Fin grid5.N, _)

/-- Window 0's block at point t is rows 2000·t … 2000·t + 1999 of its array. -/
theorem zblk5 (c : Dev nD) (t : Fin cfg5.N) (p : Fin 2000) (j : Fin 256) (r : Fin 50000) (hr : r.val = 2000 * t.val + p.val) :
    (iblk5 V c 0 t : Vec Ideal S2000x256 .f32) (ix2 p j) = (V c main_v70 : S50000x256.Idx → Elt Ideal .f32) (ix2 r j) := by
  obtain ⟨e0, e1, -⟩ := idx5 t
  unfold iblk5
  rw [View.read_apply]
  show V c main_v70 _ = V c main_v70 _
  congr 1
  funext a
  apply Fin.ext
  match a with
  | ⟨0, _⟩ => show win5_0.index t (0 : Fin 2) * 2000 + 1 * p.val = r.val; rw [e0, hr]; omega
  | ⟨1, _⟩ => show win5_0.index t (1 : Fin 2) * 256 + 1 * j.val = j.val; rw [e1]; omega

/-- Window 1's block at any point is the whole vector. -/
theorem mublk5 (c : Dev nD) (t : Fin cfg5.N) (j : Fin 256) :
    (iblk5 V c 1 t : Vec Ideal S256 .f32) (ix1 j) = (V c main_v73 : S256.Idx → Elt Ideal .f32) (ix1 j) := by
  have e : win5_1.index t (0 : Fin 1) = 0 := (idx5 t).2.2.1
  unfold iblk5
  rw [View.read_apply]
  show V c main_v73 _ = V c main_v73 _
  congr 1
  funext a
  apply Fin.ext
  match a with
  | ⟨0, _⟩ => show win5_1.index t (0 : Fin 1) * 256 + 1 * j.val = j.val; rw [e]; omega

/-- Window 2's block at any point is the whole vector. -/
theorem varblk5 (c : Dev nD) (t : Fin cfg5.N) (j : Fin 256) :
    (iblk5 V c 2 t : Vec Ideal S256 .f32) (ix1 j) = (V c main_v74 : S256.Idx → Elt Ideal .f32) (ix1 j) := by
  have e : win5_2.index t (0 : Fin 1) = 0 := (idx5 t).2.2.2.1
  unfold iblk5
  rw [View.read_apply]
  show V c main_v74 _ = V c main_v74 _
  congr 1
  funext a
  apply Fin.ext
  match a with
  | ⟨0, _⟩ => show win5_2.index t (0 : Fin 1) * 256 + 1 * j.val = j.val; rw [e]; omega

/-- Window 3's block at any point is the whole vector. -/
theorem gblk5 (c : Dev nD) (t : Fin cfg5.N) (j : Fin 256) :
    (iblk5 V c 3 t : Vec Ideal S256 .f32) (ix1 j) = (V c main_v57 : S256.Idx → Elt Ideal .f32) (ix1 j) := by
  have e : win5_3.index t (0 : Fin 1) = 0 := (idx5 t).2.2.2.2.1
  unfold iblk5
  rw [View.read_apply]
  show V c main_v57 _ = V c main_v57 _
  congr 1
  funext a
  apply Fin.ext
  match a with
  | ⟨0, _⟩ => show win5_3.index t (0 : Fin 1) * 256 + 1 * j.val = j.val; rw [e]; omega

/-- Window 4's block at any point is the whole vector. -/
theorem beblk5 (c : Dev nD) (t : Fin cfg5.N) (j : Fin 256) :
    (iblk5 V c 4 t : Vec Ideal S256 .f32) (ix1 j) = (V c main_v59 : S256.Idx → Elt Ideal .f32) (ix1 j) := by
  have e : win5_4.index t (0 : Fin 1) = 0 := (idx5 t).2.2.2.2.2.1
  unfold iblk5
  rw [View.read_apply]
  show V c main_v59 _ = V c main_v59 _
  congr 1
  funext a
  apply Fin.ext
  match a with
  | ⟨0, _⟩ => show win5_4.index t (0 : Fin 1) * 256 + 1 * j.val = j.val; rw [e]; omega

/-- What point t writes back is block t of the reference's stage of the arrays the region finds. -/
theorem flushed5_eq (c : Dev nD) (t : Fin cfg5.N) :
    (dat5 V c).flushed 5 t = ((cfg5.win 5).blk t).view.read (Elt Ideal)
      (Cert.Spec.bnRelu (F := Ideal) (V c main_v70) (V c main_v73) (V c main_v74) (V c main_v57) (V c main_v59)) := by
  show (cfg5.win 5).cut (grid5.coords t) ((dat5 V c).after 5 t) = _
  rw [after5_5]
  unfold out5_5
  rw [View.canon_unit_zero hz2]
  simp only [View.ld_unit_zero (S := S2000x256) hz2, View.ld_unit_zero (S := S256) hz1]
  obtain ⟨-, -, -, -, -, -, e6, e7⟩ := idx5 t
  funext y
  rw [View.read_apply]
  refine point_eq k5_pay1 pay5_apply _ _ _ _ _ _ _ _ _ _ t.val _ _ (zblk5 V c t) (mublk5 V c t) (varblk5 V c t) (gblk5 V c t) (beblk5 V c t) ?_ ?_
  · show win5_5.index t (0 : Fin 2) * 2000 + 1 * (y 0).val = 2000 * t.val + (y 0).val
    rw [e6]; omega
  · apply Fin.ext
    show win5_5.index t (1 : Fin 2) * 256 + 1 * (y 1).val = (y 1).val
    rw [e7]; omega

/-- Every row r of the array is in the block of point r / 2000. -/
theorem cover5 (i : S50000x256.Idx) : ∃ t : Fin cfg5.N, (cfg5.win 5).flush t = true ∧ i ∈ ((cfg5.win 5).blk t).view.set := by
  have hi0 : (i 0).val < 50000 := (i 0).isLt
  have hi1 : (i 1).val < 256 := (i 1).isLt
  have hN : cfg5.N = 25 := N_5
  obtain ⟨t, ht⟩ : ∃ t : Fin cfg5.N, t.val = (i 0).val / 2000 := ⟨⟨(i 0).val / 2000, by rw [hN]; omega⟩, rfl⟩
  obtain ⟨-, -, -, -, -, -, e6, e7⟩ := idx5 t
  refine ⟨t, flush5_5 t, ?_⟩
  show i ∈ ((View.whole main_v75).slice (win5_5.rect t)).set
  rw [View.set_slice_whole, Rect.mem_set_unit]
  intro a
  match a with
  | ⟨0, _⟩ =>
    show win5_5.index t (0 : Fin 2) * 2000 ≤ (i 0).val ∧ (i 0).val < win5_5.index t (0 : Fin 2) * 2000 + 2000
    rw [e6, ht]; omega
  | ⟨1, _⟩ =>
    show win5_5.index t (1 : Fin 2) * 256 ≤ (i 1).val ∧ (i 1).val < win5_5.index t (1 : Fin 2) * 256 + 256
    rw [e7]; omega

/-- The region's result array ends holding the reference's stage of the arrays the region finds. -/
theorem bn5 (c : Dev nD) :
    (dat5 (F := Ideal) V c).arrAt 5 cfg5.N = Cert.Spec.bnRelu (F := Ideal) (V c main_v70) (V c main_v73) (V c main_v74) (V c main_v57) (V c main_v59) :=
  (dat5 V c).arrAt_eq_of_cover 5 _ (fun t _ => flushed5_eq V c t) cover5

/-! ## Region 7 -/

/-- The printed index maps, decided over the 25 points: the row-block windows (0 and 5) sit at block (t, 0), the four
    vectors' windows at block 0. -/
theorem idx7 : ∀ t : Fin cfg7.N, win7_0.index t (0 : Fin 2) = t.val ∧ win7_0.index t (1 : Fin 2) = 0
    ∧ win7_1.index t (0 : Fin 1) = 0 ∧ win7_2.index t (0 : Fin 1) = 0 ∧ win7_3.index t (0 : Fin 1) = 0 ∧ win7_4.index t (0 : Fin 1) = 0
    ∧ win7_5.index t (0 : Fin 2) = t.val ∧ win7_5.index t (1 : Fin 2) = 0 :=
  (by decide +kernel : ∀ t : Fin grid7.N, _)

/-- Window 0's block at point t is rows 2000·t … 2000·t + 1999 of its array. -/
theorem zblk7 (c : Dev nD) (t : Fin cfg7.N) (p : Fin 2000) (j : Fin 256) (r : Fin 50000) (hr : r.val = 2000 * t.val + p.val) :
    (iblk7 V c 0 t : Vec Ideal S2000x256 .f32) (ix2 p j) = (V c main_v98 : S50000x256.Idx → Elt Ideal .f32) (ix2 r j) := by
  obtain ⟨e0, e1, -⟩ := idx7 t
  unfold iblk7
  rw [View.read_apply]
  show V c main_v98 _ = V c main_v98 _
  congr 1
  funext a
  apply Fin.ext
  match a with
  | ⟨0, _⟩ => show win7_0.index t (0 : Fin 2) * 2000 + 1 * p.val = r.val; rw [e0, hr]; omega
  | ⟨1, _⟩ => show win7_0.index t (1 : Fin 2) * 256 + 1 * j.val = j.val; rw [e1]; omega

/-- Window 1's block at any point is the whole vector. -/
theorem mublk7 (c : Dev nD) (t : Fin cfg7.N) (j : Fin 256) :
    (iblk7 V c 1 t : Vec Ideal S256 .f32) (ix1 j) = (V c main_v101 : S256.Idx → Elt Ideal .f32) (ix1 j) := by
  have e : win7_1.index t (0 : Fin 1) = 0 := (idx7 t).2.2.1
  unfold iblk7
  rw [View.read_apply]
  show V c main_v101 _ = V c main_v101 _
  congr 1
  funext a
  apply Fin.ext
  match a with
  | ⟨0, _⟩ => show win7_1.index t (0 : Fin 1) * 256 + 1 * j.val = j.val; rw [e]; omega

/-- Window 2's block at any point is the whole vector. -/
theorem varblk7 (c : Dev nD) (t : Fin cfg7.N) (j : Fin 256) :
    (iblk7 V c 2 t : Vec Ideal S256 .f32) (ix1 j) = (V c main_v102 : S256.Idx → Elt Ideal .f32) (ix1 j) := by
  have e : win7_2.index t (0 : Fin 1) = 0 := (idx7 t).2.2.2.1
  unfold iblk7
  rw [View.read_apply]
  show V c main_v102 _ = V c main_v102 _
  congr 1
  funext a
  apply Fin.ext
  match a with
  | ⟨0, _⟩ => show win7_2.index t (0 : Fin 1) * 256 + 1 * j.val = j.val; rw [e]; omega

/-- Window 3's block at any point is the whole vector. -/
theorem gblk7 (c : Dev nD) (t : Fin cfg7.N) (j : Fin 256) :
    (iblk7 V c 3 t : Vec Ideal S256 .f32) (ix1 j) = (V c main_v85 : S256.Idx → Elt Ideal .f32) (ix1 j) := by
  have e : win7_3.index t (0 : Fin 1) = 0 := (idx7 t).2.2.2.2.1
  unfold iblk7
  rw [View.read_apply]
  show V c main_v85 _ = V c main_v85 _
  congr 1
  funext a
  apply Fin.ext
  match a with
  | ⟨0, _⟩ => show win7_3.index t (0 : Fin 1) * 256 + 1 * j.val = j.val; rw [e]; omega

/-- Window 4's block at any point is the whole vector. -/
theorem beblk7 (c : Dev nD) (t : Fin cfg7.N) (j : Fin 256) :
    (iblk7 V c 4 t : Vec Ideal S256 .f32) (ix1 j) = (V c main_v87 : S256.Idx → Elt Ideal .f32) (ix1 j) := by
  have e : win7_4.index t (0 : Fin 1) = 0 := (idx7 t).2.2.2.2.2.1
  unfold iblk7
  rw [View.read_apply]
  show V c main_v87 _ = V c main_v87 _
  congr 1
  funext a
  apply Fin.ext
  match a with
  | ⟨0, _⟩ => show win7_4.index t (0 : Fin 1) * 256 + 1 * j.val = j.val; rw [e]; omega

/-- What point t writes back is block t of the reference's stage of the arrays the region finds. -/
theorem flushed7_eq (c : Dev nD) (t : Fin cfg7.N) :
    (dat7 V c).flushed 5 t = ((cfg7.win 5).blk t).view.read (Elt Ideal)
      (Cert.Spec.bnRelu (F := Ideal) (V c main_v98) (V c main_v101) (V c main_v102) (V c main_v85) (V c main_v87)) := by
  show (cfg7.win 5).cut (grid7.coords t) ((dat7 V c).after 5 t) = _
  rw [after7_5]
  unfold out7_5
  rw [View.canon_unit_zero hz2]
  simp only [View.ld_unit_zero (S := S2000x256) hz2, View.ld_unit_zero (S := S256) hz1]
  obtain ⟨-, -, -, -, -, -, e6, e7⟩ := idx7 t
  funext y
  rw [View.read_apply]
  refine point_eq k7_pay1 pay7_apply _ _ _ _ _ _ _ _ _ _ t.val _ _ (zblk7 V c t) (mublk7 V c t) (varblk7 V c t) (gblk7 V c t) (beblk7 V c t) ?_ ?_
  · show win7_5.index t (0 : Fin 2) * 2000 + 1 * (y 0).val = 2000 * t.val + (y 0).val
    rw [e6]; omega
  · apply Fin.ext
    show win7_5.index t (1 : Fin 2) * 256 + 1 * (y 1).val = (y 1).val
    rw [e7]; omega

/-- Every row r of the array is in the block of point r / 2000. -/
theorem cover7 (i : S50000x256.Idx) : ∃ t : Fin cfg7.N, (cfg7.win 5).flush t = true ∧ i ∈ ((cfg7.win 5).blk t).view.set := by
  have hi0 : (i 0).val < 50000 := (i 0).isLt
  have hi1 : (i 1).val < 256 := (i 1).isLt
  have hN : cfg7.N = 25 := N_7
  obtain ⟨t, ht⟩ : ∃ t : Fin cfg7.N, t.val = (i 0).val / 2000 := ⟨⟨(i 0).val / 2000, by rw [hN]; omega⟩, rfl⟩
  obtain ⟨-, -, -, -, -, -, e6, e7⟩ := idx7 t
  refine ⟨t, flush7_5 t, ?_⟩
  show i ∈ ((View.whole main_v103).slice (win7_5.rect t)).set
  rw [View.set_slice_whole, Rect.mem_set_unit]
  intro a
  match a with
  | ⟨0, _⟩ =>
    show win7_5.index t (0 : Fin 2) * 2000 ≤ (i 0).val ∧ (i 0).val < win7_5.index t (0 : Fin 2) * 2000 + 2000
    rw [e6, ht]; omega
  | ⟨1, _⟩ =>
    show win7_5.index t (1 : Fin 2) * 256 ≤ (i 1).val ∧ (i 1).val < win7_5.index t (1 : Fin 2) * 256 + 256
    rw [e7]; omega

/-- The region's result array ends holding the reference's stage of the arrays the region finds. -/
theorem bn7 (c : Dev nD) :
    (dat7 (F := Ideal) V c).arrAt 5 cfg7.N = Cert.Spec.bnRelu (F := Ideal) (V c main_v98) (V c main_v101) (V c main_v102) (V c main_v85) (V c main_v87) :=
  (dat7 V c).arrAt_eq_of_cover 5 _ (fun t _ => flushed7_eq V c t) cover7

end Cert.KernelIdeal.BnValue

end
-- ==== Proof.KernelChain.lean ====
/-
  The idealized kernel program's buffers, boundary by boundary.

  From the launch memory the program alternates stretches of host operations and kernel regions.  Reading each
  stretch as a stage of the network and each region as the perceptron or the normalisation it computes on whole
  arrays, and carrying every buffer a later stage reads through the stretches and regions that do not write it,
  the buffers hold, in order: the neighbour sums of the input features; the first perceptron's output Z₀, its
  column means and variances; the first layer's output H₁; then for each of the three later layers the slices of
  the stacked parameters, the neighbour sums of the previous output, the perceptron's output, its statistics, the
  layer's output; and at the end the pooled result of the last layer's output.  So the result buffer holds the
  network's value at the launch arguments.
-/
import proofs.«111778_j58583353917552_1_alg».proof.Proof.Gen.KernelIdeal.Frame
import proofs.«111778_j58583353917552_1_alg».proof.Proof.KernelKeep
import proofs.«111778_j58583353917552_1_alg».proof.Proof.KernelStages
import proofs.«111778_j58583353917552_1_alg».proof.Proof.MlpValue0
import proofs.«111778_j58583353917552_1_alg».proof.Proof.MlpValue2
import proofs.«111778_j58583353917552_1_alg».proof.Proof.MlpValue4
import proofs.«111778_j58583353917552_1_alg».proof.Proof.MlpValue6
import proofs.«111778_j58583353917552_1_alg».proof.Proof.BnValue

set_option maxRecDepth 16384

noncomputable section

namespace Cert.KernelIdeal.Chain

open Idealize.ShloMosaic Idealize.ShloMosaic.TcCoe Idealize.SL.Sem
open Cert.KernelIdeal Cert.KernelIdeal.Gen Cert.KernelIdeal.Keep Cert.KernelIdeal.Stages

variable (m : (ℓ : Loc nD τ sig) → Buf (Elt Ideal) ℓ) (ρ : Dev nD → PrngReg) (c : Dev nD)

/-- An argument array as launched. -/
abbrev a (b : Ref sig .tc) : Buf (Elt Ideal) ((c : Thread nD τ).loc b) := m ((c : Thread nD τ).loc b)

/-! ## The network's intermediate values at the launch arguments -/

def Z0 : Cert.Spec.Arr Ideal Cert.ReferenceIdeal.S50000x256 .f32 :=
  Cert.Spec.mlp128 (F := Ideal) (Cert.Spec.nbrSum128 (F := Ideal) (a m c main_arg0) (a m c main_arg1)) (a m c main_arg0) (a m c main_arg3) (a m c main_arg4) (a m c main_arg5) (a m c main_arg6)
def H1 : Cert.Spec.Arr Ideal Cert.ReferenceIdeal.S50000x256 .f32 :=
  Cert.Spec.bnRelu (F := Ideal) (Z0 m c) (Cert.Spec.colMean (Z0 m c)) (Cert.Spec.colVar (Z0 m c)) (a m c main_arg7) (a m c main_arg8)
def Z1 : Cert.Spec.Arr Ideal Cert.ReferenceIdeal.S50000x256 .f32 :=
  Cert.Spec.mlp256 (F := Ideal) (Cert.Spec.nbrSum256 (F := Ideal) (H1 m c) (a m c main_arg1)) (H1 m c) (Cert.Spec.mat0 (a m c main_arg9)) (Cert.Spec.vec0 (a m c main_arg10)) (Cert.Spec.mat0 (a m c main_arg11)) (Cert.Spec.vec0 (a m c main_arg12))
def H2 : Cert.Spec.Arr Ideal Cert.ReferenceIdeal.S50000x256 .f32 :=
  Cert.Spec.bnRelu (F := Ideal) (Z1 m c) (Cert.Spec.colMean (Z1 m c)) (Cert.Spec.colVar (Z1 m c)) (Cert.Spec.vec0 (a m c main_arg13)) (Cert.Spec.vec0 (a m c main_arg14))
def Z2 : Cert.Spec.Arr Ideal Cert.ReferenceIdeal.S50000x256 .f32 :=
  Cert.Spec.mlp256 (F := Ideal) (Cert.Spec.nbrSum256 (F := Ideal) (H2 m c) (a m c main_arg1)) (H2 m c) (Cert.Spec.mat1 (a m c main_arg9)) (Cert.Spec.vec1 (a m c main_arg10)) (Cert.Spec.mat1 (a m c main_arg11)) (Cert.Spec.vec1 (a m c main_arg12))
def H3 : Cert.Spec.Arr Ideal Cert.ReferenceIdeal.S50000x256 .f32 :=
  Cert.Spec.bnRelu (F := Ideal) (Z2 m c) (Cert.Spec.colMean (Z2 m c)) (Cert.Spec.colVar (Z2 m c)) (Cert.Spec.vec1 (a m c main_arg13)) (Cert.Spec.vec1 (a m c main_arg14))
def Z3 : Cert.Spec.Arr Ideal Cert.ReferenceIdeal.S50000x256 .f32 :=
  Cert.Spec.mlp256 (F := Ideal) (Cert.Spec.nbrSum256 (F := Ideal) (H3 m c) (a m c main_arg1)) (H3 m c) (Cert.Spec.mat2 (a m c main_arg9)) (Cert.Spec.vec2 (a m c main_arg10)) (Cert.Spec.mat2 (a m c main_arg11)) (Cert.Spec.vec2 (a m c main_arg12))
def H4 : Cert.Spec.Arr Ideal Cert.ReferenceIdeal.S50000x256 .f32 :=
  Cert.Spec.bnRelu (F := Ideal) (Z3 m c) (Cert.Spec.colMean (Z3 m c)) (Cert.Spec.colVar (Z3 m c)) (Cert.Spec.vec2 (a m c main_arg13)) (Cert.Spec.vec2 (a m c main_arg14))

/-- Pooling the last layer's output is the network. -/
theorem net_eq : Cert.Spec.pool (F := Ideal) (H4 m c) (a m c main_arg2)
    = Cert.Spec.net (F := Ideal) (a m c main_arg0) (a m c main_arg1) (a m c main_arg2) (a m c main_arg3) (a m c main_arg4) (a m c main_arg5) (a m c main_arg6) (a m c main_arg7) (a m c main_arg8) (a m c main_arg9) (a m c main_arg10) (a m c main_arg11) (a m c main_arg12) (a m c main_arg13) (a m c main_arg14) := rfl

/-! ## Layer 1 -/

theorem c01 (b : Ref sig .tc) (h : b ∉ wr0 := by decide) : W1 m ρ c (Proc.devRef .tc b) = a m c b := keep0 (W0 m ρ c) b h
theorem w1_agg : W1 m ρ c (Proc.devRef .tc main_v13) = Cert.Spec.nbrSum128 (F := Ideal) (a m c main_arg0) (a m c main_arg1) := h0_agg (W0 m ρ c)
theorem src1 : W1 m ρ c (Proc.devRef .tc main_v1) = Cert.SpecRows.srcRow (F := Ideal) (a m c main_arg1) := h0_src (W0 m ρ c)
theorem dst1 : W1 m ρ c (Proc.devRef .tc main_v3) = Cert.SpecRows.dstRow (F := Ideal) (a m c main_arg1) := h0_dst (W0 m ρ c)

theorem L0_z : W2 m ρ c (Proc.devRef .tc main_v14) = Z0 m c := by
  refine (W2_arr m ρ c 6).trans ((Cert.KernelIdeal.MlpValue0.final (V1 m ρ) c).trans ?_)
  show Cert.Spec.mlp128 (F := Ideal) (W1 m ρ c (Proc.devRef .tc main_v13)) (W1 m ρ c (Proc.devRef .tc main_arg0)) (W1 m ρ c (Proc.devRef .tc main_arg3)) (W1 m ρ c (Proc.devRef .tc main_arg4)) (W1 m ρ c (Proc.devRef .tc main_arg5)) (W1 m ρ c (Proc.devRef .tc main_arg6)) = _
  rw [w1_agg m ρ c, c01 m ρ c main_arg0, c01 m ρ c main_arg3, c01 m ρ c main_arg4, c01 m ρ c main_arg5, c01 m ρ c main_arg6]
  rfl
theorem L0_z' : W3 m ρ c (Proc.devRef .tc main_v14) = Z0 m c := (keep1 (W2 m ρ c) main_v14).trans (L0_z m ρ c)
theorem L0_mean' : W3 m ρ c (Proc.devRef .tc main_v17) = Cert.Spec.colMean (F := Ideal) (Z0 m c) := (h1_mean (W2 m ρ c)).trans (congrArg _ (L0_z m ρ c))
theorem L0_corr : W3 m ρ c (Proc.devRef .tc main_c_3) = (constantI Cert.ReferenceIdeal.S_ 32 0#32 : Cert.Spec.Arr Ideal Cert.ReferenceIdeal.S_ .i32) := h1_corr (W2 m ρ c)
theorem L0_var : W4 m ρ c (Proc.devRef .tc main_v18) = Cert.Spec.colVar (F := Ideal) (Z0 m c) := by
  refine (h1_var (W3 m ρ c)).trans ?_
  rw [L0_z' m ρ c, L0_corr m ρ c]
  exact Cert.SpecRows.varOf_zero _
theorem L0_z'' : W4 m ρ c (Proc.devRef .tc main_v14) = Z0 m c := (keep1_1 (W3 m ρ c) main_v14).trans (L0_z' m ρ c)
theorem L0_mean : W4 m ρ c (Proc.devRef .tc main_v17) = Cert.Spec.colMean (F := Ideal) (Z0 m c) := (keep1_1 (W3 m ρ c) main_v17).trans (L0_mean' m ρ c)
/-- A buffer the first layer does not write, from after the first stretch to the first normalisation region's entry. -/
theorem carry0 (b : Ref sig .tc) (h1 : ∀ w, Pipeline.arrRef spec0 w ≠ b := by decide) (h2 : b ∉ wr1 := by decide) (h3 : b ∉ wr1_1 := by decide) :
    W4 m ρ c (Proc.devRef .tc b) = W1 m ρ c (Proc.devRef .tc b) :=
  (keep1_1 (W3 m ρ c) b h3).trans ((keep1 (W2 m ρ c) b h2).trans (W2_of_ne m ρ c b h1))
theorem L0_g : W4 m ρ c (Proc.devRef .tc main_arg7) = (a m c main_arg7) := (carry0 m ρ c main_arg7).trans (c01 m ρ c main_arg7)
theorem L0_be : W4 m ρ c (Proc.devRef .tc main_arg8) = (a m c main_arg8) := (carry0 m ρ c main_arg8).trans (c01 m ρ c main_arg8)
theorem out5 : W5 m ρ c (Proc.devRef .tc main_v19) = H1 m c := by
  refine (W5_arr m ρ c 5).trans ((Cert.KernelIdeal.BnValue.bn1 (V4 m ρ) c).trans ?_)
  show Cert.Spec.bnRelu (F := Ideal) (W4 m ρ c (Proc.devRef .tc main_v14)) (W4 m ρ c (Proc.devRef .tc main_v17)) (W4 m ρ c (Proc.devRef .tc main_v18)) (W4 m ρ c (Proc.devRef .tc main_arg7)) (W4 m ρ c (Proc.devRef .tc main_arg8)) = _
  rw [L0_z'' m ρ c, L0_mean m ρ c, L0_var m ρ c, L0_g m ρ c, L0_be m ρ c]
  rfl
theorem carry0' (b : Ref sig .tc) (h1 : ∀ w, Pipeline.arrRef spec0 w ≠ b := by decide) (h2 : b ∉ wr1 := by decide) (h3 : b ∉ wr1_1 := by decide)
    (h4 : ∀ w, Pipeline.arrRef spec1 w ≠ b := by decide) : W5 m ρ c (Proc.devRef .tc b) = W1 m ρ c (Proc.devRef .tc b) :=
  (W5_of_ne m ρ c b h4).trans (carry0 m ρ c b h1 h2 h3)
theorem src5 : W5 m ρ c (Proc.devRef .tc main_v1) = Cert.SpecRows.srcRow (F := Ideal) (a m c main_arg1) := (carry0' m ρ c main_v1).trans (src1 m ρ c)
theorem dst5 : W5 m ρ c (Proc.devRef .tc main_v3) = Cert.SpecRows.dstRow (F := Ideal) (a m c main_arg1) := (carry0' m ρ c main_v3).trans (dst1 m ρ c)
theorem par5_arg2 : W5 m ρ c (Proc.devRef .tc main_arg2) = a m c main_arg2 := (carry0' m ρ c main_arg2).trans (c01 m ρ c main_arg2)
theorem par5_arg9 : W5 m ρ c (Proc.devRef .tc main_arg9) = a m c main_arg9 := (carry0' m ρ c main_arg9).trans (c01 m ρ c main_arg9)
theorem par5_arg10 : W5 m ρ c (Proc.devRef .tc main_arg10) = a m c main_arg10 := (carry0' m ρ c main_arg10).trans (c01 m ρ c main_arg10)
theorem par5_arg11 : W5 m ρ c (Proc.devRef .tc main_arg11) = a m c main_arg11 := (carry0' m ρ c main_arg11).trans (c01 m ρ c main_arg11)
theorem par5_arg12 : W5 m ρ c (Proc.devRef .tc main_arg12) = a m c main_arg12 := (carry0' m ρ c main_arg12).trans (c01 m ρ c main_arg12)
theorem par5_arg13 : W5 m ρ c (Proc.devRef .tc main_arg13) = a m c main_arg13 := (carry0' m ρ c main_arg13).trans (c01 m ρ c main_arg13)
theorem par5_arg14 : W5 m ρ c (Proc.devRef .tc main_arg14) = a m c main_arg14 := (carry0' m ρ c main_arg14).trans (c01 m ρ c main_arg14)

/-! ## Layer 2 (the stacked parameters' slice 0) -/

/-- A buffer no operation or region of this layer writes holds, when the layer's output has been written, what it held
    when the previous layer's had. -/
theorem carry1 (b : Ref sig .tc) (h1 : b ∉ wr2 := by decide) (h2 : ∀ w, Pipeline.arrRef spec2 w ≠ b := by decide)
    (h3 : b ∉ wr3 := by decide) (h4 : b ∉ wr3_1 := by decide) (h5 : ∀ w, Pipeline.arrRef spec3 w ≠ b := by decide) :
    W10 m ρ c (Proc.devRef .tc b) = W5 m ρ c (Proc.devRef .tc b) :=
  (W10_of_ne m ρ c b h5).trans ((keep3_1 (W8 m ρ c) b h4).trans ((keep3 (W7 m ρ c) b h3).trans
    ((W7_of_ne m ρ c b h2).trans (keep2 (W5 m ρ c) b h1))))

theorem src10 : W10 m ρ c (Proc.devRef .tc main_v1) = Cert.SpecRows.srcRow (F := Ideal) (a m c main_arg1) := (carry1 m ρ c main_v1).trans (src5 m ρ c)
theorem dst10 : W10 m ρ c (Proc.devRef .tc main_v3) = Cert.SpecRows.dstRow (F := Ideal) (a m c main_arg1) := (carry1 m ρ c main_v3).trans (dst5 m ρ c)

-- the stretch before the perceptron region: slices and neighbour sums
theorem L1_agg : W6 m ρ c (Proc.devRef .tc main_v41) = Cert.Spec.nbrSum256 (F := Ideal) (H1 m c) (a m c main_arg1) := by
  refine (h2_agg (W5 m ρ c)).trans ?_
  rw [out5 m ρ c, src5 m ρ c, dst5 m ρ c]
  exact Cert.SpecRows.nbrRows256_eq _ _
theorem L1_h : W6 m ρ c (Proc.devRef .tc main_v19) = (H1 m c) := (keep2 (W5 m ρ c) main_v19).trans (out5 m ρ c)
theorem L1_w1 : W6 m ρ c (Proc.devRef .tc main_v21) = Cert.Spec.mat0 (F := Ideal) (a m c main_arg9) := (h2_w1 (W5 m ρ c)).trans (congrArg _ (par5_arg9 m ρ c))
theorem L1_b1 : W6 m ρ c (Proc.devRef .tc main_v23) = Cert.Spec.vec0 (F := Ideal) (a m c main_arg10) := (h2_b1 (W5 m ρ c)).trans (congrArg _ (par5_arg10 m ρ c))
theorem L1_w2 : W6 m ρ c (Proc.devRef .tc main_v25) = Cert.Spec.mat0 (F := Ideal) (a m c main_arg11) := (h2_w2 (W5 m ρ c)).trans (congrArg _ (par5_arg11 m ρ c))
theorem L1_b2 : W6 m ρ c (Proc.devRef .tc main_v27) = Cert.Spec.vec0 (F := Ideal) (a m c main_arg12) := (h2_b2 (W5 m ρ c)).trans (congrArg _ (par5_arg12 m ρ c))
theorem L1_g : W6 m ρ c (Proc.devRef .tc main_v29) = Cert.Spec.vec0 (F := Ideal) (a m c main_arg13) := (h2_g (W5 m ρ c)).trans (congrArg _ (par5_arg13 m ρ c))
theorem L1_be : W6 m ρ c (Proc.devRef .tc main_v31) = Cert.Spec.vec0 (F := Ideal) (a m c main_arg14) := (h2_be (W5 m ρ c)).trans (congrArg _ (par5_arg14 m ρ c))

-- the perceptron region
theorem L1_z : W7 m ρ c (Proc.devRef .tc main_v42) = (Z1 m c) := by
  refine (W7_arr m ρ c 6).trans ((Cert.KernelIdeal.MlpValue2.final (V6 m ρ) c).trans ?_)
  show Cert.Spec.mlp256 (F := Ideal) (W6 m ρ c (Proc.devRef .tc main_v41)) (W6 m ρ c (Proc.devRef .tc main_v19)) (W6 m ρ c (Proc.devRef .tc main_v21)) (W6 m ρ c (Proc.devRef .tc main_v23)) (W6 m ρ c (Proc.devRef .tc main_v25)) (W6 m ρ c (Proc.devRef .tc main_v27)) = _
  rw [L1_agg m ρ c, L1_h m ρ c, L1_w1 m ρ c, L1_b1 m ρ c, L1_w2 m ρ c, L1_b2 m ρ c]
  rfl

-- the column statistics
theorem L1_z' : W8 m ρ c (Proc.devRef .tc main_v42) = (Z1 m c) := (keep3 (W7 m ρ c) main_v42).trans (L1_z m ρ c)
theorem L1_mean' : W8 m ρ c (Proc.devRef .tc main_v45) = Cert.Spec.colMean (F := Ideal) (Z1 m c) := (h3_mean (W7 m ρ c)).trans (congrArg _ (L1_z m ρ c))
theorem L1_corr : W8 m ρ c (Proc.devRef .tc main_c_9) = (constantI Cert.ReferenceIdeal.S_ 32 0#32 : Cert.Spec.Arr Ideal Cert.ReferenceIdeal.S_ .i32) := h3_corr (W7 m ρ c)
theorem L1_var : W9 m ρ c (Proc.devRef .tc main_v46) = Cert.Spec.colVar (F := Ideal) (Z1 m c) := by
  refine (h3_var (W8 m ρ c)).trans ?_
  rw [L1_z' m ρ c, L1_corr m ρ c]
  exact Cert.SpecRows.varOf_zero _
theorem L1_z'' : W9 m ρ c (Proc.devRef .tc main_v42) = (Z1 m c) := (keep3_1 (W8 m ρ c) main_v42).trans (L1_z' m ρ c)
theorem L1_mean : W9 m ρ c (Proc.devRef .tc main_v45) = Cert.Spec.colMean (F := Ideal) (Z1 m c) := (keep3_1 (W8 m ρ c) main_v45).trans (L1_mean' m ρ c)
theorem L1_g' : W9 m ρ c (Proc.devRef .tc main_v29) = Cert.Spec.vec0 (F := Ideal) (a m c main_arg13) :=
  (keep3_1 (W8 m ρ c) main_v29).trans ((keep3 (W7 m ρ c) main_v29).trans ((W7_of_ne m ρ c main_v29 (by decide)).trans (L1_g m ρ c)))
theorem L1_be' : W9 m ρ c (Proc.devRef .tc main_v31) = Cert.Spec.vec0 (F := Ideal) (a m c main_arg14) :=
  (keep3_1 (W8 m ρ c) main_v31).trans ((keep3 (W7 m ρ c) main_v31).trans ((W7_of_ne m ρ c main_v31 (by decide)).trans (L1_be m ρ c)))

-- the normalisation region
theorem out10 : W10 m ρ c (Proc.devRef .tc main_v47) = (H2 m c) := by
  refine (W10_arr m ρ c 5).trans ((Cert.KernelIdeal.BnValue.bn3 (V9 m ρ) c).trans ?_)
  show Cert.Spec.bnRelu (F := Ideal) (W9 m ρ c (Proc.devRef .tc main_v42)) (W9 m ρ c (Proc.devRef .tc main_v45)) (W9 m ρ c (Proc.devRef .tc main_v46)) (W9 m ρ c (Proc.devRef .tc main_v29)) (W9 m ρ c (Proc.devRef .tc main_v31)) = _
  rw [L1_z'' m ρ c, L1_mean m ρ c, L1_var m ρ c, L1_g' m ρ c, L1_be' m ρ c]
  rfl

theorem par10_arg2 : W10 m ρ c (Proc.devRef .tc main_arg2) = a m c main_arg2 := (carry1 m ρ c main_arg2).trans (par5_arg2 m ρ c)
theorem par10_arg9 : W10 m ρ c (Proc.devRef .tc main_arg9) = a m c main_arg9 := (carry1 m ρ c main_arg9).trans (par5_arg9 m ρ c)
theorem par10_arg10 : W10 m ρ c (Proc.devRef .tc main_arg10) = a m c main_arg10 := (carry1 m ρ c main_arg10).trans (par5_arg10 m ρ c)
theorem par10_arg11 : W10 m ρ c (Proc.devRef .tc main_arg11) = a m c main_arg11 := (carry1 m ρ c main_arg11).trans (par5_arg11 m ρ c)
theorem par10_arg12 : W10 m ρ c (Proc.devRef .tc main_arg12) = a m c main_arg12 := (carry1 m ρ c main_arg12).trans (par5_arg12 m ρ c)
theorem par10_arg13 : W10 m ρ c (Proc.devRef .tc main_arg13) = a m c main_arg13 := (carry1 m ρ c main_arg13).trans (par5_arg13 m ρ c)
theorem par10_arg14 : W10 m ρ c (Proc.devRef .tc main_arg14) = a m c main_arg14 := (carry1 m ρ c main_arg14).trans (par5_arg14 m ρ c)

/-! ## Layer 3 (the stacked parameters' slice 1) -/

/-- A buffer no operation or region of this layer writes holds, when the layer's output has been written, what it held
    when the previous layer's had. -/
theorem carry2 (b : Ref sig .tc) (h1 : b ∉ wr4 := by decide) (h2 : ∀ w, Pipeline.arrRef spec4 w ≠ b := by decide)
    (h3 : b ∉ wr5 := by decide) (h4 : b ∉ wr5_1 := by decide) (h5 : ∀ w, Pipeline.arrRef spec5 w ≠ b := by decide) :
    W15 m ρ c (Proc.devRef .tc b) = W10 m ρ c (Proc.devRef .tc b) :=
  (W15_of_ne m ρ c b h5).trans ((keep5_1 (W13 m ρ c) b h4).trans ((keep5 (W12 m ρ c) b h3).trans
    ((W12_of_ne m ρ c b h2).trans (keep4 (W10 m ρ c) b h1))))

theorem src15 : W15 m ρ c (Proc.devRef .tc main_v1) = Cert.SpecRows.srcRow (F := Ideal) (a m c main_arg1) := (carry2 m ρ c main_v1).trans (src10 m ρ c)
theorem dst15 : W15 m ρ c (Proc.devRef .tc main_v3) = Cert.SpecRows.dstRow (F := Ideal) (a m c main_arg1) := (carry2 m ρ c main_v3).trans (dst10 m ρ c)

-- the stretch before the perceptron region: slices and neighbour sums
theorem L2_agg : W11 m ρ c (Proc.devRef .tc main_v69) = Cert.Spec.nbrSum256 (F := Ideal) (H2 m c) (a m c main_arg1) := by
  refine (h4_agg (W10 m ρ c)).trans ?_
  rw [out10 m ρ c, src10 m ρ c, dst10 m ρ c]
  exact Cert.SpecRows.nbrRows256_eq _ _
theorem L2_h : W11 m ρ c (Proc.devRef .tc main_v47) = (H2 m c) := (keep4 (W10 m ρ c) main_v47).trans (out10 m ρ c)
theorem L2_w1 : W11 m ρ c (Proc.devRef .tc main_v49) = Cert.Spec.mat1 (F := Ideal) (a m c main_arg9) := (h4_w1 (W10 m ρ c)).trans (congrArg _ (par10_arg9 m ρ c))
theorem L2_b1 : W11 m ρ c (Proc.devRef .tc main_v51) = Cert.Spec.vec1 (F := Ideal) (a m c main_arg10) := (h4_b1 (W10 m ρ c)).trans (congrArg _ (par10_arg10 m ρ c))
theorem L2_w2 : W11 m ρ c (Proc.devRef .tc main_v53) = Cert.Spec.mat1 (F := Ideal) (a m c main_arg11) := (h4_w2 (W10 m ρ c)).trans (congrArg _ (par10_arg11 m ρ c))
theorem L2_b2 : W11 m ρ c (Proc.devRef .tc main_v55) = Cert.Spec.vec1 (F := Ideal) (a m c main_arg12) := (h4_b2 (W10 m ρ c)).trans (congrArg _ (par10_arg12 m ρ c))
theorem L2_g : W11 m ρ c (Proc.devRef .tc main_v57) = Cert.Spec.vec1 (F := Ideal) (a m c main_arg13) := (h4_g (W10 m ρ c)).trans (congrArg _ (par10_arg13 m ρ c))
theorem L2_be : W11 m ρ c (Proc.devRef .tc main_v59) = Cert.Spec.vec1 (F := Ideal) (a m c main_arg14) := (h4_be (W10 m ρ c)).trans (congrArg _ (par10_arg14 m ρ c))

-- the perceptron region
theorem L2_z : W12 m ρ c (Proc.devRef .tc main_v70) = (Z2 m c) := by
  refine (W12_arr m ρ c 6).trans ((Cert.KernelIdeal.MlpValue4.final (V11 m ρ) c).trans ?_)
  show Cert.Spec.mlp256 (F := Ideal) (W11 m ρ c (Proc.devRef .tc main_v69)) (W11 m ρ c (Proc.devRef .tc main_v47)) (W11 m ρ c (Proc.devRef .tc main_v49)) (W11 m ρ c (Proc.devRef .tc main_v51)) (W11 m ρ c (Proc.devRef .tc main_v53)) (W11 m ρ c (Proc.devRef .tc main_v55)) = _
  rw [L2_agg m ρ c, L2_h m ρ c, L2_w1 m ρ c, L2_b1 m ρ c, L2_w2 m ρ c, L2_b2 m ρ c]
  rfl

-- the column statistics
theorem L2_z' : W13 m ρ c (Proc.devRef .tc main_v70) = (Z2 m c) := (keep5 (W12 m ρ c) main_v70).trans (L2_z m ρ c)
theorem L2_mean' : W13 m ρ c (Proc.devRef .tc main_v73) = Cert.Spec.colMean (F := Ideal) (Z2 m c) := (h5_mean (W12 m ρ c)).trans (congrArg _ (L2_z m ρ c))
theorem L2_corr : W13 m ρ c (Proc.devRef .tc main_c_15) = (constantI Cert.ReferenceIdeal.S_ 32 0#32 : Cert.Spec.Arr Ideal Cert.ReferenceIdeal.S_ .i32) := h5_corr (W12 m ρ c)
theorem L2_var : W14 m ρ c (Proc.devRef .tc main_v74) = Cert.Spec.colVar (F := Ideal) (Z2 m c) := by
  refine (h5_var (W13 m ρ c)).trans ?_
  rw [L2_z' m ρ c, L2_corr m ρ c]
  exact Cert.SpecRows.varOf_zero _
theorem L2_z'' : W14 m ρ c (Proc.devRef .tc main_v70) = (Z2 m c) := (keep5_1 (W13 m ρ c) main_v70).trans (L2_z' m ρ c)
theorem L2_mean : W14 m ρ c (Proc.devRef .tc main_v73) = Cert.Spec.colMean (F := Ideal) (Z2 m c) := (keep5_1 (W13 m ρ c) main_v73).trans (L2_mean' m ρ c)
theorem L2_g' : W14 m ρ c (Proc.devRef .tc main_v57) = Cert.Spec.vec1 (F := Ideal) (a m c main_arg13) :=
  (keep5_1 (W13 m ρ c) main_v57).trans ((keep5 (W12 m ρ c) main_v57).trans ((W12_of_ne m ρ c main_v57 (by decide)).trans (L2_g m ρ c)))
theorem L2_be' : W14 m ρ c (Proc.devRef .tc main_v59) = Cert.Spec.vec1 (F := Ideal) (a m c main_arg14) :=
  (keep5_1 (W13 m ρ c) main_v59).trans ((keep5 (W12 m ρ c) main_v59).trans ((W12_of_ne m ρ c main_v59 (by decide)).trans (L2_be m ρ c)))

-- the normalisation region
theorem out15 : W15 m ρ c (Proc.devRef .tc main_v75) = (H3 m c) := by
  refine (W15_arr m ρ c 5).trans ((Cert.KernelIdeal.BnValue.bn5 (V14 m ρ) c).trans ?_)
  show Cert.Spec.bnRelu (F := Ideal) (W14 m ρ c (Proc.devRef .tc main_v70)) (W14 m ρ c (Proc.devRef .tc main_v73)) (W14 m ρ c (Proc.devRef .tc main_v74)) (W14 m ρ c (Proc.devRef .tc main_v57)) (W14 m ρ c (Proc.devRef .tc main_v59)) = _
  rw [L2_z'' m ρ c, L2_mean m ρ c, L2_var m ρ c, L2_g' m ρ c, L2_be' m ρ c]
  rfl

theorem par15_arg2 : W15 m ρ c (Proc.devRef .tc main_arg2) = a m c main_arg2 := (carry2 m ρ c main_arg2).trans (par10_arg2 m ρ c)
theorem par15_arg9 : W15 m ρ c (Proc.devRef .tc main_arg9) = a m c main_arg9 := (carry2 m ρ c main_arg9).trans (par10_arg9 m ρ c)
theorem par15_arg10 : W15 m ρ c (Proc.devRef .tc main_arg10) = a m c main_arg10 := (carry2 m ρ c main_arg10).trans (par10_arg10 m ρ c)
theorem par15_arg11 : W15 m ρ c (Proc.devRef .tc main_arg11) = a m c main_arg11 := (carry2 m ρ c main_arg11).trans (par10_arg11 m ρ c)
theorem par15_arg12 : W15 m ρ c (Proc.devRef .tc main_arg12) = a m c main_arg12 := (carry2 m ρ c main_arg12).trans (par10_arg12 m ρ c)
theorem par15_arg13 : W15 m ρ c (Proc.devRef .tc main_arg13) = a m c main_arg13 := (carry2 m ρ c main_arg13).trans (par10_arg13 m ρ c)
theorem par15_arg14 : W15 m ρ c (Proc.devRef .tc main_arg14) = a m c main_arg14 := (carry2 m ρ c main_arg14).trans (par10_arg14 m ρ c)

/-! ## Layer 4 (the stacked parameters' slice 2) -/

/-- A buffer no operation or region of this layer writes holds, when the layer's output has been written, what it held
    when the previous layer's had. -/
theorem carry3 (b : Ref sig .tc) (h1 : b ∉ wr6 := by decide) (h2 : ∀ w, Pipeline.arrRef spec6 w ≠ b := by decide)
    (h3 : b ∉ wr7 := by decide) (h4 : b ∉ wr7_1 := by decide) (h5 : ∀ w, Pipeline.arrRef spec7 w ≠ b := by decide) :
    W20 m ρ c (Proc.devRef .tc b) = W15 m ρ c (Proc.devRef .tc b) :=
  (W20_of_ne m ρ c b h5).trans ((keep7_1 (W18 m ρ c) b h4).trans ((keep7 (W17 m ρ c) b h3).trans
    ((W17_of_ne m ρ c b h2).trans (keep6 (W15 m ρ c) b h1))))

theorem src20 : W20 m ρ c (Proc.devRef .tc main_v1) = Cert.SpecRows.srcRow (F := Ideal) (a m c main_arg1) := (carry3 m ρ c main_v1).trans (src15 m ρ c)
theorem dst20 : W20 m ρ c (Proc.devRef .tc main_v3) = Cert.SpecRows.dstRow (F := Ideal) (a m c main_arg1) := (carry3 m ρ c main_v3).trans (dst15 m ρ c)

-- the stretch before the perceptron region: slices and neighbour sums
theorem L3_agg : W16 m ρ c (Proc.devRef .tc main_v97) = Cert.Spec.nbrSum256 (F := Ideal) (H3 m c) (a m c main_arg1) := by
  refine (h6_agg (W15 m ρ c)).trans ?_
  rw [out15 m ρ c, src15 m ρ c, dst15 m ρ c]
  exact Cert.SpecRows.nbrRows256_eq _ _
theorem L3_h : W16 m ρ c (Proc.devRef .tc main_v75) = (H3 m c) := (keep6 (W15 m ρ c) main_v75).trans (out15 m ρ c)
theorem L3_w1 : W16 m ρ c (Proc.devRef .tc main_v77) = Cert.Spec.mat2 (F := Ideal) (a m c main_arg9) := (h6_w1 (W15 m ρ c)).trans (congrArg _ (par15_arg9 m ρ c))
theorem L3_b1 : W16 m ρ c (Proc.devRef .tc main_v79) = Cert.Spec.vec2 (F := Ideal) (a m c main_arg10) := (h6_b1 (W15 m ρ c)).trans (congrArg _ (par15_arg10 m ρ c))
theorem L3_w2 : W16 m ρ c (Proc.devRef .tc main_v81) = Cert.Spec.mat2 (F := Ideal) (a m c main_arg11) := (h6_w2 (W15 m ρ c)).trans (congrArg _ (par15_arg11 m ρ c))
theorem L3_b2 : W16 m ρ c (Proc.devRef .tc main_v83) = Cert.Spec.vec2 (F := Ideal) (a m c main_arg12) := (h6_b2 (W15 m ρ c)).trans (congrArg _ (par15_arg12 m ρ c))
theorem L3_g : W16 m ρ c (Proc.devRef .tc main_v85) = Cert.Spec.vec2 (F := Ideal) (a m c main_arg13) := (h6_g (W15 m ρ c)).trans (congrArg _ (par15_arg13 m ρ c))
theorem L3_be : W16 m ρ c (Proc.devRef .tc main_v87) = Cert.Spec.vec2 (F := Ideal) (a m c main_arg14) := (h6_be (W15 m ρ c)).trans (congrArg _ (par15_arg14 m ρ c))

-- the perceptron region
theorem L3_z : W17 m ρ c (Proc.devRef .tc main_v98) = (Z3 m c) := by
  refine (W17_arr m ρ c 6).trans ((Cert.KernelIdeal.MlpValue6.final (V16 m ρ) c).trans ?_)
  show Cert.Spec.mlp256 (F := Ideal) (W16 m ρ c (Proc.devRef .tc main_v97)) (W16 m ρ c (Proc.devRef .tc main_v75)) (W16 m ρ c (Proc.devRef .tc main_v77)) (W16 m ρ c (Proc.devRef .tc main_v79)) (W16 m ρ c (Proc.devRef .tc main_v81)) (W16 m ρ c (Proc.devRef .tc main_v83)) = _
  rw [L3_agg m ρ c, L3_h m ρ c, L3_w1 m ρ c, L3_b1 m ρ c, L3_w2 m ρ c, L3_b2 m ρ c]
  rfl

-- the column statistics
theorem L3_z' : W18 m ρ c (Proc.devRef .tc main_v98) = (Z3 m c) := (keep7 (W17 m ρ c) main_v98).trans (L3_z m ρ c)
theorem L3_mean' : W18 m ρ c (Proc.devRef .tc main_v101) = Cert.Spec.colMean (F := Ideal) (Z3 m c) := (h7_mean (W17 m ρ c)).trans (congrArg _ (L3_z m ρ c))
theorem L3_corr : W18 m ρ c (Proc.devRef .tc main_c_21) = (constantI Cert.ReferenceIdeal.S_ 32 0#32 : Cert.Spec.Arr Ideal Cert.ReferenceIdeal.S_ .i32) := h7_corr (W17 m ρ c)
theorem L3_var : W19 m ρ c (Proc.devRef .tc main_v102) = Cert.Spec.colVar (F := Ideal) (Z3 m c) := by
  refine (h7_var (W18 m ρ c)).trans ?_
  rw [L3_z' m ρ c, L3_corr m ρ c]
  exact Cert.SpecRows.varOf_zero _
theorem L3_z'' : W19 m ρ c (Proc.devRef .tc main_v98) = (Z3 m c) := (keep7_1 (W18 m ρ c) main_v98).trans (L3_z' m ρ c)
theorem L3_mean : W19 m ρ c (Proc.devRef .tc main_v101) = Cert.Spec.colMean (F := Ideal) (Z3 m c) := (keep7_1 (W18 m ρ c) main_v101).trans (L3_mean' m ρ c)
theorem L3_g' : W19 m ρ c (Proc.devRef .tc main_v85) = Cert.Spec.vec2 (F := Ideal) (a m c main_arg13) :=
  (keep7_1 (W18 m ρ c) main_v85).trans ((keep7 (W17 m ρ c) main_v85).trans ((W17_of_ne m ρ c main_v85 (by decide)).trans (L3_g m ρ c)))
theorem L3_be' : W19 m ρ c (Proc.devRef .tc main_v87) = Cert.Spec.vec2 (F := Ideal) (a m c main_arg14) :=
  (keep7_1 (W18 m ρ c) main_v87).trans ((keep7 (W17 m ρ c) main_v87).trans ((W17_of_ne m ρ c main_v87 (by decide)).trans (L3_be m ρ c)))

-- the normalisation region
theorem out20 : W20 m ρ c (Proc.devRef .tc main_v103) = (H4 m c) := by
  refine (W20_arr m ρ c 5).trans ((Cert.KernelIdeal.BnValue.bn7 (V19 m ρ) c).trans ?_)
  show Cert.Spec.bnRelu (F := Ideal) (W19 m ρ c (Proc.devRef .tc main_v98)) (W19 m ρ c (Proc.devRef .tc main_v101)) (W19 m ρ c (Proc.devRef .tc main_v102)) (W19 m ρ c (Proc.devRef .tc main_v85)) (W19 m ρ c (Proc.devRef .tc main_v87)) = _
  rw [L3_z'' m ρ c, L3_mean m ρ c, L3_var m ρ c, L3_g' m ρ c, L3_be' m ρ c]
  rfl

theorem par20_arg2 : W20 m ρ c (Proc.devRef .tc main_arg2) = a m c main_arg2 := (carry3 m ρ c main_arg2).trans (par15_arg2 m ρ c)
theorem par20_arg9 : W20 m ρ c (Proc.devRef .tc main_arg9) = a m c main_arg9 := (carry3 m ρ c main_arg9).trans (par15_arg9 m ρ c)
theorem par20_arg10 : W20 m ρ c (Proc.devRef .tc main_arg10) = a m c main_arg10 := (carry3 m ρ c main_arg10).trans (par15_arg10 m ρ c)
theorem par20_arg11 : W20 m ρ c (Proc.devRef .tc main_arg11) = a m c main_arg11 := (carry3 m ρ c main_arg11).trans (par15_arg11 m ρ c)
theorem par20_arg12 : W20 m ρ c (Proc.devRef .tc main_arg12) = a m c main_arg12 := (carry3 m ρ c main_arg12).trans (par15_arg12 m ρ c)
theorem par20_arg13 : W20 m ρ c (Proc.devRef .tc main_arg13) = a m c main_arg13 := (carry3 m ρ c main_arg13).trans (par15_arg13 m ρ c)
theorem par20_arg14 : W20 m ρ c (Proc.devRef .tc main_arg14) = a m c main_arg14 := (carry3 m ρ c main_arg14).trans (par15_arg14 m ρ c)

/-! ## The result -/

theorem result : W21 m ρ c (Proc.devRef .tc main_v115)
    = Cert.Spec.net (F := Ideal) (a m c main_arg0) (a m c main_arg1) (a m c main_arg2) (a m c main_arg3) (a m c main_arg4) (a m c main_arg5) (a m c main_arg6) (a m c main_arg7) (a m c main_arg8) (a m c main_arg9) (a m c main_arg10) (a m c main_arg11) (a m c main_arg12) (a m c main_arg13) (a m c main_arg14) := by
  refine (h8_pool (W20 m ρ c)).trans ?_
  rw [out20 m ρ c, par20_arg2 m ρ c]
  exact net_eq m c

end Cert.KernelIdeal.Chain

end
-- ==== Proof.RefOps.lean ====
/-
  The reference's host operations in order, one list per window of its main function; an outlined function's
  operations stand at each of its call sites, over that call's own buffers.
-/
import proofs.«111778_j58583353917552_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem

variable {F : FTy → Type} [FloatOps F]

/-- The operations of window 0 (81 of them). -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v13 main_arg0 main_v14 (addf : (⟨S50000x128, .f32⟩ : BufTy).Contents (Elt F) → (⟨S50000x128, .f32⟩ : BufTy).Contents (Elt F) → (⟨S50000x128, .f32⟩ : BufTy).Contents (Elt F)),
    StableHlo.binary main_v14 main_arg3 main_v15 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg4 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S50000x256 ![0, 1] bcast_S1x256_S50000x256_0_1 : (⟨S1x256, .f32⟩ : BufTy).Contents (Elt F) → (⟨S50000x256, .f32⟩ : BufTy).Contents (Elt F)),
    StableHlo.binary main_v15 main_v17 main_v18 (addf : (⟨S50000x256, .f32⟩ : BufTy).Contents (Elt F) → (⟨S50000x256, .f32⟩ : BufTy).Contents (Elt F) → (⟨S50000x256, .f32⟩ : BufTy).Contents (Elt F)),
    StableHlo.nullary main_cst_1 (constant S_ .f32 0x00000000#32),
    StableHlo.unary main_cst_1 main_v19 (broadcastInDim S50000x256 ![] bcast_S_S50000x256 : (⟨S_, .f32⟩ : BufTy).Contents (Elt F) → (⟨S50000x256, .f32⟩ : BufTy).Contents (Elt F)),
    StableHlo.binary main_v18 main_v19 main_v20 (maximumf : (⟨S50000x256, .f32⟩ : BufTy).Contents (Elt F) → (⟨S50000x256, .f32⟩ : BufTy).Contents (Elt F) → (⟨S50000x256, .f32⟩ : BufTy).Contents (Elt F)),
    StableHlo.binary main_v20 main_arg5 main_v21 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg6 main_v22 (broadcastInDim S1x256 ![1] bcast_S256_S1x256_1 : (⟨S256, .f32⟩ : BufTy).Contents (Elt F) → (⟨S1x256, .f32⟩ : BufTy).Contents (Elt F)),
    StableHlo.unary main_v22 main_v23 (broadcastInDim S50000x256 ![0, 1] bcast_S1x256_S50000x256_0_1 : (⟨S1x256, .f32⟩ : BufTy).Contents (Elt F) → (⟨S50000x256, .f32⟩ : BufTy).Contents (Elt F)),
    StableHlo.binary main_v21 main_v23 main_v24 (addf : (⟨S50000x256, .f32⟩ : BufTy).Contents (Elt F) → (⟨S50000x256, .f32⟩ : BufTy).Contents (Elt F) → (⟨S50000x256, .f32⟩ : BufTy).Contents (Elt F)),
    StableHlo.nullary main_cst_2 (constant S_ .f32 0x00000000#32),
    StableHlo.binary main_v24 main_cst_2 main_v25 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_3 (constant S_ .f32 0x47435000#32),
    StableHlo.unary main_cst_3 main_v26 (broadcastInDim S256 ![] bcast_S_S256 : (⟨S_, .f32⟩ : BufTy).Contents (Elt F) → (⟨S256, .f32⟩ : BufTy).Contents (Elt F)),
    StableHlo.binary main_v25 main_v26 main_v27 (Host.divf : (⟨S256, .f32⟩ : BufTy).Contents (Elt F) → (⟨S256, .f32⟩ : BufTy).Contents (Elt F) → (⟨S256, .f32⟩ : BufTy).Contents (Elt F)),
    StableHlo.nullary main_c_4 (constantI S_ 32 0#32),
    StableHlo.TRef.nullary main_call0.cst (constant S_ .f32 0x00000000#32),
    StableHlo.TRef.binary (.of main_v24 : StableHlo.TRef sig ⟨S50000x256, .f32⟩) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (.of main_v24 : StableHlo.TRef sig ⟨S50000x256, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v27 main_v29 (broadcastInDim S1x256 ![1] bcast_S256_S1x256_1 : (⟨S256, .f32⟩ : BufTy).Contents (Elt F) → (⟨S1x256, .f32⟩ : BufTy).Contents (Elt F)),
    StableHlo.unary main_v29 main_v30 (broadcastInDim S50000x256 ![0, 1] bcast_S1x256_S50000x256_0_1 : (⟨S1x256, .f32⟩ : BufTy).Contents (Elt F) → (⟨S50000x256, .f32⟩ : BufTy).Contents (Elt F)),
    StableHlo.binary main_v24 main_v30 main_v31 (subf : (⟨S50000x256, .f32⟩ : BufTy).Contents (Elt F) → (⟨S50000x256, .f32⟩ : BufTy).Contents (Elt F) → (⟨S50000x256, .f32⟩ : BufTy).Contents (Elt F)),
    StableHlo.nullary main_cst_5 (constant S_ .f32 0x3727C5AC#32),
    StableHlo.unary main_cst_5 main_v32 (broadcastInDim S256 ![] bcast_S_S256 : (⟨S_, .f32⟩ : BufTy).Contents (Elt F) → (⟨S256, .f32⟩ : BufTy).Contents (Elt F)),
    StableHlo.binary main_v28 main_v32 main_v33 (addf : (⟨S256, .f32⟩ : BufTy).Contents (Elt F) → (⟨S256, .f32⟩ : BufTy).Contents (Elt F) → (⟨S256, .f32⟩ : BufTy).Contents (Elt F)),
    StableHlo.unary main_v33 main_v34 (Host.rsqrt : (⟨S256, .f32⟩ : BufTy).Contents (Elt F) → (⟨S256, .f32⟩ : BufTy).Contents (Elt F)),
    StableHlo.unary main_v34 main_v35 (broadcastInDim S1x256 ![1] bcast_S256_S1x256_1 : (⟨S256, .f32⟩ : BufTy).Contents (Elt F) → (⟨S1x256, .f32⟩ : BufTy).Contents (Elt F)),
    StableHlo.unary main_v35 main_v36 (broadcastInDim S50000x256 ![0, 1] bcast_S1x256_S50000x256_0_1 : (⟨S1x256, .f32⟩ : BufTy).Contents (Elt F) → (⟨S50000x256, .f32⟩ : BufTy).Contents (Elt F)),
    StableHlo.binary main_v31 main_v36 main_v37 (mulf : (⟨S50000x256, .f32⟩ : BufTy).Contents (Elt F) → (⟨S50000x256, .f32⟩ : BufTy).Contents (Elt F) → (⟨S50000x256, .f32⟩ : BufTy).Contents (Elt F)),
    StableHlo.unary main_arg7 main_v38 (broadcastInDim S1x256 ![1] bcast_S256_S1x256_1 : (⟨S256, .f32⟩ : BufTy).Contents (Elt F) → (⟨S1x256, .f32⟩ : BufTy).Contents (Elt F)),
    StableHlo.unary main_v38 main_v39 (broadcastInDim S50000x256 ![0, 1] bcast_S1x256_S50000x256_0_1 : (⟨S1x256, .f32⟩ : BufTy).Contents (Elt F) → (⟨S50000x256, .f32⟩ : BufTy).Contents (Elt F)),
    StableHlo.binary main_v37 main_v39 main_v40 (mulf : (⟨S50000x256, .f32⟩ : BufTy).Contents (Elt F) → (⟨S50000x256, .f32⟩ : BufTy).Contents (Elt F) → (⟨S50000x256, .f32⟩ : BufTy).Contents (Elt F)),
    StableHlo.unary main_arg8 main_v41 (broadcastInDim S1x256 ![1] bcast_S256_S1x256_1 : (⟨S256, .f32⟩ : BufTy).Contents (Elt F) → (⟨S1x256, .f32⟩ : BufTy).Contents (Elt F)),
    StableHlo.unary main_v41 main_v42 (broadcastInDim S50000x256 ![0, 1] bcast_S1x256_S50000x256_0_1 : (⟨S1x256, .f32⟩ : BufTy).Contents (Elt F) → (⟨S50000x256, .f32⟩ : BufTy).Contents (Elt F)),
    StableHlo.binary main_v40 main_v42 main_v43 (addf : (⟨S50000x256, .f32⟩ : BufTy).Contents (Elt F) → (⟨S50000x256, .f32⟩ : BufTy).Contents (Elt F) → (⟨S50000x256, .f32⟩ : BufTy).Contents (Elt F)),
    StableHlo.nullary main_cst_6 (constant S_ .f32 0x00000000#32),
    StableHlo.unary main_cst_6 main_v44 (broadcastInDim S50000x256 ![] bcast_S_S50000x256 : (⟨S_, .f32⟩ : BufTy).Contents (Elt F) → (⟨S50000x256, .f32⟩ : BufTy).Contents (Elt F)),
    StableHlo.binary main_v43 main_v44 main_v45 (maximumf : (⟨S50000x256, .f32⟩ : BufTy).Contents (Elt F) → (⟨S50000x256, .f32⟩ : BufTy).Contents (Elt F) → (⟨S50000x256, .f32⟩ : BufTy).Contents (Elt F)),
    StableHlo.unary main_arg9 main_v46 ((extractStridedSlice S1x256x256 ![0, 0, 0] · slices_S3x256x256_S1x256x256_0_0_0) : (⟨S3x256x256, .f32⟩ : BufTy).Contents (Elt F) → (⟨S1x256x256, .f32⟩ : BufTy).Contents (Elt F)),
    StableHlo.reshape main_v46 main_v47 rfl shapeCasts_S1x256x256_S256x256,
    StableHlo.unary main_arg10 main_v48 ((extractStridedSlice S1x256 ![0, 0] · slices_S3x256_S1x256_0_0) : (⟨S3x256, .f32⟩ : BufTy).Contents (Elt F) → (⟨S1x256, .f32⟩ : BufTy).Contents (Elt F)),
    StableHlo.reshape main_v48 main_v49 rfl shapeCasts_S1x256_S256,
    StableHlo.unary main_arg11 main_v50 ((extractStridedSlice S1x256x256 ![0, 0, 0] · slices_S3x256x256_S1x256x256_0_0_0) : (⟨S3x256x256, .f32⟩ : BufTy).Contents (Elt F) → (⟨S1x256x256, .f32⟩ : BufTy).Contents (Elt F)) ]

theorem ops0_sub : (ops0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub ..⟩

/-- The operations of window 1 (81 of them). -/
abbrev ops1 : List (HloOp τ sig (Elt F)) :=
  [ StableHlo.reshape main_v50 main_v51 rfl shapeCasts_S1x256x256_S256x256,
    StableHlo.unary main_arg12 main_v52 ((extractStridedSlice S1x256 ![0, 0] · slices_S3x256_S1x256_0_0) : (⟨S3x256, .f32⟩ : BufTy).Contents (Elt F) → (⟨S1x256, .f32⟩ : BufTy).Contents (Elt F)),
    StableHlo.reshape main_v52 main_v53 rfl shapeCasts_S1x256_S256,
    StableHlo.unary main_arg13 main_v54 ((extractStridedSlice S1x256 ![0, 0] · slices_S3x256_S1x256_0_0) : (⟨S3x256, .f32⟩ : BufTy).Contents (Elt F) → (⟨S1x256, .f32⟩ : BufTy).Contents (Elt F)),
    StableHlo.reshape main_v54 main_v55 rfl shapeCasts_S1x256_S256,
    StableHlo.unary main_arg14 main_v56 ((extractStridedSlice S1x256 ![0, 0] · slices_S3x256_S1x256_0_0) : (⟨S3x256, .f32⟩ : BufTy).Contents (Elt F) → (⟨S1x256, .f32⟩ : BufTy).Contents (Elt F)),
    StableHlo.reshape main_v56 main_v57 rfl shapeCasts_S1x256_S256,
    StableHlo.nullary main_c_7 (constantI S_ 32 0#32),
    StableHlo.unary main_c_7 main_v58 (broadcastInDim S800000 ![] bcast_S_S800000 : (⟨S_, .i32⟩ : BufTy).Contents (Elt F) → (⟨S800000, .i32⟩ : BufTy).Contents (Elt F)),
    StableHlo.binary main_v1 main_v58 main_v59 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v60 (broadcastInDim S800000 ![] bcast_S_S800000 : (⟨S_, .i32⟩ : BufTy).Contents (Elt F) → (⟨S800000, .i32⟩ : BufTy).Contents (Elt F)),
    StableHlo.binary main_v1 main_v60 main_v61 (addi : (⟨S800000, .i32⟩ : BufTy).Contents (Elt F) → (⟨S800000, .i32⟩ : BufTy).Contents (Elt F) → (⟨S800000, .i32⟩ : BufTy).Contents (Elt F)),
    StableHlo.ternary main_v59 main_v61 main_v1 main_v62 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v62 main_v63 (broadcastInDim S800000x1 ![0] bcast_S800000_S800000x1_0 : (⟨S800000, .i32⟩ : BufTy).Contents (Elt F) → (⟨S800000x1, .i32⟩ : BufTy).Contents (Elt F)),
    StableHlo.binary main_v45 main_v63 main_v64 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_9 (constant S_ .f32 0x00000000#32),
    StableHlo.unary main_cst_9 main_v65 (broadcastInDim S50000x256 ![] bcast_S_S50000x256 : (⟨S_, .f32⟩ : BufTy).Contents (Elt F) → (⟨S50000x256, .f32⟩ : BufTy).Contents (Elt F)),
    StableHlo.unary main_v3 main_v66 (broadcastInDim S800000x1 ![0] bcast_S800000_S800000x1_0 : (⟨S800000, .i32⟩ : BufTy).Contents (Elt F) → (⟨S800000x1, .i32⟩ : BufTy).Contents (Elt F)),
    StableHlo.ternary main_v65 main_v66 main_v64 main_v67 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v67 main_v45 main_v68 (addf : (⟨S50000x256, .f32⟩ : BufTy).Contents (Elt F) → (⟨S50000x256, .f32⟩ : BufTy).Contents (Elt F) → (⟨S50000x256, .f32⟩ : BufTy).Contents (Elt F)),
    StableHlo.binary main_v68 main_v47 main_v69 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v49 main_v70 (broadcastInDim S1x256 ![1] bcast_S256_S1x256_1 : (⟨S256, .f32⟩ : BufTy).Contents (Elt F) → (⟨S1x256, .f32⟩ : BufTy).Contents (Elt F)),
    StableHlo.unary main_v70 main_v71 (broadcastInDim S50000x256 ![0, 1] bcast_S1x256_S50000x256_0_1 : (⟨S1x256, .f32⟩ : BufTy).Contents (Elt F) → (⟨S50000x256, .f32⟩ : BufTy).Contents (Elt F)),
    StableHlo.binary main_v69 main_v71 main_v72 (addf : (⟨S50000x256, .f32⟩ : BufTy).Contents (Elt F) → (⟨S50000x256, .f32⟩ : BufTy).Contents (Elt F) → (⟨S50000x256, .f32⟩ : BufTy).Contents (Elt F)),
    StableHlo.nullary main_cst_10 (constant S_ .f32 0x00000000#32),
    StableHlo.unary main_cst_10 main_v73 (broadcastInDim S50000x256 ![] bcast_S_S50000x256 : (⟨S_, .f32⟩ : BufTy).Contents (Elt F) → (⟨S50000x256, .f32⟩ : BufTy).Contents (Elt F)),
    StableHlo.binary main_v72 main_v73 main_v74 (maximumf : (⟨S50000x256, .f32⟩ : BufTy).Contents (Elt F) → (⟨S50000x256, .f32⟩ : BufTy).Contents (Elt F) → (⟨S50000x256, .f32⟩ : BufTy).Contents (Elt F)),
    StableHlo.binary main_v74 main_v51 main_v75 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v53 main_v76 (broadcastInDim S1x256 ![1] bcast_S256_S1x256_1 : (⟨S256, .f32⟩ : BufTy).Contents (Elt F) → (⟨S1x256, .f32⟩ : BufTy).Contents (Elt F)),
    StableHlo.unary main_v76 main_v77 (broadcastInDim S50000x256 ![0, 1] bcast_S1x256_S50000x256_0_1 : (⟨S1x256, .f32⟩ : BufTy).Contents (Elt F) → (⟨S50000x256, .f32⟩ : BufTy).Contents (Elt F)),
    StableHlo.binary main_v75 main_v77 main_v78 (addf : (⟨S50000x256, .f32⟩ : BufTy).Contents (Elt F) → (⟨S50000x256, .f32⟩ : BufTy).Contents (Elt F) → (⟨S50000x256, .f32⟩ : BufTy).Contents (Elt F)),
    StableHlo.nullary main_cst_11 (constant S_ .f32 0x00000000#32),
    StableHlo.binary main_v78 main_cst_11 main_v79 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_12 (constant S_ .f32 0x47435000#32),
    StableHlo.unary main_cst_12 main_v80 (broadcastInDim S256 ![] bcast_S_S256 : (⟨S_, .f32⟩ : BufTy).Contents (Elt F) → (⟨S256, .f32⟩ : BufTy).Contents (Elt F)),
    StableHlo.binary main_v79 main_v80 main_v81 (Host.divf : (⟨S256, .f32⟩ : BufTy).Contents (Elt F) → (⟨S256, .f32⟩ : BufTy).Contents (Elt F) → (⟨S256, .f32⟩ : BufTy).Contents (Elt F)),
    StableHlo.nullary main_c_13 (constantI S_ 32 0#32),
    StableHlo.TRef.nullary main_call1.cst (constant S_ .f32 0x00000000#32),
    StableHlo.TRef.binary (.of main_v78 : StableHlo.TRef sig ⟨S50000x256, .f32⟩) main_call1.cst main_call1.v0 (fun x v => Host.reduceAdd x v reducesTo_S50000x256_S256_d0 h_S_),
    StableHlo.TRef.unary main_call1.v0 main_call1.v1 (broadcastInDim S1x256 ![1] bcast_S256_S1x256_1),
    StableHlo.TRef.nullary main_call1.cst_0 (constant S_ .f32 0x47435000#32),
    StableHlo.TRef.unary main_call1.cst_0 main_call1.v2 (broadcastInDim S1x256 ![] bcast_S_S1x256),
    StableHlo.TRef.binary main_call1.v1 main_call1.v2 main_call1.v3 Host.divf,
    StableHlo.TRef.unary main_call1.v3 main_call1.v4 (broadcastInDim S50000x256 ![0, 1] bcast_S1x256_S50000x256_0_1),
    StableHlo.TRef.binary (.of main_v78 : StableHlo.TRef sig ⟨S50000x256, .f32⟩) main_call1.v4 main_call1.v5 subf,
    StableHlo.TRef.binary main_call1.v5 main_call1.v5 main_call1.v6 mulf,
    StableHlo.TRef.unary (.of main_c_13 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x256_S256_d0 h_S_),
    StableHlo.TRef.unary main_call1.v8 main_call1.v10 (broadcastInDim S256 ![] bcast_S_S256),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S256 ![] bcast_S_S256),
    StableHlo.TRef.ternary main_call1.v12 main_call1.v11 main_call1.call0.v1 main_call1.call0.v2 (fun p a b => select (broadcastInDim S256 ![] bcast_S_S256 p) a b),
    StableHlo.unary main_v81 main_v83 (broadcastInDim S1x256 ![1] bcast_S256_S1x256_1 : (⟨S256, .f32⟩ : BufTy).Contents (Elt F) → (⟨S1x256, .f32⟩ : BufTy).Contents (Elt F)),
    StableHlo.unary main_v83 main_v84 (broadcastInDim S50000x256 ![0, 1] bcast_S1x256_S50000x256_0_1 : (⟨S1x256, .f32⟩ : BufTy).Contents (Elt F) → (⟨S50000x256, .f32⟩ : BufTy).Contents (Elt F)),
    StableHlo.binary main_v78 main_v84 main_v85 (subf : (⟨S50000x256, .f32⟩ : BufTy).Contents (Elt F) → (⟨S50000x256, .f32⟩ : BufTy).Contents (Elt F) → (⟨S50000x256, .f32⟩ : BufTy).Contents (Elt F)),
    StableHlo.nullary main_cst_14 (constant S_ .f32 0x3727C5AC#32),
    StableHlo.unary main_cst_14 main_v86 (broadcastInDim S256 ![] bcast_S_S256 : (⟨S_, .f32⟩ : BufTy).Contents (Elt F) → (⟨S256, .f32⟩ : BufTy).Contents (Elt F)),
    StableHlo.binary main_v82 main_v86 main_v87 (addf : (⟨S256, .f32⟩ : BufTy).Contents (Elt F) → (⟨S256, .f32⟩ : BufTy).Contents (Elt F) → (⟨S256, .f32⟩ : BufTy).Contents (Elt F)),
    StableHlo.unary main_v87 main_v88 (Host.rsqrt : (⟨S256, .f32⟩ : BufTy).Contents (Elt F) → (⟨S256, .f32⟩ : BufTy).Contents (Elt F)),
    StableHlo.unary main_v88 main_v89 (broadcastInDim S1x256 ![1] bcast_S256_S1x256_1 : (⟨S256, .f32⟩ : BufTy).Contents (Elt F) → (⟨S1x256, .f32⟩ : BufTy).Contents (Elt F)),
    StableHlo.unary main_v89 main_v90 (broadcastInDim S50000x256 ![0, 1] bcast_S1x256_S50000x256_0_1 : (⟨S1x256, .f32⟩ : BufTy).Contents (Elt F) → (⟨S50000x256, .f32⟩ : BufTy).Contents (Elt F)),
    StableHlo.binary main_v85 main_v90 main_v91 (mulf : (⟨S50000x256, .f32⟩ : BufTy).Contents (Elt F) → (⟨S50000x256, .f32⟩ : BufTy).Contents (Elt F) → (⟨S50000x256, .f32⟩ : BufTy).Contents (Elt F)),
    StableHlo.unary main_v55 main_v92 (broadcastInDim S1x256 ![1] bcast_S256_S1x256_1 : (⟨S256, .f32⟩ : BufTy).Contents (Elt F) → (⟨S1x256, .f32⟩ : BufTy).Contents (Elt F)),
    StableHlo.unary main_v92 main_v93 (broadcastInDim S50000x256 ![0, 1] bcast_S1x256_S50000x256_0_1 : (⟨S1x256, .f32⟩ : BufTy).Contents (Elt F) → (⟨S50000x256, .f32⟩ : BufTy).Contents (Elt F)),
    StableHlo.binary main_v91 main_v93 main_v94 (mulf : (⟨S50000x256, .f32⟩ : BufTy).Contents (Elt F) → (⟨S50000x256, .f32⟩ : BufTy).Contents (Elt F) → (⟨S50000x256, .f32⟩ : BufTy).Contents (Elt F)),
    StableHlo.unary main_v57 main_v95 (broadcastInDim S1x256 ![1] bcast_S256_S1x256_1 : (⟨S256, .f32⟩ : BufTy).Contents (Elt F) → (⟨S1x256, .f32⟩ : BufTy).Contents (Elt F)),
    StableHlo.unary main_v95 main_v96 (broadcastInDim S50000x256 ![0, 1] bcast_S1x256_S50000x256_0_1 : (⟨S1x256, .f32⟩ : BufTy).Contents (Elt F) → (⟨S50000x256, .f32⟩ : BufTy).Contents (Elt F)),
    StableHlo.binary main_v94 main_v96 main_v97 (addf : (⟨S50000x256, .f32⟩ : BufTy).Contents (Elt F) → (⟨S50000x256, .f32⟩ : BufTy).Contents (Elt F) → (⟨S50000x256, .f32⟩ : BufTy).Contents (Elt F)),
    StableHlo.nullary main_cst_15 (constant S_ .f32 0x00000000#32),
    StableHlo.unary main_cst_15 main_v98 (broadcastInDim S50000x256 ![] bcast_S_S50000x256 : (⟨S_, .f32⟩ : BufTy).Contents (Elt F) → (⟨S50000x256, .f32⟩ : BufTy).Contents (Elt F)),
    StableHlo.binary main_v97 main_v98 main_v99 (maximumf : (⟨S50000x256, .f32⟩ : BufTy).Contents (Elt F) → (⟨S50000x256, .f32⟩ : BufTy).Contents (Elt F) → (⟨S50000x256, .f32⟩ : BufTy).Contents (Elt F)),
    StableHlo.unary main_arg9 main_v100 ((extractStridedSlice S1x256x256 ![1, 0, 0] · slices_S3x256x256_S1x256x256_1_0_0) : (⟨S3x256x256, .f32⟩ : BufTy).Contents (Elt F) → (⟨S1x256x256, .f32⟩ : BufTy).Contents (Elt F)),
    StableHlo.reshape main_v100 main_v101 rfl shapeCasts_S1x256x256_S256x256 ]

theorem ops1_sub : (ops1 : List (HloOp τ sig (Elt F))).Forall fun op => op.bufs ⊆ StableHlo.tcRefs τ sig :=
  ⟨StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub ..⟩

/-- The operations of window 2 (81 of them). -/
abbrev ops2 : List (HloOp τ sig (Elt F)) :=
  [ StableHlo.unary main_arg10 main_v102 ((extractStridedSlice S1x256 ![1, 0] · slices_S3x256_S1x256_1_0) : (⟨S3x256, .f32⟩ : BufTy).Contents (Elt F) → (⟨S1x256, .f32⟩ : BufTy).Contents (Elt F)),
    StableHlo.reshape main_v102 main_v103 rfl shapeCasts_S1x256_S256,
    StableHlo.unary main_arg11 main_v104 ((extractStridedSlice S1x256x256 ![1, 0, 0] · slices_S3x256x256_S1x256x256_1_0_0) : (⟨S3x256x256, .f32⟩ : BufTy).Contents (Elt F) → (⟨S1x256x256, .f32⟩ : BufTy).Contents (Elt F)),
    StableHlo.reshape main_v104 main_v105 rfl shapeCasts_S1x256x256_S256x256,
    StableHlo.unary main_arg12 main_v106 ((extractStridedSlice S1x256 ![1, 0] · slices_S3x256_S1x256_1_0) : (⟨S3x256, .f32⟩ : BufTy).Contents (Elt F) → (⟨S1x256, .f32⟩ : BufTy).Contents (Elt F)),
    StableHlo.reshape main_v106 main_v107 rfl shapeCasts_S1x256_S256,
    StableHlo.unary main_arg13 main_v108 ((extractStridedSlice S1x256 ![1, 0] · slices_S3x256_S1x256_1_0) : (⟨S3x256, .f32⟩ : BufTy).Contents (Elt F) → (⟨S1x256, .f32⟩ : BufTy).Contents (Elt F)),
    StableHlo.reshape main_v108 main_v109 rfl shapeCasts_S1x256_S256,
    StableHlo.unary main_arg14 main_v110 ((extractStridedSlice S1x256 ![1, 0] · slices_S3x256_S1x256_1_0) : (⟨S3x256, .f32⟩ : BufTy).Contents (Elt F) → (⟨S1x256, .f32⟩ : BufTy).Contents (Elt F)),
    StableHlo.reshape main_v110 main_v111 rfl shapeCasts_S1x256_S256,
    StableHlo.nullary main_c_16 (constantI S_ 32 0#32),
    StableHlo.unary main_c_16 main_v112 (broadcastInDim S800000 ![] bcast_S_S800000 : (⟨S_, .i32⟩ : BufTy).Contents (Elt F) → (⟨S800000, .i32⟩ : BufTy).Contents (Elt F)),
    StableHlo.binary main_v1 main_v112 main_v113 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 50000#32),
    StableHlo.unary main_c_17 main_v114 (broadcastInDim S800000 ![] bcast_S_S800000 : (⟨S_, .i32⟩ : BufTy).Contents (Elt F) → (⟨S800000, .i32⟩ : BufTy).Contents (Elt F)),
    StableHlo.binary main_v1 main_v114 main_v115 (addi : (⟨S800000, .i32⟩ : BufTy).Contents (Elt F) → (⟨S800000, .i32⟩ : BufTy).Contents (Elt F) → (⟨S800000, .i32⟩ : BufTy).Contents (Elt F)),
    StableHlo.ternary main_v113 main_v115 main_v1 main_v116 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v116 main_v117 (broadcastInDim S800000x1 ![0] bcast_S800000_S800000x1_0 : (⟨S800000, .i32⟩ : BufTy).Contents (Elt F) → (⟨S800000x1, .i32⟩ : BufTy).Contents (Elt F)),
    StableHlo.binary main_v99 main_v117 main_v118 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_18 (constant S_ .f32 0x00000000#32),
    StableHlo.unary main_cst_18 main_v119 (broadcastInDim S50000x256 ![] bcast_S_S50000x256 : (⟨S_, .f32⟩ : BufTy).Contents (Elt F) → (⟨S50000x256, .f32⟩ : BufTy).Contents (Elt F)),
    StableHlo.unary main_v3 main_v120 (broadcastInDim S800000x1 ![0] bcast_S800000_S800000x1_0 : (⟨S800000, .i32⟩ : BufTy).Contents (Elt F) → (⟨S800000x1, .i32⟩ : BufTy).Contents (Elt F)),
    StableHlo.ternary main_v119 main_v120 main_v118 main_v121 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v121 main_v99 main_v122 (addf : (⟨S50000x256, .f32⟩ : BufTy).Contents (Elt F) → (⟨S50000x256, .f32⟩ : BufTy).Contents (Elt F) → (⟨S50000x256, .f32⟩ : BufTy).Contents (Elt F)),
    StableHlo.binary main_v122 main_v101 main_v123 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v103 main_v124 (broadcastInDim S1x256 ![1] bcast_S256_S1x256_1 : (⟨S256, .f32⟩ : BufTy).Contents (Elt F) → (⟨S1x256, .f32⟩ : BufTy).Contents (Elt F)),
    StableHlo.unary main_v124 main_v125 (broadcastInDim S50000x256 ![0, 1] bcast_S1x256_S50000x256_0_1 : (⟨S1x256, .f32⟩ : BufTy).Contents (Elt F) → (⟨S50000x256, .f32⟩ : BufTy).Contents (Elt F)),
    StableHlo.binary main_v123 main_v125 main_v126 (addf : (⟨S50000x256, .f32⟩ : BufTy).Contents (Elt F) → (⟨S50000x256, .f32⟩ : BufTy).Contents (Elt F) → (⟨S50000x256, .f32⟩ : BufTy).Contents (Elt F)),
    StableHlo.nullary main_cst_19 (constant S_ .f32 0x00000000#32),
    StableHlo.unary main_cst_19 main_v127 (broadcastInDim S50000x256 ![] bcast_S_S50000x256 : (⟨S_, .f32⟩ : BufTy).Contents (Elt F) → (⟨S50000x256, .f32⟩ : BufTy).Contents (Elt F)),
    StableHlo.binary main_v126 main_v127 main_v128 (maximumf : (⟨S50000x256, .f32⟩ : BufTy).Contents (Elt F) → (⟨S50000x256, .f32⟩ : BufTy).Contents (Elt F) → (⟨S50000x256, .f32⟩ : BufTy).Contents (Elt F)),
    StableHlo.binary main_v128 main_v105 main_v129 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v107 main_v130 (broadcastInDim S1x256 ![1] bcast_S256_S1x256_1 : (⟨S256, .f32⟩ : BufTy).Contents (Elt F) → (⟨S1x256, .f32⟩ : BufTy).Contents (Elt F)),
    StableHlo.unary main_v130 main_v131 (broadcastInDim S50000x256 ![0, 1] bcast_S1x256_S50000x256_0_1 : (⟨S1x256, .f32⟩ : BufTy).Contents (Elt F) → (⟨S50000x256, .f32⟩ : BufTy).Contents (Elt F)),
    StableHlo.binary main_v129 main_v131 main_v132 (addf : (⟨S50000x256, .f32⟩ : BufTy).Contents (Elt F) → (⟨S50000x256, .f32⟩ : BufTy).Contents (Elt F) → (⟨S50000x256, .f32⟩ : BufTy).Contents (Elt F)),
    StableHlo.nullary main_cst_20 (constant S_ .f32 0x00000000#32),
    StableHlo.binary main_v132 main_cst_20 main_v133 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_21 (constant S_ .f32 0x47435000#32),
    StableHlo.unary main_cst_21 main_v134 (broadcastInDim S256 ![] bcast_S_S256 : (⟨S_, .f32⟩ : BufTy).Contents (Elt F) → (⟨S256, .f32⟩ : BufTy).Contents (Elt F)),
    StableHlo.binary main_v133 main_v134 main_v135 (Host.divf : (⟨S256, .f32⟩ : BufTy).Contents (Elt F) → (⟨S256, .f32⟩ : BufTy).Contents (Elt F) → (⟨S256, .f32⟩ : BufTy).Contents (Elt F)),
    StableHlo.nullary main_c_22 (constantI S_ 32 0#32),
    StableHlo.TRef.nullary main_call2.cst (constant S_ .f32 0x00000000#32),
    StableHlo.TRef.binary (.of main_v132 : StableHlo.TRef sig ⟨S50000x256, .f32⟩) main_call2.cst main_call2.v0 (fun x v => Host.reduceAdd x v reducesTo_S50000x256_S256_d0 h_S_),
    StableHlo.TRef.unary main_call2.v0 main_call2.v1 (broadcastInDim S1x256 ![1] bcast_S256_S1x256_1),
    StableHlo.TRef.nullary main_call2.cst_0 (constant S_ .f32 0x47435000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S50000x256 ![0, 1] bcast_S1x256_S50000x256_0_1),
    StableHlo.TRef.binary (.of main_v132 : StableHlo.TRef sig ⟨S50000x256, .f32⟩) main_call2.v4 main_call2.v5 subf,
    StableHlo.TRef.binary main_call2.v5 main_call2.v5 main_call2.v6 mulf,
    StableHlo.TRef.unary (.of main_c_22 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v135 main_v137 (broadcastInDim S1x256 ![1] bcast_S256_S1x256_1 : (⟨S256, .f32⟩ : BufTy).Contents (Elt F) → (⟨S1x256, .f32⟩ : BufTy).Contents (Elt F)),
    StableHlo.unary main_v137 main_v138 (broadcastInDim S50000x256 ![0, 1] bcast_S1x256_S50000x256_0_1 : (⟨S1x256, .f32⟩ : BufTy).Contents (Elt F) → (⟨S50000x256, .f32⟩ : BufTy).Contents (Elt F)),
    StableHlo.binary main_v132 main_v138 main_v139 (subf : (⟨S50000x256, .f32⟩ : BufTy).Contents (Elt F) → (⟨S50000x256, .f32⟩ : BufTy).Contents (Elt F) → (⟨S50000x256, .f32⟩ : BufTy).Contents (Elt F)),
    StableHlo.nullary main_cst_23 (constant S_ .f32 0x3727C5AC#32),
    StableHlo.unary main_cst_23 main_v140 (broadcastInDim S256 ![] bcast_S_S256 : (⟨S_, .f32⟩ : BufTy).Contents (Elt F) → (⟨S256, .f32⟩ : BufTy).Contents (Elt F)),
    StableHlo.binary main_v136 main_v140 main_v141 (addf : (⟨S256, .f32⟩ : BufTy).Contents (Elt F) → (⟨S256, .f32⟩ : BufTy).Contents (Elt F) → (⟨S256, .f32⟩ : BufTy).Contents (Elt F)),
    StableHlo.unary main_v141 main_v142 (Host.rsqrt : (⟨S256, .f32⟩ : BufTy).Contents (Elt F) → (⟨S256, .f32⟩ : BufTy).Contents (Elt F)),
    StableHlo.unary main_v142 main_v143 (broadcastInDim S1x256 ![1] bcast_S256_S1x256_1 : (⟨S256, .f32⟩ : BufTy).Contents (Elt F) → (⟨S1x256, .f32⟩ : BufTy).Contents (Elt F)),
    StableHlo.unary main_v143 main_v144 (broadcastInDim S50000x256 ![0, 1] bcast_S1x256_S50000x256_0_1 : (⟨S1x256, .f32⟩ : BufTy).Contents (Elt F) → (⟨S50000x256, .f32⟩ : BufTy).Contents (Elt F)),
    StableHlo.binary main_v139 main_v144 main_v145 (mulf : (⟨S50000x256, .f32⟩ : BufTy).Contents (Elt F) → (⟨S50000x256, .f32⟩ : BufTy).Contents (Elt F) → (⟨S50000x256, .f32⟩ : BufTy).Contents (Elt F)),
    StableHlo.unary main_v109 main_v146 (broadcastInDim S1x256 ![1] bcast_S256_S1x256_1 : (⟨S256, .f32⟩ : BufTy).Contents (Elt F) → (⟨S1x256, .f32⟩ : BufTy).Contents (Elt F)),
    StableHlo.unary main_v146 main_v147 (broadcastInDim S50000x256 ![0, 1] bcast_S1x256_S50000x256_0_1 : (⟨S1x256, .f32⟩ : BufTy).Contents (Elt F) → (⟨S50000x256, .f32⟩ : BufTy).Contents (Elt F)),
    StableHlo.binary main_v145 main_v147 main_v148 (mulf : (⟨S50000x256, .f32⟩ : BufTy).Contents (Elt F) → (⟨S50000x256, .f32⟩ : BufTy).Contents (Elt F) → (⟨S50000x256, .f32⟩ : BufTy).Contents (Elt F)),
    StableHlo.unary main_v111 main_v149 (broadcastInDim S1x256 ![1] bcast_S256_S1x256_1 : (⟨S256, .f32⟩ : BufTy).Contents (Elt F) → (⟨S1x256, .f32⟩ : BufTy).Contents (Elt F)),
    StableHlo.unary main_v149 main_v150 (broadcastInDim S50000x256 ![0, 1] bcast_S1x256_S50000x256_0_1 : (⟨S1x256, .f32⟩ : BufTy).Contents (Elt F) → (⟨S50000x256, .f32⟩ : BufTy).Contents (Elt F)),
    StableHlo.binary main_v148 main_v150 main_v151 (addf : (⟨S50000x256, .f32⟩ : BufTy).Contents (Elt F) → (⟨S50000x256, .f32⟩ : BufTy).Contents (Elt F) → (⟨S50000x256, .f32⟩ : BufTy).Contents (Elt F)),
    StableHlo.nullary main_cst_24 (constant S_ .f32 0x00000000#32),
    StableHlo.unary main_cst_24 main_v152 (broadcastInDim S50000x256 ![] bcast_S_S50000x256 : (⟨S_, .f32⟩ : BufTy).Contents (Elt F) → (⟨S50000x256, .f32⟩ : BufTy).Contents (Elt F)) ]

theorem ops2_sub : (ops2 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub ..⟩

/-- The operations of window 3 (81 of them). -/
abbrev ops3 : List (HloOp τ sig (Elt F)) :=
  [ StableHlo.binary main_v151 main_v152 main_v153 (maximumf : (⟨S50000x256, .f32⟩ : BufTy).Contents (Elt F) → (⟨S50000x256, .f32⟩ : BufTy).Contents (Elt F) → (⟨S50000x256, .f32⟩ : BufTy).Contents (Elt F)),
    StableHlo.unary main_arg9 main_v154 ((extractStridedSlice S1x256x256 ![2, 0, 0] · slices_S3x256x256_S1x256x256_2_0_0) : (⟨S3x256x256, .f32⟩ : BufTy).Contents (Elt F) → (⟨S1x256x256, .f32⟩ : BufTy).Contents (Elt F)),
    StableHlo.reshape main_v154 main_v155 rfl shapeCasts_S1x256x256_S256x256,
    StableHlo.unary main_arg10 main_v156 ((extractStridedSlice S1x256 ![2, 0] · slices_S3x256_S1x256_2_0) : (⟨S3x256, .f32⟩ : BufTy).Contents (Elt F) → (⟨S1x256, .f32⟩ : BufTy).Contents (Elt F)),
    StableHlo.reshape main_v156 main_v157 rfl shapeCasts_S1x256_S256,
    StableHlo.unary main_arg11 main_v158 ((extractStridedSlice S1x256x256 ![2, 0, 0] · slices_S3x256x256_S1x256x256_2_0_0) : (⟨S3x256x256, .f32⟩ : BufTy).Contents (Elt F) → (⟨S1x256x256, .f32⟩ : BufTy).Contents (Elt F)),
    StableHlo.reshape main_v158 main_v159 rfl shapeCasts_S1x256x256_S256x256,
    StableHlo.unary main_arg12 main_v160 ((extractStridedSlice S1x256 ![2, 0] · slices_S3x256_S1x256_2_0) : (⟨S3x256, .f32⟩ : BufTy).Contents (Elt F) → (⟨S1x256, .f32⟩ : BufTy).Contents (Elt F)),
    StableHlo.reshape main_v160 main_v161 rfl shapeCasts_S1x256_S256,
    StableHlo.unary main_arg13 main_v162 ((extractStridedSlice S1x256 ![2, 0] · slices_S3x256_S1x256_2_0) : (⟨S3x256, .f32⟩ : BufTy).Contents (Elt F) → (⟨S1x256, .f32⟩ : BufTy).Contents (Elt F)),
    StableHlo.reshape main_v162 main_v163 rfl shapeCasts_S1x256_S256,
    StableHlo.unary main_arg14 main_v164 ((extractStridedSlice S1x256 ![2, 0] · slices_S3x256_S1x256_2_0) : (⟨S3x256, .f32⟩ : BufTy).Contents (Elt F) → (⟨S1x256, .f32⟩ : BufTy).Contents (Elt F)),
    StableHlo.reshape main_v164 main_v165 rfl shapeCasts_S1x256_S256,
    StableHlo.nullary main_c_25 (constantI S_ 32 0#32),
    StableHlo.unary main_c_25 main_v166 (broadcastInDim S800000 ![] bcast_S_S800000 : (⟨S_, .i32⟩ : BufTy).Contents (Elt F) → (⟨S800000, .i32⟩ : BufTy).Contents (Elt F)),
    StableHlo.binary main_v1 main_v166 main_v167 (cmpi .slt : (⟨S800000, .i32⟩ : BufTy).Contents (Elt F) → (⟨S800000, .i32⟩ : BufTy).Contents (Elt F) → (⟨S800000, .i1⟩ : BufTy).Contents (Elt F)),
    StableHlo.nullary main_c_26 (constantI S_ 32 50000#32),
    StableHlo.unary main_c_26 main_v168 (broadcastInDim S800000 ![] bcast_S_S800000 : (⟨S_, .i32⟩ : BufTy).Contents (Elt F) → (⟨S800000, .i32⟩ : BufTy).Contents (Elt F)),
    StableHlo.binary main_v1 main_v168 main_v169 (addi : (⟨S800000, .i32⟩ : BufTy).Contents (Elt F) → (⟨S800000, .i32⟩ : BufTy).Contents (Elt F) → (⟨S800000, .i32⟩ : BufTy).Contents (Elt F)),
    StableHlo.ternary main_v167 main_v169 main_v1 main_v170 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v170 main_v171 (broadcastInDim S800000x1 ![0] bcast_S800000_S800000x1_0 : (⟨S800000, .i32⟩ : BufTy).Contents (Elt F) → (⟨S800000x1, .i32⟩ : BufTy).Contents (Elt F)),
    StableHlo.binary main_v153 main_v171 main_v172 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_27 (constant S_ .f32 0x00000000#32),
    StableHlo.unary main_cst_27 main_v173 (broadcastInDim S50000x256 ![] bcast_S_S50000x256 : (⟨S_, .f32⟩ : BufTy).Contents (Elt F) → (⟨S50000x256, .f32⟩ : BufTy).Contents (Elt F)),
    StableHlo.unary main_v3 main_v174 (broadcastInDim S800000x1 ![0] bcast_S800000_S800000x1_0 : (⟨S800000, .i32⟩ : BufTy).Contents (Elt F) → (⟨S800000x1, .i32⟩ : BufTy).Contents (Elt F)),
    StableHlo.ternary main_v173 main_v174 main_v172 main_v175 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v175 main_v153 main_v176 (addf : (⟨S50000x256, .f32⟩ : BufTy).Contents (Elt F) → (⟨S50000x256, .f32⟩ : BufTy).Contents (Elt F) → (⟨S50000x256, .f32⟩ : BufTy).Contents (Elt F)),
    StableHlo.binary main_v176 main_v155 main_v177 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v157 main_v178 (broadcastInDim S1x256 ![1] bcast_S256_S1x256_1 : (⟨S256, .f32⟩ : BufTy).Contents (Elt F) → (⟨S1x256, .f32⟩ : BufTy).Contents (Elt F)),
    StableHlo.unary main_v178 main_v179 (broadcastInDim S50000x256 ![0, 1] bcast_S1x256_S50000x256_0_1 : (⟨S1x256, .f32⟩ : BufTy).Contents (Elt F) → (⟨S50000x256, .f32⟩ : BufTy).Contents (Elt F)),
    StableHlo.binary main_v177 main_v179 main_v180 (addf : (⟨S50000x256, .f32⟩ : BufTy).Contents (Elt F) → (⟨S50000x256, .f32⟩ : BufTy).Contents (Elt F) → (⟨S50000x256, .f32⟩ : BufTy).Contents (Elt F)),
    StableHlo.nullary main_cst_28 (constant S_ .f32 0x00000000#32),
    StableHlo.unary main_cst_28 main_v181 (broadcastInDim S50000x256 ![] bcast_S_S50000x256 : (⟨S_, .f32⟩ : BufTy).Contents (Elt F) → (⟨S50000x256, .f32⟩ : BufTy).Contents (Elt F)),
    StableHlo.binary main_v180 main_v181 main_v182 (maximumf : (⟨S50000x256, .f32⟩ : BufTy).Contents (Elt F) → (⟨S50000x256, .f32⟩ : BufTy).Contents (Elt F) → (⟨S50000x256, .f32⟩ : BufTy).Contents (Elt F)),
    StableHlo.binary main_v182 main_v159 main_v183 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v161 main_v184 (broadcastInDim S1x256 ![1] bcast_S256_S1x256_1 : (⟨S256, .f32⟩ : BufTy).Contents (Elt F) → (⟨S1x256, .f32⟩ : BufTy).Contents (Elt F)),
    StableHlo.unary main_v184 main_v185 (broadcastInDim S50000x256 ![0, 1] bcast_S1x256_S50000x256_0_1 : (⟨S1x256, .f32⟩ : BufTy).Contents (Elt F) → (⟨S50000x256, .f32⟩ : BufTy).Contents (Elt F)),
    StableHlo.binary main_v183 main_v185 main_v186 (addf : (⟨S50000x256, .f32⟩ : BufTy).Contents (Elt F) → (⟨S50000x256, .f32⟩ : BufTy).Contents (Elt F) → (⟨S50000x256, .f32⟩ : BufTy).Contents (Elt F)),
    StableHlo.nullary main_cst_29 (constant S_ .f32 0x00000000#32),
    StableHlo.binary main_v186 main_cst_29 main_v187 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_30 (constant S_ .f32 0x47435000#32),
    StableHlo.unary main_cst_30 main_v188 (broadcastInDim S256 ![] bcast_S_S256 : (⟨S_, .f32⟩ : BufTy).Contents (Elt F) → (⟨S256, .f32⟩ : BufTy).Contents (Elt F)),
    StableHlo.binary main_v187 main_v188 main_v189 (Host.divf : (⟨S256, .f32⟩ : BufTy).Contents (Elt F) → (⟨S256, .f32⟩ : BufTy).Contents (Elt F) → (⟨S256, .f32⟩ : BufTy).Contents (Elt F)),
    StableHlo.nullary main_c_31 (constantI S_ 32 0#32),
    StableHlo.TRef.nullary main_call3.cst (constant S_ .f32 0x00000000#32),
    StableHlo.TRef.binary (.of main_v186 : StableHlo.TRef sig ⟨S50000x256, .f32⟩) main_call3.cst main_call3.v0 (fun x v => Host.reduceAdd x v reducesTo_S50000x256_S256_d0 h_S_),
    StableHlo.TRef.unary main_call3.v0 main_call3.v1 (broadcastInDim S1x256 ![1] bcast_S256_S1x256_1),
    StableHlo.TRef.nullary main_call3.cst_0 (constant S_ .f32 0x47435000#32),
    StableHlo.TRef.unary main_call3.cst_0 main_call3.v2 (broadcastInDim S1x256 ![] bcast_S_S1x256),
    StableHlo.TRef.binary main_call3.v1 main_call3.v2 main_call3.v3 Host.divf,
    StableHlo.TRef.unary main_call3.v3 main_call3.v4 (broadcastInDim S50000x256 ![0, 1] bcast_S1x256_S50000x256_0_1),
    StableHlo.TRef.binary (.of main_v186 : StableHlo.TRef sig ⟨S50000x256, .f32⟩) main_call3.v4 main_call3.v5 subf,
    StableHlo.TRef.binary main_call3.v5 main_call3.v5 main_call3.v6 mulf,
    StableHlo.TRef.unary (.of main_c_31 : StableHlo.TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x256_S256_d0 h_S_),
    StableHlo.TRef.unary main_call3.v8 main_call3.v10 (broadcastInDim S256 ![] bcast_S_S256),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S256 ![] bcast_S_S256),
    StableHlo.TRef.ternary main_call3.v12 main_call3.v11 main_call3.call0.v1 main_call3.call0.v2 (fun p a b => select (broadcastInDim S256 ![] bcast_S_S256 p) a b),
    StableHlo.unary main_v189 main_v191 (broadcastInDim S1x256 ![1] bcast_S256_S1x256_1 : (⟨S256, .f32⟩ : BufTy).Contents (Elt F) → (⟨S1x256, .f32⟩ : BufTy).Contents (Elt F)),
    StableHlo.unary main_v191 main_v192 (broadcastInDim S50000x256 ![0, 1] bcast_S1x256_S50000x256_0_1 : (⟨S1x256, .f32⟩ : BufTy).Contents (Elt F) → (⟨S50000x256, .f32⟩ : BufTy).Contents (Elt F)),
    StableHlo.binary main_v186 main_v192 main_v193 (subf : (⟨S50000x256, .f32⟩ : BufTy).Contents (Elt F) → (⟨S50000x256, .f32⟩ : BufTy).Contents (Elt F) → (⟨S50000x256, .f32⟩ : BufTy).Contents (Elt F)),
    StableHlo.nullary main_cst_32 (constant S_ .f32 0x3727C5AC#32),
    StableHlo.unary main_cst_32 main_v194 (broadcastInDim S256 ![] bcast_S_S256 : (⟨S_, .f32⟩ : BufTy).Contents (Elt F) → (⟨S256, .f32⟩ : BufTy).Contents (Elt F)),
    StableHlo.binary main_v190 main_v194 main_v195 (addf : (⟨S256, .f32⟩ : BufTy).Contents (Elt F) → (⟨S256, .f32⟩ : BufTy).Contents (Elt F) → (⟨S256, .f32⟩ : BufTy).Contents (Elt F)),
    StableHlo.unary main_v195 main_v196 (Host.rsqrt : (⟨S256, .f32⟩ : BufTy).Contents (Elt F) → (⟨S256, .f32⟩ : BufTy).Contents (Elt F)),
    StableHlo.unary main_v196 main_v197 (broadcastInDim S1x256 ![1] bcast_S256_S1x256_1 : (⟨S256, .f32⟩ : BufTy).Contents (Elt F) → (⟨S1x256, .f32⟩ : BufTy).Contents (Elt F)),
    StableHlo.unary main_v197 main_v198 (broadcastInDim S50000x256 ![0, 1] bcast_S1x256_S50000x256_0_1 : (⟨S1x256, .f32⟩ : BufTy).Contents (Elt F) → (⟨S50000x256, .f32⟩ : BufTy).Contents (Elt F)),
    StableHlo.binary main_v193 main_v198 main_v199 (mulf : (⟨S50000x256, .f32⟩ : BufTy).Contents (Elt F) → (⟨S50000x256, .f32⟩ : BufTy).Contents (Elt F) → (⟨S50000x256, .f32⟩ : BufTy).Contents (Elt F)),
    StableHlo.unary main_v163 main_v200 (broadcastInDim S1x256 ![1] bcast_S256_S1x256_1 : (⟨S256, .f32⟩ : BufTy).Contents (Elt F) → (⟨S1x256, .f32⟩ : BufTy).Contents (Elt F)),
    StableHlo.unary main_v200 main_v201 (broadcastInDim S50000x256 ![0, 1] bcast_S1x256_S50000x256_0_1 : (⟨S1x256, .f32⟩ : BufTy).Contents (Elt F) → (⟨S50000x256, .f32⟩ : BufTy).Contents (Elt F)),
    StableHlo.binary main_v199 main_v201 main_v202 (mulf : (⟨S50000x256, .f32⟩ : BufTy).Contents (Elt F) → (⟨S50000x256, .f32⟩ : BufTy).Contents (Elt F) → (⟨S50000x256, .f32⟩ : BufTy).Contents (Elt F)),
    StableHlo.unary main_v165 main_v203 (broadcastInDim S1x256 ![1] bcast_S256_S1x256_1 : (⟨S256, .f32⟩ : BufTy).Contents (Elt F) → (⟨S1x256, .f32⟩ : BufTy).Contents (Elt F)),
    StableHlo.unary main_v203 main_v204 (broadcastInDim S50000x256 ![0, 1] bcast_S1x256_S50000x256_0_1 : (⟨S1x256, .f32⟩ : BufTy).Contents (Elt F) → (⟨S50000x256, .f32⟩ : BufTy).Contents (Elt F)) ]

theorem ops3_sub : (ops3 : List (HloOp τ sig (Elt F))).Forall fun op => op.bufs ⊆ StableHlo.tcRefs τ sig :=
  ⟨StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub ..⟩

/-- The operations of window 4 (20 of them). -/
abbrev ops4 : List (HloOp τ sig (Elt F)) :=
  [ StableHlo.binary main_v202 main_v204 main_v205 (addf : (⟨S50000x256, .f32⟩ : BufTy).Contents (Elt F) → (⟨S50000x256, .f32⟩ : BufTy).Contents (Elt F) → (⟨S50000x256, .f32⟩ : BufTy).Contents (Elt F)),
    StableHlo.nullary main_cst_33 (constant S_ .f32 0x00000000#32),
    StableHlo.unary main_cst_33 main_v206 (broadcastInDim S50000x256 ![] bcast_S_S50000x256 : (⟨S_, .f32⟩ : BufTy).Contents (Elt F) → (⟨S50000x256, .f32⟩ : BufTy).Contents (Elt F)),
    StableHlo.binary main_v205 main_v206 main_v207 (maximumf : (⟨S50000x256, .f32⟩ : BufTy).Contents (Elt F) → (⟨S50000x256, .f32⟩ : BufTy).Contents (Elt F) → (⟨S50000x256, .f32⟩ : BufTy).Contents (Elt F)),
    StableHlo.nullary main_cst_34 (constant S_ .f32 0x3F800000#32),
    StableHlo.unary main_cst_34 main_v208 (broadcastInDim S50000 ![] bcast_S_S50000 : (⟨S_, .f32⟩ : BufTy).Contents (Elt F) → (⟨S50000, .f32⟩ : BufTy).Contents (Elt F)),
    StableHlo.nullary main_cst_35 (constant S_ .f32 0x00000000#32),
    StableHlo.unary main_cst_35 main_v209 (broadcastInDim S64 ![] bcast_S_S64 : (⟨S_, .f32⟩ : BufTy).Contents (Elt F) → (⟨S64, .f32⟩ : BufTy).Contents (Elt F)),
    StableHlo.unary main_arg2 main_v210 (broadcastInDim S50000x1 ![0] bcast_S50000_S50000x1_0 : (⟨S50000, .i32⟩ : BufTy).Contents (Elt F) → (⟨S50000x1, .i32⟩ : BufTy).Contents (Elt F)),
    StableHlo.ternary main_v209 main_v210 main_v208 main_v211 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_36 (constant S_ .f32 0x00000000#32),
    StableHlo.unary main_cst_36 main_v212 (broadcastInDim S64x256 ![] bcast_S_S64x256 : (⟨S_, .f32⟩ : BufTy).Contents (Elt F) → (⟨S64x256, .f32⟩ : BufTy).Contents (Elt F)),
    StableHlo.unary main_arg2 main_v213 (broadcastInDim S50000x1 ![0] bcast_S50000_S50000x1_0 : (⟨S50000, .i32⟩ : BufTy).Contents (Elt F) → (⟨S50000x1, .i32⟩ : BufTy).Contents (Elt F)),
    StableHlo.ternary main_v212 main_v213 main_v207 main_v214 ((fun x i u => Host.scatterAdd scatter_S64x256_S50000x1_S50000x256_1_0_0_1 x i u) : (⟨S64x256, .f32⟩ : BufTy).Contents (Elt F) → (⟨S50000x1, .i32⟩ : BufTy).Contents (Elt F) → (⟨S50000x256, .f32⟩ : BufTy).Contents (Elt F) → (⟨S64x256, .f32⟩ : BufTy).Contents (Elt F)),
    StableHlo.nullary main_cst_37 (constant S_ .f32 0x3F800000#32),
    StableHlo.unary main_cst_37 main_v215 (broadcastInDim S64 ![] bcast_S_S64 : (⟨S_, .f32⟩ : BufTy).Contents (Elt F) → (⟨S64, .f32⟩ : BufTy).Contents (Elt F)),
    StableHlo.binary main_v211 main_v215 main_v216 (maximumf : (⟨S64, .f32⟩ : BufTy).Contents (Elt F) → (⟨S64, .f32⟩ : BufTy).Contents (Elt F) → (⟨S64, .f32⟩ : BufTy).Contents (Elt F)),
    StableHlo.unary main_v216 main_v217 (broadcastInDim S64x1 ![0] bcast_S64_S64x1_0 : (⟨S64, .f32⟩ : BufTy).Contents (Elt F) → (⟨S64x1, .f32⟩ : BufTy).Contents (Elt F)),
    StableHlo.unary main_v217 main_v218 (broadcastInDim S64x256 ![0, 1] bcast_S64x1_S64x256_0_1 : (⟨S64x1, .f32⟩ : BufTy).Contents (Elt F) → (⟨S64x256, .f32⟩ : BufTy).Contents (Elt F)),
    StableHlo.binary main_v214 main_v218 main_v219 (Host.divf : (⟨S64x256, .f32⟩ : BufTy).Contents (Elt F) → (⟨S64x256, .f32⟩ : BufTy).Contents (Elt F) → (⟨S64x256, .f32⟩ : BufTy).Contents (Elt F)) ]

theorem ops4_sub : (ops4 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub ..⟩

end Cert.ReferenceIdeal.RefOps

end
-- ==== Proof.RefRunMain.lean ====
/-
  The reference's main function is one straight line of host operations: each window of it is the line of that window's
  operations (an outlined function's operations standing at its call), the five windows in order are their concatenation,
  and the run of a straight line ends with every buffer at the fold of the operations over the launch contents.
-/
import proofs.«111778_j58583353917552_1_alg».proof.Proof.RefOps
import Idealize.ShloMosaic.Lib.StableHlo.Run

noncomputable section

namespace Cert.ReferenceIdeal.RefValue

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

set_option maxRecDepth 16384 in
/-- Window 0 of the main function is the line of its operations, an outlined function's standing at its call. -/
theorem part0_eq (c : Dev nD) : main_part0 (F := F) c = seq ops0 := by
  simp only [main_part0, fn_var.body, fn_where.body, seq, bind_assoc, pure_bind]
  rfl

set_option maxRecDepth 16384 in
theorem part1_eq (c : Dev nD) : main_part1 (F := F) c = seq ops1 := by
  simp only [main_part1, fn_var.body, fn_where.body, seq, bind_assoc, pure_bind]
  rfl

set_option maxRecDepth 16384 in
theorem part2_eq (c : Dev nD) : main_part2 (F := F) c = seq ops2 := by
  simp only [main_part2, fn_var.body, fn_where.body, seq, bind_assoc, pure_bind]
  rfl

set_option maxRecDepth 16384 in
theorem part3_eq (c : Dev nD) : main_part3 (F := F) c = seq ops3 := by
  simp only [main_part3, fn_var.body, fn_where.body, seq, bind_assoc, pure_bind]
  rfl

set_option maxRecDepth 16384 in
theorem part4_eq (c : Dev nD) : main_part4 (F := F) c = seq ops4 := by
  simp only [main_part4, fn_var.body, fn_where.body, seq, bind_assoc, pure_bind]

/-- All the operations of the main function, in order. -/
abbrev opsAll : List (HloOp τ sig (Elt F)) := ops0 ++ (ops1 ++ (ops2 ++ (ops3 ++ ops4)))

/-- The main function is the one line of all its operations. -/
theorem main_eq (c : Dev nD) : main (F := F) c = seq opsAll := by
  rw [opsAll, seq_append, seq_append, seq_append, seq_append,
    ← part0_eq c, ← part1_eq c, ← part2_eq c, ← part3_eq c, ← part4_eq c]
  rfl

theorem opsAll_sub : (opsAll : List (HloOp τ sig (Elt F))).Forall fun op => op.bufs ⊆ tcRefs τ sig :=
  List.forall_append.mpr ⟨ops0_sub, List.forall_append.mpr ⟨ops1_sub, List.forall_append.mpr ⟨ops2_sub,
    List.forall_append.mpr ⟨ops3_sub, ops4_sub⟩⟩⟩⟩

theorem ops0_fresh : (ops0 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops1_fresh : (ops1 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops2_fresh : (ops2 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops3_fresh : (ops3 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops4_fresh : (ops4 : List (HloOp τ sig (Elt F))).Forall fun op => op.fresh = ∅ := ⟨rfl, rfl, rfl, rfl, rfl, rfl, rfl, rfl, rfl, rfl, rfl, rfl, rfl, rfl, rfl, rfl, rfl, rfl, rfl, rfl⟩

/-- No operation leaves a buffer undetermined. -/
theorem opsAll_fresh : ∀ op ∈ (opsAll : List (HloOp τ sig (Elt F))), op.fresh = ∅ :=
  List.forall_iff_forall_mem.mp (List.forall_append.mpr ⟨ops0_fresh, List.forall_append.mpr ⟨ops1_fresh,
    List.forall_append.mpr ⟨ops2_fresh, List.forall_append.mpr ⟨ops3_fresh, ops4_fresh⟩⟩⟩⟩)

theorem scopedRefs_eq : (Finset.univ.filter fun b : Ref sig .tc => b.isScoped) = ∅ := by decide
theorem scopedSems_eq : (Finset.univ.filter fun sm : SemLoc sig => sm.isScoped .tc) = ∅ := by decide

/-- Every weakly fair execution of the main function terminates, each buffer at the fold of all the operations over
    its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after opsAll (launchContents m c) (Proc.devRef .tc b) :=
  run_seq scopedRefs_eq scopedSems_eq defs main (fun _ => opsAll) main_eq (fun _ => opsAll_sub) m ρ (fun _ => opsAll_fresh)

end Cert.ReferenceIdeal.RefValue

end
-- ==== Proof.RefRunDefs.lean ====
/-
  Vocabulary for reading the reference's fold window by window: the fold of a concatenation, and the later layers of the
  network restated over the two rows of the edge list (each window recomputes the gather and scatter indices from them).
-/
import proofs.«111778_j58583353917552_1_alg».proof.Proof.Spec
import proofs.«111778_j58583353917552_1_alg».proof.Proof.RefOps
import Idealize.ShloMosaic.Lib.StableHlo.Run

noncomputable section

namespace Cert.ReferenceIdeal.RefValue

open Cert.ReferenceIdeal Cert.ReferenceIdeal.Gen Cert.ReferenceIdeal.RefOps Cert.Spec Idealize.ShloMosaic Idealize.ShloMosaic.TcCoe Idealize.SL.Sem Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Row 0 of the edge list (the sources). -/
def row0 (ei : Arr F S2x800000 .i32) : Arr F S800000 .i32 :=
  shapeCast S800000 (extractStridedSlice S1x800000 ![0, 0] ei slices_S2x800000_S1x800000_0_0) shapeCasts_S1x800000_S800000

/-- Row 1 of the edge list (the targets). -/
def row1 (ei : Arr F S2x800000 .i32) : Arr F S800000 .i32 :=
  shapeCast S800000 (extractStridedSlice S1x800000 ![1, 0] ei slices_S2x800000_S1x800000_1_0) shapeCasts_S1x800000_S800000

/-- The gather indices from the row of sources: negative entries wrapped by 50000, as a column. -/
def srcOf (s : Arr F S800000 .i32) : Arr F S800000x1 .i32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The scatter indices from the row of targets, as a column. -/
def dstOf (t : Arr F S800000 .i32) : Arr F S800000x1 .i32 :=
  broadcastInDim S800000x1 ![0] bcast_S800000_S800000x1_0 t

/-- Neighbour sums of 256-wide features from the two rows of the edge list. -/
def nbrOf (h : Arr F S50000x256 .f32) (s t : Arr F S800000 .i32) : Arr F S50000x256 .f32 :=
  Host.scatterAdd scatter_S50000x256_S800000x1_S800000x256_1_0_0_1
    (broadcastInDim S50000x256 ![] bcast_S_S50000x256 (constant S_ .f32 0x00000000#32)) (dstOf t)
    (Host.gather gather_S50000x256_S800000x1_S800000x256_1_0_n_n_0_1_1256 h (srcOf s))

/-- A later layer's perceptron output from the two rows of the edge list. -/
def zOf (h : Arr F S50000x256 .f32) (s t : Arr F S800000 .i32) (w1 : Arr F S256x256 .f32) (b1 : Arr F S256 .f32)
    (w2 : Arr F S256x256 .f32) (b2 : Arr F S256 .f32) : Arr F S50000x256 .f32 :=
  mlp256 (nbrOf h s t) h w1 b1 w2 b2

/-- The normalised and scaled columns, before the shift and the clamp. -/
def bnPre (z : Arr F S50000x256 .f32) (mu var g : Arr F S256 .f32) : Arr F S50000x256 .f32 :=
  mulf (mulf (subf z (rows mu))
    (rows (Host.rsqrt (addf var (broadcastInDim S256 ![] bcast_S_S256 (constant S_ .f32 0x3727C5AC#32)))))) (rows g)

/-- A later layer up to the scale: its perceptron output normalised by its own column statistics and scaled. -/
def layerPre (h : Arr F S50000x256 .f32) (s t : Arr F S800000 .i32) (w1 : Arr F S256x256 .f32) (b1 : Arr F S256 .f32)
    (w2 : Arr F S256x256 .f32) (b2 g : Arr F S256 .f32) : Arr F S50000x256 .f32 :=
  bnPre (zOf h s t w1 b1 w2 b2) (colMean (zOf h s t w1 b1 w2 b2)) (colVar (zOf h s t w1 b1 w2 b2)) g

/-- A later layer from the two rows of the edge list. -/
def layerS (h : Arr F S50000x256 .f32) (s t : Arr F S800000 .i32) (w1 : Arr F S256x256 .f32) (b1 : Arr F S256 .f32)
    (w2 : Arr F S256x256 .f32) (b2 g be : Arr F S256 .f32) : Arr F S50000x256 .f32 :=
  maximumf (addf (layerPre h s t w1 b1 w2 b2 g) (rows be)) zeros

/-- A later layer reads the edge list only through its two rows. -/
theorem layerR_eq (h : Arr F S50000x256 .f32) (ei : Arr F S2x800000 .i32) (w1 : Arr F S256x256 .f32) (b1 : Arr F S256 .f32)
    (w2 : Arr F S256x256 .f32) (b2 g be : Arr F S256 .f32) :
    layerR h ei w1 b1 w2 b2 g be = layerS h (row0 ei) (row1 ei) w1 b1 w2 b2 g be := rfl

end Cert.ReferenceIdeal.RefValue

end
-- ==== Proof.RefRunW0.lean ====
/-
  Window 0 of the reference read back: what each buffer that a later window (or the result) reads holds after the
  window's operations, in terms of the contents the window was entered with; the arguments keep theirs.
-/
import proofs.«111778_j58583353917552_1_alg».proof.Proof.RefRunDefs

noncomputable section

namespace Cert.ReferenceIdeal.RefValue

open Cert.ReferenceIdeal Cert.ReferenceIdeal.Gen Cert.ReferenceIdeal.RefOps Cert.Spec Idealize.ShloMosaic Idealize.ShloMosaic.TcCoe Idealize.SL.Sem Idealize.ShloMosaic.StableHlo

variable {F : FTy → Type} [FloatOps F]

local notation "dv(" r ")" => (Proc.devRef (τ := τ) Proc.tc r)

attribute [local irreducible] Host.gather Host.scatterAdd Host.reduceAdd

set_option maxRecDepth 16384 in
set_option maxHeartbeats 2000000 in
theorem w0_v45 (V : Valuation τ sig (Elt F)) :
    after ops0 V dv(main_v45) = layer0 (V dv(main_arg0)) (V dv(main_arg1)) (V dv(main_arg3)) (V dv(main_arg4)) (V dv(main_arg5)) (V dv(main_arg6)) (V dv(main_arg7)) (V dv(main_arg8)) := by
  after_results_simp
  rfl

set_option maxRecDepth 16384 in
set_option maxHeartbeats 2000000 in
theorem w0_v1 (V : Valuation τ sig (Elt F)) :
    after ops0 V dv(main_v1) = row0 (V dv(main_arg1)) := by
  after_results_simp
  rfl

set_option maxRecDepth 16384 in
set_option maxHeartbeats 2000000 in
theorem w0_v3 (V : Valuation τ sig (Elt F)) :
    after ops0 V dv(main_v3) = row1 (V dv(main_arg1)) := by
  after_results_simp
  rfl

set_option maxRecDepth 16384 in
set_option maxHeartbeats 2000000 in
theorem w0_v47 (V : Valuation τ sig (Elt F)) :
    after ops0 V dv(main_v47) = mat0 (V dv(main_arg9)) := by
  after_results_simp
  rfl

set_option maxRecDepth 16384 in
set_option maxHeartbeats 2000000 in
theorem w0_v49 (V : Valuation τ sig (Elt F)) :
    after ops0 V dv(main_v49) = vec0 (V dv(main_arg10)) := by
  after_results_simp
  rfl

set_option maxRecDepth 16384 in
set_option maxHeartbeats 2000000 in
theorem w0_v50 (V : Valuation τ sig (Elt F)) :
    after ops0 V dv(main_v50) = extractStridedSlice S1x256x256 ![0, 0, 0] (V dv(main_arg11)) slices_S3x256x256_S1x256x256_0_0_0 := by
  after_results_simp

set_option maxRecDepth 16384 in
set_option maxHeartbeats 2000000 in
theorem w0_arg0 (V : Valuation τ sig (Elt F)) :
    after ops0 V dv(main_arg0) = (V dv(main_arg0)) := by
  after_results_simp

set_option maxRecDepth 16384 in
set_option maxHeartbeats 2000000 in
theorem w0_arg1 (V : Valuation τ sig (Elt F)) :
    after ops0 V dv(main_arg1) = (V dv(main_arg1)) := by
  after_results_simp

set_option maxRecDepth 16384 in
set_option maxHeartbeats 2000000 in
theorem w0_arg2 (V : Valuation τ sig (Elt F)) :
    after ops0 V dv(main_arg2) = (V dv(main_arg2)) := by
  after_results_simp

set_option maxRecDepth 16384 in
set_option maxHeartbeats 2000000 in
theorem w0_arg3 (V : Valuation τ sig (Elt F)) :
    after ops0 V dv(main_arg3) = (V dv(main_arg3)) := by
  after_results_simp

set_option maxRecDepth 16384 in
set_option maxHeartbeats 2000000 in
theorem w0_arg4 (V : Valuation τ sig (Elt F)) :
    after ops0 V dv(main_arg4) = (V dv(main_arg4)) := by
  after_results_simp

set_option maxRecDepth 16384 in
set_option maxHeartbeats 2000000 in
theorem w0_arg5 (V : Valuation τ sig (Elt F)) :
    after ops0 V dv(main_arg5) = (V dv(main_arg5)) := by
  after_results_simp

set_option maxRecDepth 16384 in
set_option maxHeartbeats 2000000 in
theorem w0_arg6 (V : Valuation τ sig (Elt F)) :
    after ops0 V dv(main_arg6) = (V dv(main_arg6)) := by
  after_results_simp

set_option maxRecDepth 16384 in
set_option maxHeartbeats 2000000 in
theorem w0_arg7 (V : Valuation τ sig (Elt F)) :
    after ops0 V dv(main_arg7) = (V dv(main_arg7)) := by
  after_results_simp

set_option maxRecDepth 16384 in
set_option maxHeartbeats 2000000 in
theorem w0_arg8 (V : Valuation τ sig (Elt F)) :
    after ops0 V dv(main_arg8) = (V dv(main_arg8)) := by
  after_results_simp

set_option maxRecDepth 16384 in
set_option maxHeartbeats 2000000 in
theorem w0_arg9 (V : Valuation τ sig (Elt F)) :
    after ops0 V dv(main_arg9) = (V dv(main_arg9)) := by
  after_results_simp

set_option maxRecDepth 16384 in
set_option maxHeartbeats 2000000 in
theorem w0_arg10 (V : Valuation τ sig (Elt F)) :
    after ops0 V dv(main_arg10) = (V dv(main_arg10)) := by
  after_results_simp

set_option maxRecDepth 16384 in
set_option maxHeartbeats 2000000 in
theorem w0_arg11 (V : Valuation τ sig (Elt F)) :
    after ops0 V dv(main_arg11) = (V dv(main_arg11)) := by
  after_results_simp

set_option maxRecDepth 16384 in
set_option maxHeartbeats 2000000 in
theorem w0_arg12 (V : Valuation τ sig (Elt F)) :
    after ops0 V dv(main_arg12) = (V dv(main_arg12)) := by
  after_results_simp

set_option maxRecDepth 16384 in
set_option maxHeartbeats 2000000 in
theorem w0_arg13 (V : Valuation τ sig (Elt F)) :
    after ops0 V dv(main_arg13) = (V dv(main_arg13)) := by
  after_results_simp

set_option maxRecDepth 16384 in
set_option maxHeartbeats 2000000 in
theorem w0_arg14 (V : Valuation τ sig (Elt F)) :
    after ops0 V dv(main_arg14) = (V dv(main_arg14)) := by
  after_results_simp

end Cert.ReferenceIdeal.RefValue

end
-- ==== Proof.RefRunW1.lean ====
/-
  Window 1 of the reference read back: what each buffer that a later window (or the result) reads holds after the
  window's operations, in terms of the contents the window was entered with; the arguments keep theirs.
-/
import proofs.«111778_j58583353917552_1_alg».proof.Proof.RefRunDefs

noncomputable section

namespace Cert.ReferenceIdeal.RefValue

open Cert.ReferenceIdeal Cert.ReferenceIdeal.Gen Cert.ReferenceIdeal.RefOps Cert.Spec Idealize.ShloMosaic Idealize.ShloMosaic.TcCoe Idealize.SL.Sem Idealize.ShloMosaic.StableHlo

variable {F : FTy → Type} [FloatOps F]

local notation "dv(" r ")" => (Proc.devRef (τ := τ) Proc.tc r)

attribute [local irreducible] Host.gather Host.scatterAdd Host.reduceAdd

set_option maxRecDepth 16384 in
set_option maxHeartbeats 2000000 in
theorem w1_v99 (V : Valuation τ sig (Elt F)) :
    after ops1 V dv(main_v99) = layerS (V dv(main_v45)) (V dv(main_v1)) (V dv(main_v3)) (V dv(main_v47)) (V dv(main_v49))
        (shapeCast S256x256 (V dv(main_v50)) shapeCasts_S1x256x256_S256x256) (vec0 (V dv(main_arg12))) (vec0 (V dv(main_arg13))) (vec0 (V dv(main_arg14))) := by
  after_results_simp
  rfl

set_option maxRecDepth 16384 in
set_option maxHeartbeats 2000000 in
theorem w1_v101 (V : Valuation τ sig (Elt F)) :
    after ops1 V dv(main_v101) = mat1 (V dv(main_arg9)) := by
  after_results_simp
  rfl

set_option maxRecDepth 16384 in
set_option maxHeartbeats 2000000 in
theorem w1_v1 (V : Valuation τ sig (Elt F)) :
    after ops1 V dv(main_v1) = (V dv(main_v1)) := by
  after_results_simp

set_option maxRecDepth 16384 in
set_option maxHeartbeats 2000000 in
theorem w1_v3 (V : Valuation τ sig (Elt F)) :
    after ops1 V dv(main_v3) = (V dv(main_v3)) := by
  after_results_simp

set_option maxRecDepth 16384 in
set_option maxHeartbeats 2000000 in
theorem w1_arg0 (V : Valuation τ sig (Elt F)) :
    after ops1 V dv(main_arg0) = (V dv(main_arg0)) := by
  after_results_simp

set_option maxRecDepth 16384 in
set_option maxHeartbeats 2000000 in
theorem w1_arg1 (V : Valuation τ sig (Elt F)) :
    after ops1 V dv(main_arg1) = (V dv(main_arg1)) := by
  after_results_simp

set_option maxRecDepth 16384 in
set_option maxHeartbeats 2000000 in
theorem w1_arg2 (V : Valuation τ sig (Elt F)) :
    after ops1 V dv(main_arg2) = (V dv(main_arg2)) := by
  after_results_simp

set_option maxRecDepth 16384 in
set_option maxHeartbeats 2000000 in
theorem w1_arg3 (V : Valuation τ sig (Elt F)) :
    after ops1 V dv(main_arg3) = (V dv(main_arg3)) := by
  after_results_simp

set_option maxRecDepth 16384 in
set_option maxHeartbeats 2000000 in
theorem w1_arg4 (V : Valuation τ sig (Elt F)) :
    after ops1 V dv(main_arg4) = (V dv(main_arg4)) := by
  after_results_simp

set_option maxRecDepth 16384 in
set_option maxHeartbeats 2000000 in
theorem w1_arg5 (V : Valuation τ sig (Elt F)) :
    after ops1 V dv(main_arg5) = (V dv(main_arg5)) := by
  after_results_simp

set_option maxRecDepth 16384 in
set_option maxHeartbeats 2000000 in
theorem w1_arg6 (V : Valuation τ sig (Elt F)) :
    after ops1 V dv(main_arg6) = (V dv(main_arg6)) := by
  after_results_simp

set_option maxRecDepth 16384 in
set_option maxHeartbeats 2000000 in
theorem w1_arg7 (V : Valuation τ sig (Elt F)) :
    after ops1 V dv(main_arg7) = (V dv(main_arg7)) := by
  after_results_simp

set_option maxRecDepth 16384 in
set_option maxHeartbeats 2000000 in
theorem w1_arg8 (V : Valuation τ sig (Elt F)) :
    after ops1 V dv(main_arg8) = (V dv(main_arg8)) := by
  after_results_simp

set_option maxRecDepth 16384 in
set_option maxHeartbeats 2000000 in
theorem w1_arg9 (V : Valuation τ sig (Elt F)) :
    after ops1 V dv(main_arg9) = (V dv(main_arg9)) := by
  after_results_simp

set_option maxRecDepth 16384 in
set_option maxHeartbeats 2000000 in
theorem w1_arg10 (V : Valuation τ sig (Elt F)) :
    after ops1 V dv(main_arg10) = (V dv(main_arg10)) := by
  after_results_simp

set_option maxRecDepth 16384 in
set_option maxHeartbeats 2000000 in
theorem w1_arg11 (V : Valuation τ sig (Elt F)) :
    after ops1 V dv(main_arg11) = (V dv(main_arg11)) := by
  after_results_simp

set_option maxRecDepth 16384 in
set_option maxHeartbeats 2000000 in
theorem w1_arg12 (V : Valuation τ sig (Elt F)) :
    after ops1 V dv(main_arg12) = (V dv(main_arg12)) := by
  after_results_simp

set_option maxRecDepth 16384 in
set_option maxHeartbeats 2000000 in
theorem w1_arg13 (V : Valuation τ sig (Elt F)) :
    after ops1 V dv(main_arg13) = (V dv(main_arg13)) := by
  after_results_simp

set_option maxRecDepth 16384 in
set_option maxHeartbeats 2000000 in
theorem w1_arg14 (V : Valuation τ sig (Elt F)) :
    after ops1 V dv(main_arg14) = (V dv(main_arg14)) := by
  after_results_simp

end Cert.ReferenceIdeal.RefValue

end
-- ==== Proof.RefRunW2.lean ====
/-
  Window 2 of the reference read back: what each buffer that a later window (or the result) reads holds after the
  window's operations, in terms of the contents the window was entered with; the arguments keep theirs.
-/
import proofs.«111778_j58583353917552_1_alg».proof.Proof.RefRunDefs

noncomputable section

namespace Cert.ReferenceIdeal.RefValue

open Cert.ReferenceIdeal Cert.ReferenceIdeal.Gen Cert.ReferenceIdeal.RefOps Cert.Spec Idealize.ShloMosaic Idealize.ShloMosaic.TcCoe Idealize.SL.Sem Idealize.ShloMosaic.StableHlo

variable {F : FTy → Type} [FloatOps F]

local notation "dv(" r ")" => (Proc.devRef (τ := τ) Proc.tc r)

attribute [local irreducible] Host.gather Host.scatterAdd Host.reduceAdd

set_option maxRecDepth 16384 in
set_option maxHeartbeats 2000000 in
theorem w2_v151 (V : Valuation τ sig (Elt F)) :
    after ops2 V dv(main_v151) = addf (layerPre (V dv(main_v99)) (V dv(main_v1)) (V dv(main_v3)) (V dv(main_v101)) (vec1 (V dv(main_arg10))) (mat1 (V dv(main_arg11))) (vec1 (V dv(main_arg12))) (vec1 (V dv(main_arg13))))
        (rows (vec1 (V dv(main_arg14)))) := by
  after_results_simp
  rfl

set_option maxRecDepth 16384 in
set_option maxHeartbeats 2000000 in
theorem w2_v152 (V : Valuation τ sig (Elt F)) :
    after ops2 V dv(main_v152) = zeros := by
  after_results_simp
  rfl

set_option maxRecDepth 16384 in
set_option maxHeartbeats 2000000 in
theorem w2_v1 (V : Valuation τ sig (Elt F)) :
    after ops2 V dv(main_v1) = (V dv(main_v1)) := by
  after_results_simp

set_option maxRecDepth 16384 in
set_option maxHeartbeats 2000000 in
theorem w2_v3 (V : Valuation τ sig (Elt F)) :
    after ops2 V dv(main_v3) = (V dv(main_v3)) := by
  after_results_simp

set_option maxRecDepth 16384 in
set_option maxHeartbeats 2000000 in
theorem w2_arg0 (V : Valuation τ sig (Elt F)) :
    after ops2 V dv(main_arg0) = (V dv(main_arg0)) := by
  after_results_simp

set_option maxRecDepth 16384 in
set_option maxHeartbeats 2000000 in
theorem w2_arg1 (V : Valuation τ sig (Elt F)) :
    after ops2 V dv(main_arg1) = (V dv(main_arg1)) := by
  after_results_simp

set_option maxRecDepth 16384 in
set_option maxHeartbeats 2000000 in
theorem w2_arg2 (V : Valuation τ sig (Elt F)) :
    after ops2 V dv(main_arg2) = (V dv(main_arg2)) := by
  after_results_simp

set_option maxRecDepth 16384 in
set_option maxHeartbeats 2000000 in
theorem w2_arg3 (V : Valuation τ sig (Elt F)) :
    after ops2 V dv(main_arg3) = (V dv(main_arg3)) := by
  after_results_simp

set_option maxRecDepth 16384 in
set_option maxHeartbeats 2000000 in
theorem w2_arg4 (V : Valuation τ sig (Elt F)) :
    after ops2 V dv(main_arg4) = (V dv(main_arg4)) := by
  after_results_simp

set_option maxRecDepth 16384 in
set_option maxHeartbeats 2000000 in
theorem w2_arg5 (V : Valuation τ sig (Elt F)) :
    after ops2 V dv(main_arg5) = (V dv(main_arg5)) := by
  after_results_simp

set_option maxRecDepth 16384 in
set_option maxHeartbeats 2000000 in
theorem w2_arg6 (V : Valuation τ sig (Elt F)) :
    after ops2 V dv(main_arg6) = (V dv(main_arg6)) := by
  after_results_simp

set_option maxRecDepth 16384 in
set_option maxHeartbeats 2000000 in
theorem w2_arg7 (V : Valuation τ sig (Elt F)) :
    after ops2 V dv(main_arg7) = (V dv(main_arg7)) := by
  after_results_simp

set_option maxRecDepth 16384 in
set_option maxHeartbeats 2000000 in
theorem w2_arg8 (V : Valuation τ sig (Elt F)) :
    after ops2 V dv(main_arg8) = (V dv(main_arg8)) := by
  after_results_simp

set_option maxRecDepth 16384 in
set_option maxHeartbeats 2000000 in
theorem w2_arg9 (V : Valuation τ sig (Elt F)) :
    after ops2 V dv(main_arg9) = (V dv(main_arg9)) := by
  after_results_simp

set_option maxRecDepth 16384 in
set_option maxHeartbeats 2000000 in
theorem w2_arg10 (V : Valuation τ sig (Elt F)) :
    after ops2 V dv(main_arg10) = (V dv(main_arg10)) := by
  after_results_simp

set_option maxRecDepth 16384 in
set_option maxHeartbeats 2000000 in
theorem w2_arg11 (V : Valuation τ sig (Elt F)) :
    after ops2 V dv(main_arg11) = (V dv(main_arg11)) := by
  after_results_simp

set_option maxRecDepth 16384 in
set_option maxHeartbeats 2000000 in
theorem w2_arg12 (V : Valuation τ sig (Elt F)) :
    after ops2 V dv(main_arg12) = (V dv(main_arg12)) := by
  after_results_simp

set_option maxRecDepth 16384 in
set_option maxHeartbeats 2000000 in
theorem w2_arg13 (V : Valuation τ sig (Elt F)) :
    after ops2 V dv(main_arg13) = (V dv(main_arg13)) := by
  after_results_simp

set_option maxRecDepth 16384 in
set_option maxHeartbeats 2000000 in
theorem w2_arg14 (V : Valuation τ sig (Elt F)) :
    after ops2 V dv(main_arg14) = (V dv(main_arg14)) := by
  after_results_simp

end Cert.ReferenceIdeal.RefValue

end
-- ==== Proof.RefRunW3.lean ====
/-
  Window 3 of the reference read back: what each buffer that a later window (or the result) reads holds after the
  window's operations, in terms of the contents the window was entered with; the arguments keep theirs.
-/
import proofs.«111778_j58583353917552_1_alg».proof.Proof.RefRunDefs

noncomputable section

namespace Cert.ReferenceIdeal.RefValue

open Cert.ReferenceIdeal Cert.ReferenceIdeal.Gen Cert.ReferenceIdeal.RefOps Cert.Spec Idealize.ShloMosaic Idealize.ShloMosaic.TcCoe Idealize.SL.Sem Idealize.ShloMosaic.StableHlo

variable {F : FTy → Type} [FloatOps F]

local notation "dv(" r ")" => (Proc.devRef (τ := τ) Proc.tc r)

attribute [local irreducible] Host.gather Host.scatterAdd Host.reduceAdd

set_option maxRecDepth 16384 in
set_option maxHeartbeats 2000000 in
theorem w3_v202 (V : Valuation τ sig (Elt F)) :
    after ops3 V dv(main_v202) = layerPre (maximumf (V dv(main_v151)) (V dv(main_v152))) (V dv(main_v1)) (V dv(main_v3)) (mat2 (V dv(main_arg9))) (vec2 (V dv(main_arg10))) (mat2 (V dv(main_arg11))) (vec2 (V dv(main_arg12))) (vec2 (V dv(main_arg13))) := by
  after_results_simp
  rfl

set_option maxRecDepth 16384 in
set_option maxHeartbeats 2000000 in
theorem w3_v204 (V : Valuation τ sig (Elt F)) :
    after ops3 V dv(main_v204) = rows (vec2 (V dv(main_arg14))) := by
  after_results_simp
  rfl

set_option maxRecDepth 16384 in
set_option maxHeartbeats 2000000 in
theorem w3_arg0 (V : Valuation τ sig (Elt F)) :
    after ops3 V dv(main_arg0) = (V dv(main_arg0)) := by
  after_results_simp

set_option maxRecDepth 16384 in
set_option maxHeartbeats 2000000 in
theorem w3_arg1 (V : Valuation τ sig (Elt F)) :
    after ops3 V dv(main_arg1) = (V dv(main_arg1)) := by
  after_results_simp

set_option maxRecDepth 16384 in
set_option maxHeartbeats 2000000 in
theorem w3_arg2 (V : Valuation τ sig (Elt F)) :
    after ops3 V dv(main_arg2) = (V dv(main_arg2)) := by
  after_results_simp

set_option maxRecDepth 16384 in
set_option maxHeartbeats 2000000 in
theorem w3_arg3 (V : Valuation τ sig (Elt F)) :
    after ops3 V dv(main_arg3) = (V dv(main_arg3)) := by
  after_results_simp

set_option maxRecDepth 16384 in
set_option maxHeartbeats 2000000 in
theorem w3_arg4 (V : Valuation τ sig (Elt F)) :
    after ops3 V dv(main_arg4) = (V dv(main_arg4)) := by
  after_results_simp

set_option maxRecDepth 16384 in
set_option maxHeartbeats 2000000 in
theorem w3_arg5 (V : Valuation τ sig (Elt F)) :
    after ops3 V dv(main_arg5) = (V dv(main_arg5)) := by
  after_results_simp

set_option maxRecDepth 16384 in
set_option maxHeartbeats 2000000 in
theorem w3_arg6 (V : Valuation τ sig (Elt F)) :
    after ops3 V dv(main_arg6) = (V dv(main_arg6)) := by
  after_results_simp

set_option maxRecDepth 16384 in
set_option maxHeartbeats 2000000 in
theorem w3_arg7 (V : Valuation τ sig (Elt F)) :
    after ops3 V dv(main_arg7) = (V dv(main_arg7)) := by
  after_results_simp

set_option maxRecDepth 16384 in
set_option maxHeartbeats 2000000 in
theorem w3_arg8 (V : Valuation τ sig (Elt F)) :
    after ops3 V dv(main_arg8) = (V dv(main_arg8)) := by
  after_results_simp

set_option maxRecDepth 16384 in
set_option maxHeartbeats 2000000 in
theorem w3_arg9 (V : Valuation τ sig (Elt F)) :
    after ops3 V dv(main_arg9) = (V dv(main_arg9)) := by
  after_results_simp

set_option maxRecDepth 16384 in
set_option maxHeartbeats 2000000 in
theorem w3_arg10 (V : Valuation τ sig (Elt F)) :
    after ops3 V dv(main_arg10) = (V dv(main_arg10)) := by
  after_results_simp

set_option maxRecDepth 16384 in
set_option maxHeartbeats 2000000 in
theorem w3_arg11 (V : Valuation τ sig (Elt F)) :
    after ops3 V dv(main_arg11) = (V dv(main_arg11)) := by
  after_results_simp

set_option maxRecDepth 16384 in
set_option maxHeartbeats 2000000 in
theorem w3_arg12 (V : Valuation τ sig (Elt F)) :
    after ops3 V dv(main_arg12) = (V dv(main_arg12)) := by
  after_results_simp

set_option maxRecDepth 16384 in
set_option maxHeartbeats 2000000 in
theorem w3_arg13 (V : Valuation τ sig (Elt F)) :
    after ops3 V dv(main_arg13) = (V dv(main_arg13)) := by
  after_results_simp

set_option maxRecDepth 16384 in
set_option maxHeartbeats 2000000 in
theorem w3_arg14 (V : Valuation τ sig (Elt F)) :
    after ops3 V dv(main_arg14) = (V dv(main_arg14)) := by
  after_results_simp

end Cert.ReferenceIdeal.RefValue

end
-- ==== Proof.RefRunW4.lean ====
/-
  Window 4 of the reference read back: what each buffer that a later window (or the result) reads holds after the
  window's operations, in terms of the contents the window was entered with; the arguments keep theirs.
-/
import proofs.«111778_j58583353917552_1_alg».proof.Proof.RefRunDefs

noncomputable section

namespace Cert.ReferenceIdeal.RefValue

open Cert.ReferenceIdeal Cert.ReferenceIdeal.Gen Cert.ReferenceIdeal.RefOps Cert.Spec Idealize.ShloMosaic Idealize.ShloMosaic.TcCoe Idealize.SL.Sem Idealize.ShloMosaic.StableHlo

variable {F : FTy → Type} [FloatOps F]

local notation "dv(" r ")" => (Proc.devRef (τ := τ) Proc.tc r)

attribute [local irreducible] Host.gather Host.scatterAdd Host.reduceAdd

set_option maxRecDepth 16384 in
set_option maxHeartbeats 2000000 in
theorem w4_v219 (V : Valuation τ sig (Elt F)) :
    after ops4 V dv(main_v219) = pool (maximumf (addf (V dv(main_v202)) (V dv(main_v204))) zeros) (V dv(main_arg2)) := by
  after_results_simp
  rfl

set_option maxRecDepth 16384 in
set_option maxHeartbeats 2000000 in
theorem w4_arg0 (V : Valuation τ sig (Elt F)) :
    after ops4 V dv(main_arg0) = (V dv(main_arg0)) := by
  after_results_simp

set_option maxRecDepth 16384 in
set_option maxHeartbeats 2000000 in
theorem w4_arg1 (V : Valuation τ sig (Elt F)) :
    after ops4 V dv(main_arg1) = (V dv(main_arg1)) := by
  after_results_simp

set_option maxRecDepth 16384 in
set_option maxHeartbeats 2000000 in
theorem w4_arg2 (V : Valuation τ sig (Elt F)) :
    after ops4 V dv(main_arg2) = (V dv(main_arg2)) := by
  after_results_simp

set_option maxRecDepth 16384 in
set_option maxHeartbeats 2000000 in
theorem w4_arg3 (V : Valuation τ sig (Elt F)) :
    after ops4 V dv(main_arg3) = (V dv(main_arg3)) := by
  after_results_simp

set_option maxRecDepth 16384 in
set_option maxHeartbeats 2000000 in
theorem w4_arg4 (V : Valuation τ sig (Elt F)) :
    after ops4 V dv(main_arg4) = (V dv(main_arg4)) := by
  after_results_simp

set_option maxRecDepth 16384 in
set_option maxHeartbeats 2000000 in
theorem w4_arg5 (V : Valuation τ sig (Elt F)) :
    after ops4 V dv(main_arg5) = (V dv(main_arg5)) := by
  after_results_simp

set_option maxRecDepth 16384 in
set_option maxHeartbeats 2000000 in
theorem w4_arg6 (V : Valuation τ sig (Elt F)) :
    after ops4 V dv(main_arg6) = (V dv(main_arg6)) := by
  after_results_simp

set_option maxRecDepth 16384 in
set_option maxHeartbeats 2000000 in
theorem w4_arg7 (V : Valuation τ sig (Elt F)) :
    after ops4 V dv(main_arg7) = (V dv(main_arg7)) := by
  after_results_simp

set_option maxRecDepth 16384 in
set_option maxHeartbeats 2000000 in
theorem w4_arg8 (V : Valuation τ sig (Elt F)) :
    after ops4 V dv(main_arg8) = (V dv(main_arg8)) := by
  after_results_simp

set_option maxRecDepth 16384 in
set_option maxHeartbeats 2000000 in
theorem w4_arg9 (V : Valuation τ sig (Elt F)) :
    after ops4 V dv(main_arg9) = (V dv(main_arg9)) := by
  after_results_simp

set_option maxRecDepth 16384 in
set_option maxHeartbeats 2000000 in
theorem w4_arg10 (V : Valuation τ sig (Elt F)) :
    after ops4 V dv(main_arg10) = (V dv(main_arg10)) := by
  after_results_simp

set_option maxRecDepth 16384 in
set_option maxHeartbeats 2000000 in
theorem w4_arg11 (V : Valuation τ sig (Elt F)) :
    after ops4 V dv(main_arg11) = (V dv(main_arg11)) := by
  after_results_simp

set_option maxRecDepth 16384 in
set_option maxHeartbeats 2000000 in
theorem w4_arg12 (V : Valuation τ sig (Elt F)) :
    after ops4 V dv(main_arg12) = (V dv(main_arg12)) := by
  after_results_simp

set_option maxRecDepth 16384 in
set_option maxHeartbeats 2000000 in
theorem w4_arg13 (V : Valuation τ sig (Elt F)) :
    after ops4 V dv(main_arg13) = (V dv(main_arg13)) := by
  after_results_simp

set_option maxRecDepth 16384 in
set_option maxHeartbeats 2000000 in
theorem w4_arg14 (V : Valuation τ sig (Elt F)) :
    after ops4 V dv(main_arg14) = (V dv(main_arg14)) := by
  after_results_simp

end Cert.ReferenceIdeal.RefValue

end
-- ==== Proof.RefRun.lean ====
/-
  The run of the reference: every execution of its main function terminates with the result buffer at the network
  (Spec.lean) of the fifteen arguments' launch contents, the arguments unchanged.
-/
import proofs.«111778_j58583353917552_1_alg».proof.Proof.RefRunMain
import proofs.«111778_j58583353917552_1_alg».proof.Proof.RefRunW0
import proofs.«111778_j58583353917552_1_alg».proof.Proof.RefRunW1
import proofs.«111778_j58583353917552_1_alg».proof.Proof.RefRunW2
import proofs.«111778_j58583353917552_1_alg».proof.Proof.RefRunW3
import proofs.«111778_j58583353917552_1_alg».proof.Proof.RefRunW4

noncomputable section

namespace Cert.ReferenceIdeal.RefValue

open Cert.ReferenceIdeal Cert.ReferenceIdeal.Gen Cert.ReferenceIdeal.RefOps Cert.Spec Idealize.ShloMosaic Idealize.ShloMosaic.TcCoe Idealize.SL.Sem Idealize.ShloMosaic.StableHlo

variable {F : FTy → Type} [FloatOps F]

local notation "dv(" r ")" => (Proc.devRef (τ := τ) Proc.tc r)

/-- The fold of all the operations at the result buffer is the network of the launch contents of the fifteen
    arguments: window by window from the last, each window's result read in terms of the buffers it was entered
    with, and a later layer over the two rows of the edge list is that layer over the edge list. -/
theorem net_eq (V : Valuation τ sig (Elt F)) :
    after opsAll V dv(main_v219) = net (V dv(main_arg0)) (V dv(main_arg1)) (V dv(main_arg2)) (V dv(main_arg3)) (V dv(main_arg4)) (V dv(main_arg5)) (V dv(main_arg6)) (V dv(main_arg7)) (V dv(main_arg8)) (V dv(main_arg9)) (V dv(main_arg10)) (V dv(main_arg11)) (V dv(main_arg12)) (V dv(main_arg13)) (V dv(main_arg14)) := by
  rw [opsAll, after_append, after_append, after_append, after_append]
  rw [w4_v219, w3_v202, w3_v204, w3_arg2]
  rw [w2_v151, w2_v152, w2_v1, w2_v3, w2_arg2, w2_arg9, w2_arg10, w2_arg11, w2_arg12, w2_arg13, w2_arg14]
  rw [w1_v99, w1_v101, w1_v1, w1_v3, w1_arg2, w1_arg9, w1_arg10, w1_arg11, w1_arg12, w1_arg13, w1_arg14]
  rw [w0_v45, w0_v1, w0_v3, w0_v47, w0_v49, w0_v50, w0_arg2, w0_arg9, w0_arg10, w0_arg11, w0_arg12, w0_arg13, w0_arg14]
  rfl

theorem arg0_eq (V : Valuation τ sig (Elt F)) : after opsAll V dv(main_arg0) = V dv(main_arg0) := by
  rw [opsAll, after_append, after_append, after_append, after_append, w4_arg0, w3_arg0, w2_arg0, w1_arg0, w0_arg0]

theorem arg1_eq (V : Valuation τ sig (Elt F)) : after opsAll V dv(main_arg1) = V dv(main_arg1) := by
  rw [opsAll, after_append, after_append, after_append, after_append, w4_arg1, w3_arg1, w2_arg1, w1_arg1, w0_arg1]

theorem arg2_eq (V : Valuation τ sig (Elt F)) : after opsAll V dv(main_arg2) = V dv(main_arg2) := by
  rw [opsAll, after_append, after_append, after_append, after_append, w4_arg2, w3_arg2, w2_arg2, w1_arg2, w0_arg2]

theorem arg3_eq (V : Valuation τ sig (Elt F)) : after opsAll V dv(main_arg3) = V dv(main_arg3) := by
  rw [opsAll, after_append, after_append, after_append, after_append, w4_arg3, w3_arg3, w2_arg3, w1_arg3, w0_arg3]

theorem arg4_eq (V : Valuation τ sig (Elt F)) : after opsAll V dv(main_arg4) = V dv(main_arg4) := by
  rw [opsAll, after_append, after_append, after_append, after_append, w4_arg4, w3_arg4, w2_arg4, w1_arg4, w0_arg4]

theorem arg5_eq (V : Valuation τ sig (Elt F)) : after opsAll V dv(main_arg5) = V dv(main_arg5) := by
  rw [opsAll, after_append, after_append, after_append, after_append, w4_arg5, w3_arg5, w2_arg5, w1_arg5, w0_arg5]

theorem arg6_eq (V : Valuation τ sig (Elt F)) : after opsAll V dv(main_arg6) = V dv(main_arg6) := by
  rw [opsAll, after_append, after_append, after_append, after_append, w4_arg6, w3_arg6, w2_arg6, w1_arg6, w0_arg6]

theorem arg7_eq (V : Valuation τ sig (Elt F)) : after opsAll V dv(main_arg7) = V dv(main_arg7) := by
  rw [opsAll, after_append, after_append, after_append, after_append, w4_arg7, w3_arg7, w2_arg7, w1_arg7, w0_arg7]

theorem arg8_eq (V : Valuation τ sig (Elt F)) : after opsAll V dv(main_arg8) = V dv(main_arg8) := by
  rw [opsAll, after_append, after_append, after_append, after_append, w4_arg8, w3_arg8, w2_arg8, w1_arg8, w0_arg8]

theorem arg9_eq (V : Valuation τ sig (Elt F)) : after opsAll V dv(main_arg9) = V dv(main_arg9) := by
  rw [opsAll, after_append, after_append, after_append, after_append, w4_arg9, w3_arg9, w2_arg9, w1_arg9, w0_arg9]

theorem arg10_eq (V : Valuation τ sig (Elt F)) : after opsAll V dv(main_arg10) = V dv(main_arg10) := by
  rw [opsAll, after_append, after_append, after_append, after_append, w4_arg10, w3_arg10, w2_arg10, w1_arg10, w0_arg10]

theorem arg11_eq (V : Valuation τ sig (Elt F)) : after opsAll V dv(main_arg11) = V dv(main_arg11) := by
  rw [opsAll, after_append, after_append, after_append, after_append, w4_arg11, w3_arg11, w2_arg11, w1_arg11, w0_arg11]

theorem arg12_eq (V : Valuation τ sig (Elt F)) : after opsAll V dv(main_arg12) = V dv(main_arg12) := by
  rw [opsAll, after_append, after_append, after_append, after_append, w4_arg12, w3_arg12, w2_arg12, w1_arg12, w0_arg12]

theorem arg13_eq (V : Valuation τ sig (Elt F)) : after opsAll V dv(main_arg13) = V dv(main_arg13) := by
  rw [opsAll, after_append, after_append, after_append, after_append, w4_arg13, w3_arg13, w2_arg13, w1_arg13, w0_arg13]

theorem arg14_eq (V : Valuation τ sig (Elt F)) : after opsAll V dv(main_arg14) = V dv(main_arg14) := by
  rw [opsAll, after_append, after_append, after_append, after_append, w4_arg14, w3_arg14, w2_arg14, w1_arg14, w0_arg14]

/-- On every device, for any float values, from any memory with zero counters: every weakly fair execution of the
    main function terminates with the result buffer at the network of the arguments' launch contents and the fifteen
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v219)
          = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v219).trans (net_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _)⟩)
    (run_all m ρ)

end Cert.ReferenceIdeal.RefValue

end
-- ==== Proof.lean ====
/-
  The certificate: a four-layer graph network (neighbour sums, a two-layer perceptron, batch normalisation with
  ReLU, per layer; mean pooling per graph at the end), computed by a kernel program and by a reference program.

  The kernel program runs each layer's perceptron and normalisation as kernel regions over blocks of 2000 rows and
  everything else (gathers, scatter-adds, column statistics, pooling) as host operations; the reference program is
  host operations only.  At the ideal values a change of float format is the identity, a product accumulated into
  zero is the plain product, and a row of a product depends on one row of its left factor, so each region computes
  on whole arrays exactly the stage the reference computes (Proof/MlpValue*.lean, Proof/BnValue.lean); the host
  stretches are the same operations in both programs (Proof/KernelStages.lean).  Threading the buffers through the
  program (Proof/KernelChain.lean) the kernel's result is the network's value Spec.net at the arguments, and so is
  the reference's (Proof/RefRun.lean).  Nothing here needs the inputs finite.  The three frames: the generated frames
  for the two kernel programs, the reference's run with the result dropped.  The idealization rewrote nothing.
-/
import proofs.«111778_j58583353917552_1_alg».proof.Defs
import proofs.«111778_j58583353917552_1_alg».proof.Proof.Gen.Kernel
import proofs.«111778_j58583353917552_1_alg».proof.Proof.Gen.Kernel.Frame
import proofs.«111778_j58583353917552_1_alg».proof.Proof.Gen.KernelIdeal
import proofs.«111778_j58583353917552_1_alg».proof.Proof.Gen.KernelIdeal.Frame
import proofs.«111778_j58583353917552_1_alg».proof.Proof.Gen.ReferenceIdeal
import proofs.«111778_j58583353917552_1_alg».proof.Proof.Gen.Pre_finite_inputs
import proofs.«111778_j58583353917552_1_alg».proof.Proof.KernelRun
import proofs.«111778_j58583353917552_1_alg».proof.Proof.KernelChain
import proofs.«111778_j58583353917552_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both programs end with the network's value at the arguments in their result buffers. -/
theorem algebraic : Cert.algebraic_KernelIdeal_ReferenceIdeal := by
  intro m ρ m' ρ' _ hagree
  refine ⟨fun c => Cert.Spec.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun _ h c => ⟨(h c).1.trans (Cert.KernelIdeal.Chain.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.RefValue.run (F := Ideal) m' ρ')
    obtain ⟨e0, e1, e2, e3, e4, e5, e6, e7, e8, e9, e10, e11, e12, e13, e14⟩ := hagree c
    rw [e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
